-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x256 .f32) (main_arg9 : FVec F S256 .f32) (main_arg10 : FVec F S256x1 .f32) (main_arg11 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S512x128 .f32) (main_arg7 : FVec F S128 .f32) (main_arg8 : FVec F S128x256 .f32) (main_arg9 : FVec F S256 .f32) (main_arg10 : FVec F S256x1 .f32) (main_arg11 : FVec F S1 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x400000 32) (main_arg2 : FVec F S128x512 .f32) (main_arg3 : FVec F S512 .f32) (main_arg4 : FVec F S512x128 .f32) (main_arg5 : FVec F S128 .f32) (main_arg6 : FVec F S512x128 .f32) (main_arg7 : FVec F S128 .f32) (main_arg8 : FVec F S128x256 .f32) (main_arg9 : FVec F S256 .f32) (main_arg10 : FVec F S256x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x400000 : Shape := ⟨2, ![2, 400000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x128 : Shape := ⟨2, ![400000, 128]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S1x128 : Shape := ⟨2, ![1, 128]⟩
abbrev S1x256 : Shape := ⟨2, ![1, 256]⟩
abbrev S1x1 : Shape := ⟨2, ![1, 1]⟩
abbrev S2000x1 : Shape := ⟨2, ![2000, 1]⟩
abbrev S2000x256 : Shape := ⟨2, ![2000, 256]⟩

abbrev nBuf : Space → Nat
  | .hbm => 72
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .f32⟩
  | .hbm, ⟨17, _⟩ => ⟨S400000, .f32⟩
  | .hbm, ⟨18, _⟩ => ⟨S_, .f32⟩
  | .hbm, ⟨19, _⟩ => ⟨S50000, .f32⟩
  | .hbm, ⟨20, _⟩ => ⟨S400000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000x128, .f32⟩
  | .hbm, ⟨45, _⟩ => ⟨S_, .f32⟩
  | .hbm, ⟨46, _⟩ => ⟨S50000x128, .f32⟩
  | .hbm, ⟨47, _⟩ => ⟨S400000x1, .i32⟩
  | .hbm, ⟨48, _⟩ => ⟨S50000x128, .f32⟩
  | .hbm, ⟨49, _⟩ => ⟨S1x512, .f32⟩
  | .hbm, ⟨50, _⟩ => ⟨S50000x512, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x128, .f32⟩
  | .hbm, ⟨62, _⟩ => ⟨S_, .f32⟩
  | .hbm, ⟨63, _⟩ => ⟨S50000x128, .f32⟩
  | .hbm, ⟨64, _⟩ => ⟨S400000x1, .i32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S1x256, .f32⟩
  | .hbm, ⟨69, _⟩ => ⟨S1x1, .f32⟩
  | .hbm, ⟨70, _⟩ => ⟨S50000x128, .f32⟩
  | .hbm, ⟨71, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S1x512, .f32⟩
  | .local _ .vmem, ⟨7, _⟩ => ⟨S128x512, .f32⟩
  | .local _ .vmem, ⟨8, _⟩ => ⟨S512x128, .f32⟩
  | .local _ .vmem, ⟨9, _⟩ => ⟨S2000x512, .f32⟩
  | .local _ .vmem, ⟨10, _⟩ => ⟨S2000x512, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S2000x512, .f32⟩
  | .local _ .vmem, ⟨21, _⟩ => ⟨S2000x512, .f32⟩
  | .local _ .vmem, ⟨22, _⟩ => ⟨S512x128, .f32⟩
  | .local _ .vmem, ⟨23, _⟩ => ⟨S1x128, .f32⟩
  | .local _ .vmem, ⟨24, _⟩ => ⟨S128x256, .f32⟩
  | .local _ .vmem, ⟨25, _⟩ => ⟨S1x256, .f32⟩
  | .local _ .vmem, ⟨26, _⟩ => ⟨S256x1, .f32⟩
  | .local _ .vmem, ⟨27, _⟩ => ⟨S1x1, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc1_sem12_0 : DmaSem sig := 30
abbrev cc1_sem12_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  shapeCasts_S128_S1x128 : S128.ShapeCasts S1x128
  shapeCasts_S256_S1x256 : S256.ShapeCasts S1x256
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x512_S2000x512 : S2000x512.ShapeCasts S2000x512
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  dot_S2000x128_S128x256_S2000x256_1_0_0_1_n_n_wf : DotDims.WF S2000x128 S128x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x512.size a ≤ S50000x512.size a
  hwx0_6 : ∀ i : grid0.Coords, EltTy.bits .f32 = 32 ∨ (Rect.block (s := S50000x512) S2000x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S256x1.size a
  hwx1_9 : ∀ i : grid1.Coords, EltTy.bits .f32 = 32 ∨ (Rect.block (s := S256x1) S256x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x1.size a ≤ S50000x1.size a
  hwx1_12 : ∀ i : grid1.Coords, EltTy.bits .f32 = 32 ∨ (Rect.block (s := S50000x1) S2000x1.size (cc1_transform_12 i) (hinb1_12 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S2000x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28_0) S2000x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S256x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v44_0) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v44_1) S2000x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S50000x512 : Shape := ⟨2, ![50000, 512]⟩
abbrev S500000x512 : Shape := ⟨2, ![500000, 512]⟩
abbrev S1x512 : Shape := ⟨2, ![1, 512]⟩
abbrev S500000x128 : Shape := ⟨2, ![500000, 128]⟩
abbrev S1x128 : Shape := ⟨2, ![1, 128]⟩
abbrev S50000x256 : Shape := ⟨2, ![50000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S50000, .i32⟩
  | .hbm, ⟨13, _⟩ => ⟨S1x400000, .i32⟩
  | .hbm, ⟨14, _⟩ => ⟨S400000, .i32⟩
  | .hbm, ⟨15, _⟩ => ⟨S500000, .i32⟩
  | .hbm, ⟨16, _⟩ => ⟨S1x400000, .i32⟩
  | .hbm, ⟨17, _⟩ => ⟨S400000, .i32⟩
  | .hbm, ⟨18, _⟩ => ⟨S500000, .i32⟩
  | .hbm, ⟨19, _⟩ => ⟨S_, .f32⟩
  | .hbm, ⟨20, _⟩ => ⟨S500000, .f32⟩
  | .hbm, ⟨21, _⟩ => ⟨S_, .f32⟩
  | .hbm, ⟨22, _⟩ => ⟨S50000, .f32⟩
  | .hbm, ⟨23, _⟩ => ⟨S500000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000, .f32⟩
  | .hbm, ⟨51, _⟩ => ⟨S500000, .f32⟩
  | .hbm, ⟨52, _⟩ => ⟨S50000x512, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x512, .f32⟩
  | .hbm, ⟨62, _⟩ => ⟨S500000x1, .f32⟩
  | .hbm, ⟨63, _⟩ => ⟨S500000x512, .f32⟩
  | .hbm, ⟨64, _⟩ => ⟨S500000x512, .f32⟩
  | .hbm, ⟨65, _⟩ => ⟨S_, .f32⟩
  | .hbm, ⟨66, _⟩ => ⟨S50000x512, .f32⟩
  | .hbm, ⟨67, _⟩ => ⟨S500000x1, .i32⟩
  | .hbm, ⟨68, _⟩ => ⟨S50000x512, .f32⟩
  | .hbm, ⟨69, _⟩ => ⟨S1x512, .f32⟩
  | .hbm, ⟨70, _⟩ => ⟨S50000x512, .f32⟩
  | .hbm, ⟨71, _⟩ => ⟨S50000x512, .f32⟩
  | .hbm, ⟨72, _⟩ => ⟨S_, .f32⟩
  | .hbm, ⟨73, _⟩ => ⟨S50000x512, .f32⟩
  | .hbm, ⟨74, _⟩ => ⟨S50000x512, .f32⟩
  | .hbm, ⟨75, _⟩ => ⟨S50000x128, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x128, .f32⟩
  | .hbm, ⟨85, _⟩ => ⟨S500000x1, .f32⟩
  | .hbm, ⟨86, _⟩ => ⟨S500000x128, .f32⟩
  | .hbm, ⟨87, _⟩ => ⟨S500000x128, .f32⟩
  | .hbm, ⟨88, _⟩ => ⟨S_, .f32⟩
  | .hbm, ⟨89, _⟩ => ⟨S50000x128, .f32⟩
  | .hbm, ⟨90, _⟩ => ⟨S500000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | .hbm, ⟨107, _⟩ => ⟨S_, .f32⟩
  | .hbm, ⟨108, _⟩ => ⟨S50000x256, .f32⟩
  | .hbm, ⟨109, _⟩ => ⟨S50000x256, .f32⟩
  | .hbm, ⟨110, _⟩ => ⟨S50000x1, .f32⟩
  | .hbm, ⟨111, _⟩ => ⟨S1x1, .f32⟩
  | .hbm, ⟨112, _⟩ => ⟨S50000x1, .f32⟩
  | .hbm, ⟨113, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call3_cst : Ref sig .tc := ⟨.hbm, 107, rfl⟩
abbrev main_call3_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S50000_S500000_d0 : Shape.Concatenates [S400000, S50000, S50000] S500000 0
  slices_S2x400000_S1x400000_1_0 : S2x400000.Slices ![1, 0] S1x400000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x512_0_1 : S500000x1.BroadcastsInDim S500000x512 (![0, 1] : Fin 2 → Fin S500000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S50000x128_S128x512_S50000x512_1_0_0_1_n_n_wf : DotDims.WF S50000x128 S128x512 S50000x512 [1] [0] [0] [1] [] []
  gather_S50000x512_S500000x1_S500000x512_1_0_n_n_0_1_1512_wf : GatherDims.WF S50000x512 S500000x1 S500000x512 [1] [0] [] [0] [] 1 ![1, 512]
  scatter_S50000x512_S500000x1_S500000x512_1_0_0_1_wf : ScatterDims.WF S50000x512 S500000x1 S500000x512 [1] [0] [0] 1
  dot_S50000x512_S512x128_S50000x128_1_0_0_1_n_n_wf : DotDims.WF S50000x512 S512x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x256_S50000x256_1_0_0_1_n_n_wf : DotDims.WF S50000x128 S128x256 S50000x256 [1] [0] [0] [1] [] []
  dot_S50000x256_S256x1_S50000x1_1_0_0_1_n_n_wf : DotDims.WF S50000x256 S256x1 S50000x1 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.GcnSpec.lean ====
/-
  The two-layer graph convolution with a residual projection and a two-layer head, written twice over abstract finite
  index types: once in the arrangement that aggregates the node features first and multiplies by the weight matrix
  afterwards, with the per-node factor taken out of the edge sum and the two self loops added as a diagonal term
  ("node-side" forms, suffix K), and once in the arrangement that multiplies first, weighs every edge by the product of
  the factors of its two ends, and lists the two self loops among the edges ("edge-side" forms, suffix R).

  ι : nodes, ε : edges, α : input width, β : hidden width, γ : head width.  `hit e r` says edge e ends at node r,
  `sr e` is the node edge e starts from, `dn e` the node its end is read back as (equal to r whenever `hit e r`).
  The scalar M is any type with a commutative sum, a product and a maximum: the real numbers and the extended reals
  are the two instances used.
-/
import Mathlib

open scoped BigOperators

namespace Cert.GcnSpec

variable {M : Type} [AddCommMonoid M] [Mul M] [Max M]
variable {ι ε α β γ : Type} [Fintype ι] [Fintype ε] [Fintype α] [Fintype β] [Fintype γ]
variable (hit : ε → ι → Prop) [∀ e r, Decidable (hit e r)] (sr dn : ε → ι)

/-- How many edges end at r, counted with the unit `one`. -/
def cnt (one : M) (r : ι) : M := ∑ e, if hit e r then one else 0

/-- Node-side aggregation of a per-node quantity f: the sum, over the edges ending at r, of the start node's factor
    times f at the start node. -/
def aggK (d : ι → M) (f : ι → M) (r : ι) : M := ∑ e, if hit e r then d (sr e) * f (sr e) else 0

/-- The node-side combination: factor × aggregate + (2 × factor) × factor × own value. -/
def selfK (two dr a f : M) : M := dr * a + ((two * dr) * dr) * f

/-- Edge-side aggregation of g: every edge ending at r contributes g at its start times the product of the two
    ends' factors, and node r contributes itself twice with the factor squared. -/
def aggR (d : ι → M) (g : ι → M) (r : ι) : M :=
  (∑ e, if hit e r then g (sr e) * (d (sr e) * d (dn e)) else 0) + g r * (d r * d r) + g r * (d r * d r)

variable (two zero : M) (d : ι → M)
variable (ne : ι → α → M) (W1 : α → β → M) (b1 : β → M) (W2 : β → α → M) (b2 : α → M)
  (Wres : β → α → M) (bres : α → M) (Wfc1 : α → γ → M) (bfc1 : γ → M) (Wfc2 : γ → M) (bfc2 : M)

/-- First layer, node side: aggregate the inputs at width α, then project. -/
def x1K (r : ι) (j : β) : M :=
  max (∑ k, selfK two (d r) (aggK hit sr d (fun ρ => ne ρ k) r) (ne r k) * W1 k j + b1 j) zero

/-- First layer, edge side: project, then aggregate at width β. -/
def x1R (r : ι) (j : β) : M :=
  max (aggR hit sr dn d (fun ρ => ∑ k, ne ρ k * W1 k j) r + b1 j) zero

/-- The second projection of a first-layer output. -/
def proj2 (x1 : ι → β → M) (r : ι) (c : α) : M := ∑ j, x1 r j * W2 j c

/-- Second layer, node side, from the projected rows h. -/
def x2K (h : ι → α → M) (r : ι) (c : α) : M :=
  max (selfK two (d r) (aggK hit sr d (fun ρ => h ρ c) r) (h r c) + b2 c) zero

/-- Second layer, edge side, from the projected rows h. -/
def x2R (h : ι → α → M) (r : ι) (c : α) : M :=
  max (aggR hit sr dn d (fun ρ => h ρ c) r + b2 c) zero

/-- The residual sum, bias added to the projection first. -/
def resK (x2 : ι → α → M) (x1 : ι → β → M) (r : ι) (c : α) : M := x2 r c + (∑ j, x1 r j * Wres j c + bres c)

/-- The residual sum, bias added last. -/
def resR (x2 : ι → α → M) (x1 : ι → β → M) (r : ι) (c : α) : M := (x2 r c + ∑ j, x1 r j * Wres j c) + bres c

/-- The two-layer head on a row of x. -/
def head (x : ι → α → M) (r : ι) : M :=
  ∑ k, max (∑ c, x r c * Wfc1 c k + bfc1 k) zero * Wfc2 k + bfc2

/-- The first result, node side. -/
def xK (r : ι) (c : α) : M :=
  resK Wres bres (x2K hit sr two zero d b2 (proj2 W2 (x1K hit sr two zero d ne W1 b1)))
    (x1K hit sr two zero d ne W1 b1) r c

/-- The first result, edge side. -/
def xR (r : ι) (c : α) : M :=
  resR Wres bres (x2R hit sr dn zero d b2 (proj2 W2 (x1R hit sr dn zero d ne W1 b1)))
    (x1R hit sr dn zero d ne W1 b1) r c

/-- The second result, node side. -/
def AK (r : ι) : M := head zero Wfc1 bfc1 Wfc2 bfc2 (xK hit sr two zero d ne W1 b1 W2 b2 Wres bres) r

/-- The second result, edge side. -/
def AR (r : ι) : M := head zero Wfc1 bfc1 Wfc2 bfc2 (xR hit sr dn zero d ne W1 b1 W2 b2 Wres bres) r

end Cert.GcnSpec
-- ==== Proof.GcnData.lean ====
/-
  The graph read off the integer argument, and the per-node normalisation factor.

  The edge list is a 2 × 400000 array of 32-bit words: row 0 holds the start nodes, row 1 the end nodes, over 50000
  nodes. An edge e "ends at" node r when its end word, read as a signed integer, is r: this is how an accumulating
  scatter places it (a word outside the node range places nothing). When an edge's node is used to fetch a row, the
  word first wraps (a negative word has 50000 added) and is then clamped into the node range.
  The degree of r is the number of edges ending at r plus the two self loops; the factor is degree^(-1/2), guarded by
  degree > 0 exactly as both programs write it. Since the degree is at least 2 the factor is a positive real.
-/
import Mathlib
import Idealize.ShloMosaic.PureOps.Ideal
import Idealize.ShloMosaic.PureOps.Ideal.Laws
import Idealize.ShloMosaic.Lib.ValueIdx
import proofs.«168154_j70214125355147_2_alg».proof.Proof.LibRowGatherScatter
import proofs.«168154_j70214125355147_2_alg».proof.Proof.GcnSpec

open scoped BigOperators

noncomputable section

namespace Cert.GcnData

open Idealize.ShloMosaic Idealize.ShloMosaic.ValueIdx Cert.LibRowGatherScatter

/-- The edge list: two rows of 400000 index words. -/
abbrev Edges := IVec (⟨2, ![2, 400000]⟩ : Shape) 32

/-- Edge e ends at node r: its end word, read signed, is r. -/
def hit (a1 : Edges) (e : Fin 400000) (r : Fin 50000) : Prop := (a1 (ix2 (1 : Fin 2) e)).toInt = (r.val : ℤ)

instance (a1 : Edges) (e : Fin 400000) (r : Fin 50000) : Decidable (hit a1 e r) := by unfold hit; infer_instance

/-- A negative index word has the number of nodes added to it. -/
def wrap (w : BitVec 32) : BitVec 32 := Scalar.select (IntOp.cmpi .slt w 0#32) (IntOp.addi w 50000#32) w

theorem n_pos : 0 < 50000 := by norm_num

/-- The node edge e starts from, as a row fetch reads it. -/
def sr (a1 : Edges) (e : Fin 400000) : Fin 50000 := clampRow 50000 n_pos (wrap (a1 (ix2 (0 : Fin 2) e)))

/-- The node edge e ends at, as a row fetch reads it. -/
def dn (a1 : Edges) (e : Fin 400000) : Fin 50000 := clampRow 50000 n_pos (wrap (a1 (ix2 (1 : Fin 2) e)))

/-- A word whose signed value is a node number is not negative, so it does not wrap, and clamping leaves it. -/
theorem clamp_wrap_of_toInt (w : BitVec 32) (r : Fin 50000) (h : w.toInt = (r.val : ℤ)) :
    clampRow 50000 n_pos (wrap w) = r := by
  have hr := r.isLt
  have hnn : ¬ w.slt 0#32 = true := by
    rw [BitVec.slt_iff_toInt_lt] ; simp only [BitVec.toInt_zero]; omega
  have hw : wrap w = w := by
    unfold wrap IntOp.cmpi Scalar.select
    simp only [hnn, BitVec.ofBool_false]
    rfl
  rw [hw]
  apply Fin.ext
  simp only [clampRow, h]
  omega

/-- An edge that ends at r is read back as ending at r. -/
theorem dn_of_hit (a1 : Edges) (e : Fin 400000) (r : Fin 50000) (h : hit a1 e r) : dn a1 e = r :=
  clamp_wrap_of_toInt _ r h

/-- The guarded inverse square root both programs apply to a degree. -/
def dinvOf (deg : EReal) : EReal :=
  Scalar.select (Ideal.cmp .ogt deg (0 : EReal)) (Ideal.rsqrt deg) (0 : EReal)

/-- The number of edges ending at r, as an extended real. -/
def count (a1 : Edges) (r : Fin 50000) : EReal := Cert.GcnSpec.cnt (hit a1) (1 : EReal) r

/-- The factor of node r. -/
def dfac (a1 : Edges) (r : Fin 50000) : EReal := dinvOf (count a1 r + 2)

/-- A count of ones is a natural number. -/
theorem count_nat (a1 : Edges) (r : Fin 50000) : ∃ n : ℕ, count a1 r = ((n : ℝ) : EReal) := by
  unfold count Cert.GcnSpec.cnt
  rw [← Finset.sum_filter, Finset.sum_const]
  generalize (Finset.univ.filter fun e => hit a1 e r).card = n
  exact ⟨n, by simp⟩

/-- The guarded inverse square root of a positive real is a real. -/
theorem dinvOf_pos_real (x : ℝ) (hx : 0 < x) : dinvOf (x : EReal) = (((Real.sqrt x)⁻¹ : ℝ) : EReal) := by
  unfold dinvOf Ideal.cmp Scalar.select
  have h1 : ((0 : EReal) < (x : EReal)) := by exact_mod_cast hx
  simp only [h1, decide_true, BitVec.ofBool_true, if_true]
  rw [Ideal.rsqrt_coe]
  simp only [not_lt.mpr hx.le, hx.ne', if_false]

/-- Every node's factor is a real number. -/
theorem dfac_real (a1 : Edges) (r : Fin 50000) : ∃ x : ℝ, dfac a1 r = (x : EReal) := by
  obtain ⟨n, hn⟩ := count_nat a1 r
  unfold dfac
  rw [hn]
  have h2 : (((n : ℝ) : EReal) + 2) = (((n : ℝ) + 2 : ℝ) : EReal) := by rw [EReal.coe_add]; rfl
  rw [h2]
  exact ⟨_, dinvOf_pos_real _ (by positivity)⟩

/-- One and one are two, on the extended reals. -/
theorem count_add_one_one (a1 : Edges) (r : Fin 50000) : count a1 r + 1 + 1 = count a1 r + 2 := by
  rw [add_assoc]; norm_num

/-- The float words of the three literals the programs use. -/
theorem ofBits_one : Ideal.ofBits .f32 0x3F800000#32 = 1 := by simp [Ideal.ofBits, Ideal.ieee, -EReal.coe_mul]; norm_num
theorem ofBits_two : Ideal.ofBits .f32 0x40000000#32 = 2 := by
  simp [Ideal.ofBits, Ideal.ieee, -EReal.coe_mul]; norm_num; rfl

/-- A rank-2 array as a function of its row and column. -/
def mat {R C : Nat} (a : (⟨2, ![R, C]⟩ : Shape).Idx → EReal) : Fin R → Fin C → EReal := fun r c => a (ix2 r c)

/-- A rank-1 array as a function of its position. -/
def vec {n : Nat} (a : (⟨1, ![n]⟩ : Shape).Idx → EReal) : Fin n → EReal := fun j => a (ix1 j)

/-- A one-column array as a function of its row. -/
def col {R : Nat} (a : (⟨2, ![R, 1]⟩ : Shape).Idx → EReal) : Fin R → EReal := fun k => a (ix2 k (0 : Fin 1))

end Cert.GcnData

end
-- ==== Proof.LibSegmentSum.lean ====
/-
  A segment sum read at one element, over any sizes.

  R segments; N index words, one per row; N values. The accumulating scatter that `jax.ops.segment_sum` of a vector
  lowers to adds value n to element `idx n` of the operand, the word read as a signed integer and NOT clamped: a row
  whose index is outside the operand is dropped. On the extended reals its result at r is the operand there plus the
  sum, over the rows n whose index is r, of value n; no order of accumulation is left in it. (The same for a table of
  rows, segment_sum of a matrix, is the row scatter of LibRowGatherScatter.)
-/
import Idealize.ShloMosaic.PureOps.Ideal
import Idealize.ShloMosaic.Lib.ValueIdx

noncomputable section

open scoped BigOperators

namespace Cert.LibSegmentSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter

variable {R N : Nat} (d : ScatterDims ⟨1, ![R]⟩ ⟨2, ![N, 1]⟩ ⟨1, ![N]⟩)

/-- Where value n lands: at r exactly when row n's index word, read signed, is r. -/
theorem resultIdx?_seg (h1 : d.updateWindowDims = []) (h2 : d.insertedWindowDims = [0])
    (h3 : d.scatterDimsToOperandDims = [0]) (h4 : d.indexVectorDim = 1) {w : Nat}
    (idx : IVec ⟨2, ![N, 1]⟩ w) (n : Fin N) (r : Fin R) :
    d.resultIdx? (ix1 n) idx = some (ix1 r) ↔ (idx (ix2 n (0 : Fin 1))).toInt = (r.val : ℤ) := by
  obtain ⟨uw, iw, sd, iv, wf⟩ := d
  simp only at h1 h2 h3 h4
  subst h1 h2 h3 h4
  have hs0 : ScatterDims.start ⟨[], [0], [0], 1, wf⟩ (ix1 n) idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hw0 : ScatterDims.window ⟨[], [0], [0], 1, wf⟩ (ix1 n) 0 = 0 := by
    unfold ScatterDims.window
    rw [dif_neg (show (0 : Fin 1) ∉ (⟨1, ![R]⟩ : Shape).kept [0] from
      fun h => (of_decide_eq_true (List.mem_filter.1 h).2) (List.mem_singleton.mpr rfl))]
  unfold ScatterDims.resultIdx?
  simp only [Fin.forall_fin_one, hs0, hw0]
  have hc0 : (ix1 r (0 : Fin 1)) = r := rfl
  have hz0 : ((![R] : Fin 1 → ℕ) 0) = R := rfl
  have hr := r.isLt
  by_cases hcond : (0 ≤ (idx (ix2 n (0 : Fin 1))).toInt + ((0 : ℕ) : ℤ) ∧ (idx (ix2 n (0 : Fin 1))).toInt + ((0 : ℕ) : ℤ) < (((![R] : Fin 1 → ℕ) 0 : ℕ) : ℤ))
  · rw [dif_pos hcond]
    simp only [Option.some.injEq, funext_iff, Fin.forall_fin_one, Fin.ext_iff, hs0, hw0, hc0]
    rw [hz0] at hcond
    constructor
    · intro h0; omega
    · intro h0; omega
  · rw [dif_neg hcond]
    rw [hz0] at hcond
    constructor
    · intro h; exact absurd h (by simp)
    · intro h0; exact absurd ⟨by omega, by omega⟩ hcond

/-- THE SEGMENT SUM READ AT r: the operand there plus the values of the rows whose index is r. -/
theorem scatterAdd_seg (h1 : d.updateWindowDims = []) (h2 : d.insertedWindowDims = [0])
    (h3 : d.scatterDimsToOperandDims = [0]) (h4 : d.indexVectorDim = 1) {w : Nat}
    (x : FVec Ideal ⟨1, ![R]⟩ .f32) (idx : IVec ⟨2, ![N, 1]⟩ w)
    (upd : FVec Ideal ⟨1, ![N]⟩ .f32) (r : Fin R) :
    Host.scatterAdd (F := Ideal) d x idx upd (ix1 r)
      = x (ix1 r) + ∑ n : Fin N, (if (idx (ix2 n (0 : Fin 1))).toInt = (r.val : ℤ) then upd (ix1 n) else 0) := by
  simp only [Host.scatterAdd, Ideal.hostScatterAdd_def, Ideal.hostScatterAdd]
  refine congrArg (x (ix1 r) + ·) ?_
  rw [Finset.sum_filter, sum_idx1]
  refine Finset.sum_congr rfl fun n _ => ?_
  simp only [resultIdx?_seg d h1 h2 h3 h4]

end Scatter

end Cert.LibSegmentSum

end
-- ==== Proof.RefValue.lean ====
/-
  The reference program's two results, read at an index, are the edge-side forms of the two-layer graph convolution at
  the data read off the arguments.

  The reference lists 500000 = 400000 + 50000 + 50000 edges: the given ones, then every node to itself, twice. A sum
  over the list splits into the three parts; in the two parts listing every node to itself only the entry of the node
  itself ends at it, so each contributes one term.
-/
import Mathlib
import proofs.«168154_j70214125355147_2_alg».proof.Proof.RefReadP
import proofs.«168154_j70214125355147_2_alg».proof.Proof.GcnData
import proofs.«168154_j70214125355147_2_alg».proof.Proof.GcnSpec
import proofs.«168154_j70214125355147_2_alg».proof.Proof.LibRowGatherScatter
import proofs.«168154_j70214125355147_2_alg».proof.Proof.LibSegmentSum

open scoped BigOperators

noncomputable section

namespace Cert.RefValue

open Idealize.ShloMosaic Idealize.ShloMosaic.ValueIdx Cert.LibRowGatherScatter Cert.ReferenceIdeal
  Cert.ReferenceIdeal.Gen Cert.ReferenceIdeal.ReadP

/-! ### General facts: a sum over three consecutive ranges, a rank-1 gather, a three-piece concatenation -/

/-- A sum over a range of length a + b + c is the sum over its first a entries, its next b and its last c. -/
theorem sum_fin3 {M : Type*} [AddCommMonoid M] (a b c T : Nat) (hT : T = a + b + c) (f : Fin T → M) :
    ∑ n, f n = (∑ e : Fin a, f ⟨e.val, by have := e.isLt; omega⟩)
      + (∑ i : Fin b, f ⟨a + i.val, by have := i.isLt; omega⟩)
      + ∑ i : Fin c, f ⟨a + b + i.val, by have := i.isLt; omega⟩ := by
  subst hT
  rw [Fin.sum_univ_add, Fin.sum_univ_add]
  rfl

section Gather1

variable {α : Type} {R N : Nat}

/-- The dimension numbers of a gather of single elements: operand [R], start indices [N, 1], result [N]. -/
abbrev vecGatherDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

theorem gather_vecDims_apply (hR : 0 < R)
    (wf : GatherDims.WF ⟨1, ![R]⟩ ⟨2, ![N, 1]⟩ ⟨1, ![N]⟩ [] [0] [] [0] [] 1 ![1]) {w : Nat}
    (x : (⟨1, ![R]⟩ : Shape).Idx → α) (idx : IVec ⟨2, ![N, 1]⟩ w) (n : Fin N) :
    Host.gather (vecGatherDims R N wf) x idx (ix1 n) = x (ix1 (clampRow R hR (idx (ix2 n (0 : Fin 1))))) := by
  unfold Host.gather
  congr 1
  funext a
  obtain rfl : a = 0 := Subsingleton.elim _ _
  refine Fin.ext ?_
  show (vecGatherDims R N wf).start (ix1 n) idx 0 + (vecGatherDims R N wf).batchCoord (ix1 n) 0
    + (vecGatherDims R N wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R N wf).startIndexMap from List.mem_singleton.mpr rfl)]
  have hsi : (vecGatherDims R N wf).siIdx (ix1 n) ⟨List.idxOf (0 : Fin 1) (vecGatherDims R N wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- THE ELEMENT GATHER READ AT n: x at the clamped word n. -/
theorem gather_vec (g : GatherDims ⟨1, ![R]⟩ ⟨2, ![N, 1]⟩ ⟨1, ![N]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1]) (hR : 0 < R) {w : Nat}
    (x : (⟨1, ![R]⟩ : Shape).Idx → α) (idx : IVec ⟨2, ![N, 1]⟩ w) (n : Fin N) :
    Host.gather g x idx (ix1 n) = x (ix1 (clampRow R hR (idx (ix2 n (0 : Fin 1))))) := by
  obtain ⟨od, cd, ob, sb, sm, iv, ss, wf⟩ := g
  simp only at h1 h2 h3 h4 h5 h6 h7
  subst h1 h2 h3 h4 h5 h6 h7
  exact gather_vecDims_apply hR wf x idx n

end Gather1

section Concat3

variable {α : Type} {A B C T : Nat}
variable (u : (⟨1, ![A]⟩ : Shape).Idx → α) (v : (⟨1, ![B]⟩ : Shape).Idx → α) (w : (⟨1, ![C]⟩ : Shape).Idx → α)
variable (h : Shape.Concatenates [(⟨1, ![A]⟩ : Shape), ⟨1, ![B]⟩, ⟨1, ![C]⟩] ⟨1, ![T]⟩ 0)

/-- Three vectors laid end to end, read in the first. -/
theorem concat3_left (n : Fin T) (m : Fin A) (hm : m.val = n.val) :
    concatenate ⟨1, ![T]⟩ 0 [⟨⟨1, ![A]⟩, u⟩, ⟨⟨1, ![B]⟩, v⟩, ⟨⟨1, ![C]⟩, w⟩] h (ix1 n) = u (ix1 m) := by
  refine concatenate_apply_piece (t := ⟨1, ![T]⟩) (0 : Fin 1) [⟨⟨1, ![A]⟩, u⟩, ⟨⟨1, ![B]⟩, v⟩, ⟨⟨1, ![C]⟩, w⟩] h (ix1 n) 0 (by simp) ⟨1, ![A]⟩ u rfl rfl 0 (by simp) (ix1 m)
    (fun b hb => absurd (Subsingleton.elim _ _) hb) ?_
  show 0 + m.val = n.val
  omega

/-- Three vectors laid end to end, read in the second. -/
theorem concat3_mid (n : Fin T) (m : Fin B) (hm : A + m.val = n.val) :
    concatenate ⟨1, ![T]⟩ 0 [⟨⟨1, ![A]⟩, u⟩, ⟨⟨1, ![B]⟩, v⟩, ⟨⟨1, ![C]⟩, w⟩] h (ix1 n) = v (ix1 m) := by
  refine concatenate_apply_piece (t := ⟨1, ![T]⟩) (0 : Fin 1) [⟨⟨1, ![A]⟩, u⟩, ⟨⟨1, ![B]⟩, v⟩, ⟨⟨1, ![C]⟩, w⟩] h (ix1 n) 1 (by simp) ⟨1, ![B]⟩ v rfl rfl A (by simp) (ix1 m)
    (fun b hb => absurd (Subsingleton.elim _ _) hb) ?_
  show A + m.val = n.val
  omega

/-- Three vectors laid end to end, read in the third. -/
theorem concat3_right (n : Fin T) (m : Fin C) (hm : A + B + m.val = n.val) :
    concatenate ⟨1, ![T]⟩ 0 [⟨⟨1, ![A]⟩, u⟩, ⟨⟨1, ![B]⟩, v⟩, ⟨⟨1, ![C]⟩, w⟩] h (ix1 n) = w (ix1 m) := by
  refine concatenate_apply_piece (t := ⟨1, ![T]⟩) (0 : Fin 1) [⟨⟨1, ![A]⟩, u⟩, ⟨⟨1, ![B]⟩, v⟩, ⟨⟨1, ![C]⟩, w⟩] h (ix1 n) 2 (by simp) ⟨1, ![C]⟩ w rfl rfl (A + B) (by simp) (ix1 m)
    (fun b hb => absurd (Subsingleton.elim _ _) hb) ?_
  show A + B + m.val = n.val
  omega

end Concat3

/-! ### The listed start and end words -/

section Words

variable (a1 : GcnData.Edges)

/-- Row 0 of the edge list, flattened. -/
theorem v2_apply (e : Fin 400000) : val_main_v2 (F := Ideal) a1 (ix1 e) = a1 (ix2 (0 : Fin 2) e) := by
  rw [val_main_v2_apply, val_main_v1_apply]
  congr 1
  funext a
  refine Fin.ext ?_
  match a with
  | ⟨0, _⟩ => rfl
  | ⟨1, _⟩ => exact Nat.mod_eq_of_lt e.isLt

/-- Row 1 of the edge list, flattened. -/
theorem v5_apply (e : Fin 400000) : val_main_v5 (F := Ideal) a1 (ix1 e) = a1 (ix2 (1 : Fin 2) e) := by
  rw [val_main_v5_apply, val_main_v4_apply]
  congr 1
  funext a
  refine Fin.ext ?_
  match a with
  | ⟨0, _⟩ => rfl
  | ⟨1, _⟩ => exact Nat.mod_eq_of_lt e.isLt

/-- The listed start words: the edges' start words, then every node number, twice. -/
theorem v3_left (e : Fin 400000) :
    val_main_v3 (F := Ideal) a1 (ix1 ⟨e.val, by have := e.isLt; omega⟩) = a1 (ix2 (0 : Fin 2) e) := by
  unfold val_main_v3
  exact (concat3_left (T := 500000) _ _ _ concatenates_S400000_S50000_S50000_S500000_d0 ⟨e.val, _⟩ e rfl).trans (v2_apply a1 e)
theorem v3_mid (i : Fin 50000) :
    val_main_v3 (F := Ideal) a1 (ix1 ⟨400000 + i.val, by have := i.isLt; omega⟩) = BitVec.ofNat 32 i.val := by
  unfold val_main_v3
  exact concat3_mid (T := 500000) _ _ _ concatenates_S400000_S50000_S50000_S500000_d0 ⟨400000 + i.val, _⟩ i rfl
theorem v3_right (i : Fin 50000) :
    val_main_v3 (F := Ideal) a1 (ix1 ⟨400000 + 50000 + i.val, by have := i.isLt; omega⟩) = BitVec.ofNat 32 i.val := by
  unfold val_main_v3
  exact concat3_right (T := 500000) _ _ _ concatenates_S400000_S50000_S50000_S500000_d0 ⟨400000 + 50000 + i.val, _⟩ i rfl

/-- The listed end words: the edges' end words, then every node number, twice. -/
theorem v6_left (e : Fin 400000) :
    val_main_v6 (F := Ideal) a1 (ix1 ⟨e.val, by have := e.isLt; omega⟩) = a1 (ix2 (1 : Fin 2) e) := by
  unfold val_main_v6
  exact (concat3_left (T := 500000) _ _ _ concatenates_S400000_S50000_S50000_S500000_d0 ⟨e.val, _⟩ e rfl).trans (v5_apply a1 e)
theorem v6_mid (i : Fin 50000) :
    val_main_v6 (F := Ideal) a1 (ix1 ⟨400000 + i.val, by have := i.isLt; omega⟩) = BitVec.ofNat 32 i.val := by
  unfold val_main_v6
  exact concat3_mid (T := 500000) _ _ _ concatenates_S400000_S50000_S50000_S500000_d0 ⟨400000 + i.val, _⟩ i rfl
theorem v6_right (i : Fin 50000) :
    val_main_v6 (F := Ideal) a1 (ix1 ⟨400000 + 50000 + i.val, by have := i.isLt; omega⟩) = BitVec.ofNat 32 i.val := by
  unfold val_main_v6
  exact concat3_right (T := 500000) _ _ _ concatenates_S400000_S50000_S50000_S500000_d0 ⟨400000 + 50000 + i.val, _⟩ i rfl

end Words

/-! ### Sums over the listed edges; the degree, the factor and the edge weight -/

section Degree

variable (a1 : GcnData.Edges)

/-- A node number, as a 32-bit word read signed, is itself. -/
theorem iota_toInt (i : Fin 50000) : (BitVec.ofNat 32 i.val).toInt = (i.val : ℤ) := by
  have hi := i.isLt
  rw [BitVec.toInt_eq_toNat_cond, BitVec.toNat_ofNat]
  have h2 : i.val % 2 ^ 32 = i.val := Nat.mod_eq_of_lt (by omega)
  rw [h2, if_pos (by omega)]

/-- The entry listing node i to itself ends at r exactly when i = r. -/
theorem iota_hit_iff (i r : Fin 50000) : (BitVec.ofNat 32 i.val).toInt = (r.val : ℤ) ↔ i = r := by
  rw [iota_toInt]
  constructor
  · intro h; exact Fin.ext (by exact_mod_cast h)
  · rintro rfl; rfl

/-- A node number neither wraps nor is moved by clamping. -/
theorem clamp_iota (i : Fin 50000) :
    clampRow 50000 GcnData.n_pos (GcnData.wrap (BitVec.ofNat 32 i.val)) = i :=
  GcnData.clamp_wrap_of_toInt _ i (iota_toInt i)

/-- The condition "the end word of edge e reads r" is "edge e ends at r". -/
theorem ite_hit {M : Type*} (e : Fin 400000) (r : Fin 50000) (x y : M) :
    (if (a1 (ix2 (1 : Fin 2) e)).toInt = (r.val : ℤ) then x else y) = if GcnData.hit a1 e r then x else y :=
  if_congr Iff.rfl rfl rfl

/-- A sum over the listed edges of a quantity G(start word, end word): over the given edges, plus over every node
    listed to itself, twice. -/
theorem sum_listed {M : Type*} [AddCommMonoid M] (G : BitVec 32 → BitVec 32 → M) :
    ∑ n : Fin 500000, G (val_main_v3 (F := Ideal) a1 (ix1 n)) (val_main_v6 (F := Ideal) a1 (ix1 n))
      = (∑ e : Fin 400000, G (a1 (ix2 (0 : Fin 2) e)) (a1 (ix2 (1 : Fin 2) e)))
        + (∑ i : Fin 50000, G (BitVec.ofNat 32 i.val) (BitVec.ofNat 32 i.val))
        + ∑ i : Fin 50000, G (BitVec.ofNat 32 i.val) (BitVec.ofNat 32 i.val) := by
  rw [sum_fin3 400000 50000 50000 500000 (by norm_num)]
  simp only [v3_left, v3_mid, v3_right, v6_left, v6_mid, v6_right]

/-- The index columns: a vector of words made a one-column table, read at row n. -/
theorem v9_col (n : Fin 500000) :
    val_main_v9 (F := Ideal) a1 (ix2 n (0 : Fin 1)) = val_main_v6 (F := Ideal) a1 (ix1 n) := by
  rw [val_main_v9_apply]; congr 1; funext a; match a with | ⟨0, _⟩ => rfl
theorem v42_col (n : Fin 500000) :
    val_main_v42 (F := Ideal) a1 (ix2 n (0 : Fin 1)) = val_main_v6 (F := Ideal) a1 (ix1 n) := by
  rw [val_main_v42_apply]; congr 1; funext a; match a with | ⟨0, _⟩ => rfl
theorem v60_col (n : Fin 500000) :
    val_main_v60 (F := Ideal) a1 (ix2 n (0 : Fin 1)) = val_main_v6 (F := Ideal) a1 (ix1 n) := by
  rw [val_main_v60_apply]; congr 1; funext a; match a with | ⟨0, _⟩ => rfl

/-- The wrapped start and end words. -/
theorem v19_wrap (i : S500000.Idx) :
    val_main_v19 (F := Ideal) a1 i = GcnData.wrap (val_main_v3 (F := Ideal) a1 i) := by
  rw [val_main_v19_apply, val_main_v16_apply, val_main_v18_apply, val_main_v15_apply, val_main_v17_apply,
    val_main_c_apply, val_main_c_3_apply]
  rfl
theorem v26_wrap (i : S500000.Idx) :
    val_main_v26 (F := Ideal) a1 i = GcnData.wrap (val_main_v6 (F := Ideal) a1 i) := by
  rw [val_main_v26_apply, val_main_v23_apply, val_main_v25_apply, val_main_v22_apply, val_main_v24_apply,
    val_main_c_4_apply, val_main_c_5_apply]
  rfl
theorem v35_wrap (i : S500000.Idx) :
    val_main_v35 (F := Ideal) a1 i = GcnData.wrap (val_main_v3 (F := Ideal) a1 i) := by
  rw [val_main_v35_apply, val_main_v32_apply, val_main_v34_apply, val_main_v31_apply, val_main_v33_apply,
    val_main_c_6_apply, val_main_c_7_apply]
  rfl
theorem v53_wrap (i : S500000.Idx) :
    val_main_v53 (F := Ideal) a1 i = GcnData.wrap (val_main_v3 (F := Ideal) a1 i) := by
  rw [val_main_v53_apply, val_main_v50_apply, val_main_v52_apply, val_main_v49_apply, val_main_v51_apply,
    val_main_c_9_apply, val_main_c_10_apply]
  rfl

theorem v20_col (n : Fin 500000) :
    val_main_v20 (F := Ideal) a1 (ix2 n (0 : Fin 1)) = GcnData.wrap (val_main_v3 (F := Ideal) a1 (ix1 n)) := by
  rw [val_main_v20_apply, v19_wrap]; congr 2; funext a; match a with | ⟨0, _⟩ => rfl
theorem v27_col (n : Fin 500000) :
    val_main_v27 (F := Ideal) a1 (ix2 n (0 : Fin 1)) = GcnData.wrap (val_main_v6 (F := Ideal) a1 (ix1 n)) := by
  rw [val_main_v27_apply, v26_wrap]; congr 2; funext a; match a with | ⟨0, _⟩ => rfl
theorem v36_col (n : Fin 500000) :
    val_main_v36 (F := Ideal) a1 (ix2 n (0 : Fin 1)) = GcnData.wrap (val_main_v3 (F := Ideal) a1 (ix1 n)) := by
  rw [val_main_v36_apply, v35_wrap]; congr 2; funext a; match a with | ⟨0, _⟩ => rfl
theorem v54_col (n : Fin 500000) :
    val_main_v54 (F := Ideal) a1 (ix2 n (0 : Fin 1)) = GcnData.wrap (val_main_v3 (F := Ideal) a1 (ix1 n)) := by
  rw [val_main_v54_apply, v53_wrap]; congr 2; funext a; match a with | ⟨0, _⟩ => rfl

/-- The literal zero word is the number zero. -/
theorem ofBits_zero : (FloatOps.ofBits (F := Ideal) .f32 0x00000000#32) = (0 : EReal) := Ideal.ofBits_zero_f32

/-- THE DEGREE: the number of edges ending at r, plus the two self loops. -/
theorem v10_deg (r : Fin 50000) : val_main_v10 (F := Ideal) a1 (ix1 r) = GcnData.count a1 r + 2 := by
  unfold val_main_v10
  rw [Cert.LibSegmentSum.scatterAdd_seg _ rfl rfl rfl rfl]
  have h7 : ∀ n : Fin 500000, val_main_v7 (F := Ideal) (ix1 n) = (1 : EReal) := fun n => by
    rw [val_main_v7_apply, val_main_cst_apply]; exact GcnData.ofBits_one
  have h8 : val_main_v8 (F := Ideal) (ix1 r) = (0 : EReal) := by
    rw [val_main_v8_apply, val_main_cst_0_apply]; exact ofBits_zero
  rw [h8, zero_add]
  simp only [h7, v9_col]
  refine (sum_listed a1 (fun _ t => if t.toInt = (r.val : ℤ) then (1 : EReal) else 0)).trans ?_
  simp only [iota_hit_iff, Finset.sum_ite_eq', Finset.mem_univ, if_true]
  rw [← GcnData.count_add_one_one]
  congr 2

/-- THE FACTOR of node r. -/
theorem v14_fac (r : Fin 50000) : val_main_v14 (F := Ideal) a1 (ix1 r) = GcnData.dfac a1 r := by
  rw [val_main_v14_apply, val_main_v12_apply, val_main_v13_apply, val_main_call0_v1_apply, val_main_call0_v0_apply,
    val_main_cst_2_apply, val_main_v11_apply, val_main_cst_1_apply, v10_deg, ofBits_zero, Ideal.cmpf_def,
    Ideal.hostUnary_rsqrt_def]
  unfold GcnData.dfac GcnData.dinvOf
  rfl

/-- The factor at a listed edge's start and at its end. -/
theorem v21_fac (n : Fin 500000) : val_main_v21 (F := Ideal) a1 (ix1 n)
    = GcnData.dfac a1 (clampRow 50000 GcnData.n_pos (GcnData.wrap (val_main_v3 (F := Ideal) a1 (ix1 n)))) := by
  unfold val_main_v21
  rw [gather_vec _ rfl rfl rfl rfl rfl rfl rfl GcnData.n_pos, v14_fac, v20_col]
theorem v28_fac (n : Fin 500000) : val_main_v28 (F := Ideal) a1 (ix1 n)
    = GcnData.dfac a1 (clampRow 50000 GcnData.n_pos (GcnData.wrap (val_main_v6 (F := Ideal) a1 (ix1 n)))) := by
  unfold val_main_v28
  rw [gather_vec _ rfl rfl rfl rfl rfl rfl rfl GcnData.n_pos, v14_fac, v27_col]

/-- THE WEIGHT of a listed edge: the product of its two ends' factors. -/
theorem v29_norm (n : Fin 500000) : val_main_v29 (F := Ideal) a1 (ix1 n)
    = GcnData.dfac a1 (clampRow 50000 GcnData.n_pos (GcnData.wrap (val_main_v3 (F := Ideal) a1 (ix1 n))))
      * GcnData.dfac a1 (clampRow 50000 GcnData.n_pos (GcnData.wrap (val_main_v6 (F := Ideal) a1 (ix1 n)))) := by
  rw [val_main_v29_apply, v21_fac, v28_fac]
  rfl

/-- THE AGGREGATION over the listed edges of a per-node quantity h, weighted: the edge-side aggregation of h. -/
theorem agg_listed (h : Fin 50000 → EReal) (r : Fin 50000) :
    ∑ n : Fin 500000, (if (val_main_v6 (F := Ideal) a1 (ix1 n)).toInt = (r.val : ℤ)
        then h (clampRow 50000 GcnData.n_pos (GcnData.wrap (val_main_v3 (F := Ideal) a1 (ix1 n))))
          * (GcnData.dfac a1 (clampRow 50000 GcnData.n_pos (GcnData.wrap (val_main_v3 (F := Ideal) a1 (ix1 n))))
            * GcnData.dfac a1 (clampRow 50000 GcnData.n_pos (GcnData.wrap (val_main_v6 (F := Ideal) a1 (ix1 n)))))
        else 0)
      = Cert.GcnSpec.aggR (GcnData.hit a1) (GcnData.sr a1) (GcnData.dn a1) (GcnData.dfac a1) h r := by
  refine (sum_listed a1 (fun s t => if t.toInt = (r.val : ℤ)
    then h (clampRow 50000 GcnData.n_pos (GcnData.wrap s))
      * (GcnData.dfac a1 (clampRow 50000 GcnData.n_pos (GcnData.wrap s))
        * GcnData.dfac a1 (clampRow 50000 GcnData.n_pos (GcnData.wrap t))) else 0)).trans ?_
  simp only [iota_hit_iff, clamp_iota, Finset.sum_ite_eq', Finset.mem_univ, if_true]
  unfold Cert.GcnSpec.aggR
  congr 2

end Degree

/-! ### The sum and the maximum of the scalar type, named: on the extended reals the host's sum and maximum are
    these, and every edge-side form is an expression in them -/

section Bridge

open Cert.GcnSpec

/-- The scalar type's sum of two values. -/
def addM {M : Type} [AddCommMonoid M] (x y : M) : M := x + y
/-- The scalar type's maximum of two values. -/
def maxM {M : Type} [Max M] (x y : M) : M := max x y

/-- On the extended reals the host's sum is the sum … -/
theorem ideal_addf (x y : EReal) : FloatOps.addf (F := Ideal) (φ := .f32) x y = addM x y := rfl
/-- … and the host's maximum is the maximum. -/
theorem ideal_maxf (x y : EReal) : FloatOps.maximumf (F := Ideal) (φ := .f32) x y = maxM x y := rfl

variable {M : Type} [AddCommMonoid M] [Mul M] [Max M]
variable {ι ε α β γ : Type} [Fintype ι] [Fintype ε] [Fintype α] [Fintype β] [Fintype γ]
variable (hit : ε → ι → Prop) [∀ e r, Decidable (hit e r)] (sr dn : ε → ι)
variable (zero : M) (d : ι → M)
variable (ne : ι → α → M) (W1 : α → β → M) (b1 : β → M) (W2 : β → α → M) (b2 : α → M)
  (Wres : β → α → M) (bres : α → M) (Wfc1 : α → γ → M) (bfc1 : γ → M) (Wfc2 : γ → M) (bfc2 : M)

/-- The edge-side first layer, spelt with the named sum and maximum. -/
theorem x1R_spec (r : ι) (j : β) : x1R hit sr dn zero d ne W1 b1 r j
    = maxM (addM (aggR hit sr dn d (fun ρ => ∑ k, ne ρ k * W1 k j) r) (b1 j)) zero := rfl

/-- The edge-side second layer, spelt with the named sum and maximum. -/
theorem x2R_spec (h : ι → α → M) (r : ι) (c : α) : x2R hit sr dn zero d b2 h r c
    = maxM (addM (aggR hit sr dn d (fun ρ => h ρ c) r) (b2 c)) zero := rfl

/-- The edge-side first result, spelt with the named sum. -/
theorem xR_spec (r : ι) (c : α) : xR hit sr dn zero d ne W1 b1 W2 b2 Wres bres r c
    = addM (addM (x2R hit sr dn zero d b2 (proj2 W2 (x1R hit sr dn zero d ne W1 b1)) r c)
        (∑ j, x1R hit sr dn zero d ne W1 b1 r j * Wres j c)) (bres c) := rfl

/-- The edge-side second result, spelt with the named sum and maximum. -/
theorem AR_spec (r : ι) : AR hit sr dn zero d ne W1 b1 W2 b2 Wres bres Wfc1 bfc1 Wfc2 bfc2 r
    = addM (∑ k, maxM (addM (∑ c, xR hit sr dn zero d ne W1 b1 W2 b2 Wres bres r c * Wfc1 c k) (bfc1 k)) zero
        * Wfc2 k) bfc2 := rfl

end Bridge

/-! ### The two layers, the residual sum and the head -/

section Layers

open Cert.GcnSpec

/-- Two rank-2 (or rank-1) indices with the same coordinates are equal. -/
local macro "idx_eq" : tactic =>
  `(tactic| (funext a; first | (match a with | ⟨0, _⟩ => rfl | ⟨1, _⟩ => rfl) | (match a with | ⟨0, _⟩ => rfl)))

variable (a1 : (⟨S2x400000, .i32⟩ : BufTy).Contents (Elt Ideal))

/-- ONE LAYER'S AGGREGATION, any width: the accumulating scatter, into zeros and by the listed end words, of the rows
    of x gathered at the listed (wrapped) start words and weighted, read at (r, c), is the edge-side aggregation of
    column c of x. -/
theorem layer_agg {C : Nat} (d : ScatterDims ⟨2, ![50000, C]⟩ ⟨2, ![500000, 1]⟩ ⟨2, ![500000, C]⟩)
    (g : GatherDims ⟨2, ![50000, C]⟩ ⟨2, ![500000, 1]⟩ ⟨2, ![500000, C]⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (z x : FVec Ideal ⟨2, ![50000, C]⟩ .f32) (wt : FVec Ideal ⟨2, ![500000, C]⟩ .f32)
    (idxD idxS : IVec ⟨2, ![500000, 1]⟩ 32)
    (hz : ∀ r c, z (ix2 r c) = 0)
    (hwt : ∀ n c, wt (ix2 n c) = val_main_v29 (F := Ideal) a1 (ix1 n))
    (hD : ∀ n, idxD (ix2 n (0 : Fin 1)) = val_main_v6 (F := Ideal) a1 (ix1 n))
    (hS : ∀ n, idxS (ix2 n (0 : Fin 1)) = GcnData.wrap (val_main_v3 (F := Ideal) a1 (ix1 n)))
    (r : Fin 50000) (c : Fin C) :
    Host.scatterAdd (F := Ideal) d z idxD (mulf (Host.gather g x idxS) wt) (ix2 r c)
      = aggR (GcnData.hit a1) (GcnData.sr a1) (GcnData.dn a1) (GcnData.dfac a1) (fun ρ => x (ix2 ρ c)) r := by
  rw [scatterAdd_rows d h1 h2 h3 h4, hz, zero_add, ← agg_listed a1 (fun ρ => x (ix2 ρ c)) r]
  refine Finset.sum_congr rfl fun n _ => ?_
  rw [hD, mulf_apply, gather_rows g k1 k2 k3 k4 k5 k6 k7 GcnData.n_pos, hS, hwt, v29_norm]

variable (a0 : (⟨S50000x128, .f32⟩ : BufTy).Contents (Elt Ideal))
  (a2 : (⟨S128x512, .f32⟩ : BufTy).Contents (Elt Ideal)) (a3 : (⟨S512, .f32⟩ : BufTy).Contents (Elt Ideal))
  (a4 : (⟨S512x128, .f32⟩ : BufTy).Contents (Elt Ideal)) (a5 : (⟨S128, .f32⟩ : BufTy).Contents (Elt Ideal))
  (a6 : (⟨S512x128, .f32⟩ : BufTy).Contents (Elt Ideal)) (a7 : (⟨S128, .f32⟩ : BufTy).Contents (Elt Ideal))
  (a8 : (⟨S128x256, .f32⟩ : BufTy).Contents (Elt Ideal)) (a9 : (⟨S256, .f32⟩ : BufTy).Contents (Elt Ideal))
  (a10 : (⟨S256x1, .f32⟩ : BufTy).Contents (Elt Ideal)) (a11 : (⟨S1, .f32⟩ : BufTy).Contents (Elt Ideal))

/-- The first projection: inputs times the first weight matrix. -/
theorem v30_dot (ρ : Fin 50000) (j : Fin 512) :
    val_main_v30 (F := Ideal) a0 a2 (ix2 ρ j) = ∑ k : Fin 128, GcnData.mat a0 ρ k * GcnData.mat a2 k j := by
  rw [val_main_v30_apply]
  refine Finset.sum_congr rfl fun k _ => ?_
  show a0 _ * a2 _ = a0 (ix2 ρ k) * a2 (ix2 k j)
  congr 2 <;> idx_eq

/-- The weight of a listed edge, spread over the columns. -/
theorem v39_wt (n : Fin 500000) (c : Fin 512) :
    val_main_v39 (F := Ideal) a1 (ix2 n c) = val_main_v29 (F := Ideal) a1 (ix1 n) := by
  rw [val_main_v39_apply, val_main_v38_apply]; congr 1; idx_eq
theorem v57_wt (n : Fin 500000) (c : Fin 128) :
    val_main_v57 (F := Ideal) a1 (ix2 n c) = val_main_v29 (F := Ideal) a1 (ix1 n) := by
  rw [val_main_v57_apply, val_main_v56_apply]; congr 1; idx_eq

/-- The first layer's aggregation. -/
theorem v43_agg (r : Fin 50000) (j : Fin 512) :
    val_main_v43 (F := Ideal) a0 a1 a2 (ix2 r j)
      = aggR (GcnData.hit a1) (GcnData.sr a1) (GcnData.dn a1) (GcnData.dfac a1)
          (fun ρ => ∑ k : Fin 128, GcnData.mat a0 ρ k * GcnData.mat a2 k j) r := by
  unfold val_main_v43 val_main_v40 val_main_v37
  refine (layer_agg a1 (C := 512) scatter_S50000x512_S500000x1_S500000x512_1_0_0_1
    gather_S50000x512_S500000x1_S500000x512_1_0_n_n_0_1_1512 rfl rfl rfl rfl rfl rfl rfl rfl rfl rfl rfl _ _ _ _ _
    (fun r c => by rw [val_main_v41_apply, val_main_cst_8_apply]; exact ofBits_zero)
    (v39_wt a1) (v42_col a1) (v36_col a1) r j).trans ?_
  simp only [v30_dot]

/-- A bias vector spread over the rows. -/
theorem v45_bias (r : Fin 50000) (j : Fin 512) : val_main_v45 (F := Ideal) a3 (ix2 r j) = GcnData.vec a3 j := by
  rw [val_main_v45_apply, val_main_v44_apply]; unfold GcnData.vec; congr 1; idx_eq
theorem v63_bias (r : Fin 50000) (c : Fin 128) : val_main_v63 (F := Ideal) a5 (ix2 r c) = GcnData.vec a5 c := by
  rw [val_main_v63_apply, val_main_v62_apply]; unfold GcnData.vec; congr 1; idx_eq
theorem v69_bias (r : Fin 50000) (c : Fin 128) : val_main_v69 (F := Ideal) a7 (ix2 r c) = GcnData.vec a7 c := by
  rw [val_main_v69_apply, val_main_v68_apply]; unfold GcnData.vec; congr 1; idx_eq
theorem v73_bias (r : Fin 50000) (k : Fin 256) : val_main_v73 (F := Ideal) a9 (ix2 r k) = GcnData.vec a9 k := by
  rw [val_main_v73_apply, val_main_v72_apply]; unfold GcnData.vec; congr 1; idx_eq
theorem v78_bias (r : Fin 50000) :
    val_main_v78 (F := Ideal) a11 (ix2 r (0 : Fin 1)) = GcnData.vec a11 (0 : Fin 1) := by
  rw [val_main_v78_apply, val_main_v77_apply]; unfold GcnData.vec; congr 1; idx_eq

/-- The first layer before the maximum and the sum are read as the extended reals' own. -/
theorem v47_a (r : Fin 50000) (j : Fin 512) :
    val_main_v47 (F := Ideal) a0 a1 a2 a3 (ix2 r j)
      = FloatOps.maximumf (F := Ideal) (φ := .f32) (FloatOps.addf (F := Ideal) (φ := .f32)
          (aggR (GcnData.hit a1) (GcnData.sr a1) (GcnData.dn a1) (GcnData.dfac a1)
            (fun ρ => ∑ k : Fin 128, GcnData.mat a0 ρ k * GcnData.mat a2 k j) r) (GcnData.vec a3 j)) (0 : EReal) := by
  rw [val_main_v47_apply, val_main_v46_apply, v43_agg, v45_bias, val_main_call1_v0_apply, val_main_call1_cst_apply,
    ofBits_zero]

/-- THE FIRST LAYER is the edge-side first layer. -/
theorem v47_x1 (r : Fin 50000) (j : Fin 512) :
    val_main_v47 (F := Ideal) a0 a1 a2 a3 (ix2 r j)
      = x1R (GcnData.hit a1) (GcnData.sr a1) (GcnData.dn a1) 0 (GcnData.dfac a1) (GcnData.mat a0) (GcnData.mat a2)
          (GcnData.vec a3) r j := by
  rw [v47_a, ideal_maxf, ideal_addf, x1R_spec]

/-- The second projection of the first layer's output. -/
theorem v48_proj (ρ : Fin 50000) (c : Fin 128) :
    val_main_v48 (F := Ideal) a0 a1 a2 a3 a4 (ix2 ρ c)
      = proj2 (GcnData.mat a4) (x1R (GcnData.hit a1) (GcnData.sr a1) (GcnData.dn a1) 0 (GcnData.dfac a1)
          (GcnData.mat a0) (GcnData.mat a2) (GcnData.vec a3)) ρ c := by
  rw [val_main_v48_apply]
  unfold proj2
  refine Finset.sum_congr rfl fun k _ => ?_
  have hl : lidx_main_v48 (ix2 ρ c) k = ix2 ρ k := by idx_eq
  have hr : ridx_main_v48 (ix2 ρ c) k = ix2 k c := by idx_eq
  rw [hl, hr, v47_x1]
  rfl

/-- The second layer's aggregation. -/
theorem v61_agg (r : Fin 50000) (c : Fin 128) :
    val_main_v61 (F := Ideal) a0 a1 a2 a3 a4 (ix2 r c)
      = aggR (GcnData.hit a1) (GcnData.sr a1) (GcnData.dn a1) (GcnData.dfac a1)
          (fun ρ => proj2 (GcnData.mat a4) (x1R (GcnData.hit a1) (GcnData.sr a1) (GcnData.dn a1) 0 (GcnData.dfac a1)
            (GcnData.mat a0) (GcnData.mat a2) (GcnData.vec a3)) ρ c) r := by
  unfold val_main_v61 val_main_v58 val_main_v55
  refine (layer_agg a1 (C := 128) scatter_S50000x128_S500000x1_S500000x128_1_0_0_1
    gather_S50000x128_S500000x1_S500000x128_1_0_n_n_0_1_1128 rfl rfl rfl rfl rfl rfl rfl rfl rfl rfl rfl _ _ _ _ _
    (fun r c => by rw [val_main_v59_apply, val_main_cst_11_apply]; exact ofBits_zero)
    (v57_wt a1) (v60_col a1) (v54_col a1) r c).trans ?_
  simp only [v48_proj]

/-- THE SECOND LAYER is the edge-side second layer. -/
theorem v65_x2 (r : Fin 50000) (c : Fin 128) :
    val_main_v65 (F := Ideal) a0 a1 a2 a3 a4 a5 (ix2 r c)
      = x2R (GcnData.hit a1) (GcnData.sr a1) (GcnData.dn a1) 0 (GcnData.dfac a1) (GcnData.vec a5)
          (proj2 (GcnData.mat a4) (x1R (GcnData.hit a1) (GcnData.sr a1) (GcnData.dn a1) 0 (GcnData.dfac a1)
            (GcnData.mat a0) (GcnData.mat a2) (GcnData.vec a3))) r c := by
  rw [val_main_v65_apply, val_main_v64_apply, v61_agg, v63_bias, val_main_call2_v0_apply, val_main_call2_cst_apply,
    ofBits_zero, ideal_maxf, ideal_addf, x2R_spec]

/-- The residual projection of the first layer's output. -/
theorem v66_res (r : Fin 50000) (c : Fin 128) :
    val_main_v66 (F := Ideal) a0 a1 a2 a3 a6 (ix2 r c)
      = ∑ j : Fin 512, x1R (GcnData.hit a1) (GcnData.sr a1) (GcnData.dn a1) 0 (GcnData.dfac a1)
          (GcnData.mat a0) (GcnData.mat a2) (GcnData.vec a3) r j * GcnData.mat a6 j c := by
  rw [val_main_v66_apply]
  refine Finset.sum_congr rfl fun k _ => ?_
  have hl : lidx_main_v66 (ix2 r c) k = ix2 r k := by idx_eq
  have hr : ridx_main_v66 (ix2 r c) k = ix2 k c := by idx_eq
  rw [hl, hr, v47_x1]
  rfl

/-- THE FIRST RESULT of the reference, read at (r, c), is the edge-side form. -/
theorem v70_x (r : Fin 50000) (c : Fin 128) :
    val_main_v70 (F := Ideal) a0 a1 a2 a3 a4 a5 a6 a7 (ix2 r c)
      = xR (GcnData.hit a1) (GcnData.sr a1) (GcnData.dn a1) 0 (GcnData.dfac a1) (GcnData.mat a0) (GcnData.mat a2)
          (GcnData.vec a3) (GcnData.mat a4) (GcnData.vec a5) (GcnData.mat a6) (GcnData.vec a7) r c := by
  rw [val_main_v70_apply, val_main_v67_apply, v65_x2, v66_res, v69_bias, ideal_addf, ideal_addf, xR_spec]

/-- The head's hidden layer. -/
theorem v71_dot (r : Fin 50000) (k : Fin 256) :
    val_main_v71 (F := Ideal) a0 a1 a2 a3 a4 a5 a6 a7 a8 (ix2 r k)
      = ∑ c : Fin 128, xR (GcnData.hit a1) (GcnData.sr a1) (GcnData.dn a1) 0 (GcnData.dfac a1) (GcnData.mat a0)
          (GcnData.mat a2) (GcnData.vec a3) (GcnData.mat a4) (GcnData.vec a5) (GcnData.mat a6) (GcnData.vec a7) r c
          * GcnData.mat a8 c k := by
  rw [val_main_v71_apply]
  refine Finset.sum_congr rfl fun c _ => ?_
  have hl : lidx_main_v71 (ix2 r k) c = ix2 r c := by idx_eq
  have hr : ridx_main_v71 (ix2 r k) c = ix2 c k := by idx_eq
  rw [hl, hr, v70_x]
  rfl

/-- THE SECOND RESULT of the reference, read at (r, 0), is the edge-side form. -/
theorem v79_A (r : Fin 50000) :
    val_main_v79 (F := Ideal) a0 a1 a2 a3 a4 a5 a6 a7 a8 a9 a10 a11 (ix2 r (0 : Fin 1))
      = AR (GcnData.hit a1) (GcnData.sr a1) (GcnData.dn a1) 0 (GcnData.dfac a1) (GcnData.mat a0) (GcnData.mat a2)
          (GcnData.vec a3) (GcnData.mat a4) (GcnData.vec a5) (GcnData.mat a6) (GcnData.vec a7) (GcnData.mat a8)
          (GcnData.vec a9) (GcnData.col a10) (GcnData.vec a11 0) r := by
  rw [val_main_v79_apply, val_main_v76_apply, v78_bias, ideal_addf, AR_spec]
  refine congrArg (fun s => addM s (GcnData.vec a11 (0 : Fin 1))) ?_
  refine Finset.sum_congr rfl fun k _ => ?_
  have hl : lidx_main_v76 (ix2 r (0 : Fin 1)) k = ix2 r k := by idx_eq
  have hr : ridx_main_v76 (ix2 r (0 : Fin 1)) k = ix2 k (0 : Fin 1) := by idx_eq
  rw [hl, hr, val_main_v75_apply, val_main_v74_apply, v71_dot, v73_bias, val_main_call3_v0_apply,
    val_main_call3_cst_apply, ofBits_zero, ideal_maxf, ideal_addf]
  rfl

end Layers

/-! ### The two results, with the arguments in the program's order -/

section Results

open Cert.GcnSpec

variable (a0 : (⟨S50000x128, .f32⟩ : BufTy).Contents (Elt Ideal)) (a1 : (⟨S2x400000, .i32⟩ : BufTy).Contents (Elt Ideal))
  (a2 : (⟨S128x512, .f32⟩ : BufTy).Contents (Elt Ideal)) (a3 : (⟨S512, .f32⟩ : BufTy).Contents (Elt Ideal))
  (a4 : (⟨S512x128, .f32⟩ : BufTy).Contents (Elt Ideal)) (a5 : (⟨S128, .f32⟩ : BufTy).Contents (Elt Ideal))
  (a6 : (⟨S512x128, .f32⟩ : BufTy).Contents (Elt Ideal)) (a7 : (⟨S128, .f32⟩ : BufTy).Contents (Elt Ideal))
  (a8 : (⟨S128x256, .f32⟩ : BufTy).Contents (Elt Ideal)) (a9 : (⟨S256, .f32⟩ : BufTy).Contents (Elt Ideal))
  (a10 : (⟨S256x1, .f32⟩ : BufTy).Contents (Elt Ideal)) (a11 : (⟨S1, .f32⟩ : BufTy).Contents (Elt Ideal))

/-- THE FIRST RESULT of the reference, read at (r, c), is the edge-side first result at the data of the arguments. -/
theorem ref_x (r : Fin 50000) (c : Fin 128) :
    val_main_v70 (F := Ideal) a0 a1 a2 a3 a4 a5 a6 a7 (ix2 r c)
      = xR (GcnData.hit a1) (GcnData.sr a1) (GcnData.dn a1) 0 (GcnData.dfac a1) (GcnData.mat a0) (GcnData.mat a2)
          (GcnData.vec a3) (GcnData.mat a4) (GcnData.vec a5) (GcnData.mat a6) (GcnData.vec a7) r c :=
  v70_x a1 a0 a2 a3 a4 a5 a6 a7 r c

/-- THE SECOND RESULT of the reference, read at (r, 0), is the edge-side second result at the data of the
    arguments. -/
theorem ref_A (r : Fin 50000) :
    val_main_v79 (F := Ideal) a0 a1 a2 a3 a4 a5 a6 a7 a8 a9 a10 a11 (ix2 r (0 : Fin 1))
      = AR (GcnData.hit a1) (GcnData.sr a1) (GcnData.dn a1) 0 (GcnData.dfac a1) (GcnData.mat a0) (GcnData.mat a2)
          (GcnData.vec a3) (GcnData.mat a4) (GcnData.vec a5) (GcnData.mat a6) (GcnData.vec a7) (GcnData.mat a8)
          (GcnData.vec a9) (GcnData.col a10) (GcnData.vec a11 0) r :=
  v79_A a1 a0 a2 a3 a4 a5 a6 a7 a8 a9 a10 a11 r

end Results

end Cert.RefValue

end
-- ==== Proof.KernelRun.lean ====
/-
  The idealized kernel program's run with its two results kept: every weakly fair execution of the program, from any
  memory with zero counters, terminates without a fault in a state whose two result buffers hold the contents the
  last segment boundary assigns them (the second region's output arrays after all its write-backs) and whose argument
  arrays are as launched. The run is the same chain of host stretches and regions the frame is proved over; only the
  final state is read at two more buffers.
-/
import proofs.«168154_j70214125355147_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results read off the last boundary's contents. -/
theorem run_vals : θ_run defs (onTc (τ := τ) (main (F := F))) ⟨m, fun _ => 0, ρ⟩ (fun r => ∀ c : Dev nD,
      r.2.mem ((c.tc : Thread nD τ).loc main_v44_0) = W6 m ρ c (Proc.devRef .tc main_v44_0)
      ∧ r.2.mem ((c.tc : Thread nD τ).loc main_v44_1) = W6 m ρ c (Proc.devRef .tc main_v44_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44_0 (by decide)),
       h c _ (mem_uc main_v44_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunV

end
-- ==== Proof.KernelBodies.lean ====
/-
  The two kernel bodies of the idealized program read at an index, at the ideal values (extended reals, every
  operation exact, the format changes the identity).

  Body 0 leaves in its two output blocks, from its input blocks x0 … x5 (a [2000,128] row block of each of three
  arrays, a [1,512] bias row, a [128,512] and a [512,128] weight matrix):
    out0_6 (p, j) = max ((∑ k, (x1 (p,k) * x0 (p,k) + ((2 * x1 (p,k)) * x1 (p,k)) * x2 (p,k)) * x4 (k,j)) + x3 (0,j)) 0
    out0_7 (p, c) = ∑ j, out0_6 (p, j) * x5 (j, c)
  Body 1, from x0 … x10:
    out1_11 (p, c) = max ((x1 (p,c) * x0 (p,c) + ((2 * x1 (p,c)) * x1 (p,c)) * x2 (p,c)) + x3 (0,c)) 0
                       + ((∑ j, x4 (p,j) * x5 (j,c)) + x6 (0,c))
    out1_12 (p, 0) = (∑ k, max ((∑ c, out1_11 (p,c) * x7 (c,k)) + x8 (0,k)) 0 * x9 (k,0)) + x10 (0,0)
  with every product and sum in the order the program applies it, and the literals 2 and 0 kept as their f32 words.

  Each output block is one whole-block store of a payload of whole-block loads, so it IS the payload of the input
  blocks; the payload is pointwise operations, row broadcasts and contractions into the zero splat, and a
  contraction read at (p, j) is the sum over its one shared coordinate of the operands' products.
-/
import proofs.«168154_j70214125355147_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelBodies

open Cert.KernelIdeal Cert.KernelIdeal.Gen Idealize.ShloMosaic Idealize.ShloMosaic.TcCoe Idealize.SL.Sem
open Idealize.ShloMosaic.ValueIdx
open scoped BigOperators

/-- The zero offsets of a whole-block access, however spelt. -/
theorem hz2 : (![0, 0] : Fin 2 → Nat) = fun _ => 0 := funext fun a => by
  match a with
  | ⟨0, _⟩ => rfl
  | ⟨1, _⟩ => rfl

/-! ## The four contractions, each into the zero splat, read at an index -/

/-- A [2000,128] by [128,512] contraction into zero at (p, j): the sum over the 128 shared coordinates (the operand indices first). -/
theorem mm_128_512_lhs0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem mm_128_512_rhs1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl
theorem mm_128_512 (a : FVec Ideal S2000x128 .bf16) (b : FVec Ideal S128x512 .bf16) (p : Fin 2000) (j : Fin 512) :
    matmul dot_S2000x128_S128x512_S2000x512_1_0_0_1_n_n none a b (constant (F := Ideal) S2000x512 .f32 0x00000000#32) (ix2 p j)
      = ∑ k : Fin 128, a (ix2 p k) * b (ix2 k j) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p j) ((contrEquiv1 dot_S2000x128_S128x512_S2000x512_1_0_0_1_n_n 128 rfl rfl).symm k) = ix2 p k :=
    funext fun ax => Fin.ext (by
      match ax with
      | ⟨0, _⟩ => exact mm_128_512_lhs0 _ _
      | ⟨1, _⟩ => exact (dot_S2000x128_S128x512_S2000x512_1_0_0_1_n_n.lhsIdx_val_of_single rfl (ix2 p j) _).trans hk)
  have er : dot_S2000x128_S128x512_S2000x512_1_0_0_1_n_n.rhsIdx (ix2 p j) ((contrEquiv1 dot_S2000x128_S128x512_S2000x512_1_0_0_1_n_n 128 rfl rfl).symm k) = ix2 k j :=
    funext fun ax => Fin.ext (by
      match ax with
      | ⟨0, _⟩ => exact (dot_S2000x128_S128x512_S2000x512_1_0_0_1_n_n.rhsIdx_val_of_single rfl (ix2 p j) _).trans hk
      | ⟨1, _⟩ => exact mm_128_512_rhs1 _ _)
  rw [el, er]

/-- A [2000,512] by [512,128] contraction into zero at (p, c): the sum over the 512 shared coordinates (the operand indices first). -/
theorem mm_512_128_lhs0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem mm_512_128_rhs1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl
theorem mm_512_128 (a : FVec Ideal S2000x512 .bf16) (b : FVec Ideal S512x128 .bf16) (p : Fin 2000) (j : Fin 128) :
    matmul dot_S2000x512_S512x128_S2000x128_1_0_0_1_n_n none a b (constant (F := Ideal) S2000x128 .f32 0x00000000#32) (ix2 p j)
      = ∑ k : Fin 512, a (ix2 p k) * b (ix2 k j) := by
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p j) ((contrEquiv1 dot_S2000x512_S512x128_S2000x128_1_0_0_1_n_n 512 rfl rfl).symm k) = ix2 p k :=
    funext fun ax => Fin.ext (by
      match ax with
      | ⟨0, _⟩ => exact mm_512_128_lhs0 _ _
      | ⟨1, _⟩ => exact (dot_S2000x512_S512x128_S2000x128_1_0_0_1_n_n.lhsIdx_val_of_single rfl (ix2 p j) _).trans hk)
  have er : dot_S2000x512_S512x128_S2000x128_1_0_0_1_n_n.rhsIdx (ix2 p j) ((contrEquiv1 dot_S2000x512_S512x128_S2000x128_1_0_0_1_n_n 512 rfl rfl).symm k) = ix2 k j :=
    funext fun ax => Fin.ext (by
      match ax with
      | ⟨0, _⟩ => exact (dot_S2000x512_S512x128_S2000x128_1_0_0_1_n_n.rhsIdx_val_of_single rfl (ix2 p j) _).trans hk
      | ⟨1, _⟩ => exact mm_512_128_rhs1 _ _)
  rw [el, er]

/-- A [2000,128] by [128,256] contraction into zero at (p, k): the sum over the 128 shared coordinates (the operand indices first). -/
theorem mm_128_256_lhs0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem mm_128_256_rhs1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl
theorem mm_128_256 (a : FVec Ideal S2000x128 .bf16) (b : FVec Ideal S128x256 .bf16) (p : Fin 2000) (j : Fin 256) :
    matmul dot_S2000x128_S128x256_S2000x256_1_0_0_1_n_n none a b (constant (F := Ideal) S2000x256 .f32 0x00000000#32) (ix2 p j)
      = ∑ k : Fin 128, a (ix2 p k) * b (ix2 k j) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p j) ((contrEquiv1 dot_S2000x128_S128x256_S2000x256_1_0_0_1_n_n 128 rfl rfl).symm k) = ix2 p k :=
    funext fun ax => Fin.ext (by
      match ax with
      | ⟨0, _⟩ => exact mm_128_256_lhs0 _ _
      | ⟨1, _⟩ => exact (dot_S2000x128_S128x256_S2000x256_1_0_0_1_n_n.lhsIdx_val_of_single rfl (ix2 p j) _).trans hk)
  have er : dot_S2000x128_S128x256_S2000x256_1_0_0_1_n_n.rhsIdx (ix2 p j) ((contrEquiv1 dot_S2000x128_S128x256_S2000x256_1_0_0_1_n_n 128 rfl rfl).symm k) = ix2 k j :=
    funext fun ax => Fin.ext (by
      match ax with
      | ⟨0, _⟩ => exact (dot_S2000x128_S128x256_S2000x256_1_0_0_1_n_n.rhsIdx_val_of_single rfl (ix2 p j) _).trans hk
      | ⟨1, _⟩ => exact mm_128_256_rhs1 _ _)
  rw [el, er]

/-- A [2000,256] by [256,1] contraction into zero at (p, 0): the sum over the 256 shared coordinates (the operand indices first). -/
theorem mm_256_1_lhs0 (i : S2000x1.Idx) (q : dot_S2000x256_S256x1_S2000x1_1_0_0_1_n_n.contr.Idx) :
    (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem mm_256_1_rhs1 (i : S2000x1.Idx) (q : dot_S2000x256_S256x1_S2000x1_1_0_0_1_n_n.contr.Idx) :
    (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl
theorem mm_256_1 (a : FVec Ideal S2000x256 .bf16) (b : FVec Ideal S256x1 .bf16) (p : Fin 2000) (j : Fin 1) :
    matmul dot_S2000x256_S256x1_S2000x1_1_0_0_1_n_n none a b (constant (F := Ideal) S2000x1 .f32 0x00000000#32) (ix2 p j)
      = ∑ k : Fin 256, a (ix2 p k) * b (ix2 k j) := by
  simp only [matmul]
  rw [Ideal.matmul_constant_zero_apply, ← Equiv.sum_comp (contrEquiv1 dot_S2000x256_S256x1_S2000x1_1_0_0_1_n_n 256 rfl rfl).symm]
  refine Finset.sum_congr rfl fun k _ => ?_
  have hk := contrEquiv1_symm_val dot_S2000x256_S256x1_S2000x1_1_0_0_1_n_n 256 rfl rfl k
  have el : dot_S2000x256_S256x1_S2000x1_1_0_0_1_n_n.lhsIdx (ix2 p j) ((contrEquiv1 dot_S2000x256_S256x1_S2000x1_1_0_0_1_n_n 256 rfl rfl).symm k) = ix2 p k :=
    funext fun ax => Fin.ext (by
      match ax with
      | ⟨0, _⟩ => exact mm_256_1_lhs0 _ _
      | ⟨1, _⟩ => exact (dot_S2000x256_S256x1_S2000x1_1_0_0_1_n_n.lhsIdx_val_of_single rfl (ix2 p j) _).trans hk)
  have er : dot_S2000x256_S256x1_S2000x1_1_0_0_1_n_n.rhsIdx (ix2 p j) ((contrEquiv1 dot_S2000x256_S256x1_S2000x1_1_0_0_1_n_n 256 rfl rfl).symm k) = ix2 k j :=
    funext fun ax => Fin.ext (by
      match ax with
      | ⟨0, _⟩ => exact (dot_S2000x256_S256x1_S2000x1_1_0_0_1_n_n.rhsIdx_val_of_single rfl (ix2 p j) _).trans hk
      | ⟨1, _⟩ => exact mm_256_1_rhs1 _ _)
  rw [el, er]

/-! ## Body 0 -/

theorem out0_6_apply (x0 x1 x2 : Vec Ideal S2000x128 .f32) (x3 : Vec Ideal S1x512 .f32) (x4 : Vec Ideal S128x512 .f32)
    (x5 : Vec Ideal S512x128 .f32) (p : Fin 2000) (j : Fin 512) :
    out0_6 (F := Ideal) x0 x1 x2 x3 x4 x5 (ix2 p j)
      = max ((∑ k : Fin 128, (x1 (ix2 p k) * x0 (ix2 p k)
              + ((Ideal.ofBits .f32 0x40000000#32 * x1 (ix2 p k)) * x1 (ix2 p k)) * x2 (ix2 p k)) * x4 (ix2 k j))
            + x3 (ix2 0 j)) (Ideal.ofBits .f32 0x00000000#32) := by
  unfold out0_6
  rw [View.canon_unit_zero hz2]
  simp only [View.ld_unit_zero (S := S2000x128) hz2, View.ld_unit_zero (S := S128x512) hz2,
    View.ld_unit_zero (S := S1x512) hz2]
  unfold k0_pay1
  simp only [shapeCast_self]
  rw [maximumf_apply, addf_apply, mm_128_512, broadcastTo_1b_ab_apply, broadcast_apply]
  rfl

theorem out0_7_apply (x0 x1 x2 : Vec Ideal S2000x128 .f32) (x3 : Vec Ideal S1x512 .f32) (x4 : Vec Ideal S128x512 .f32)
    (x5 : Vec Ideal S512x128 .f32) (p : Fin 2000) (c : Fin 128) :
    out0_7 (F := Ideal) x0 x1 x2 x3 x4 x5 (ix2 p c)
      = ∑ j : Fin 512, out0_6 (F := Ideal) x0 x1 x2 x3 x4 x5 (ix2 p j) * x5 (ix2 j c) := by
  unfold out0_7
  rw [View.canon_unit_zero hz2]
  unfold k0_pay2
  rw [mm_512_128]
  refine Finset.sum_congr rfl fun j _ => ?_
  unfold out0_6
  rw [View.canon_unit_zero hz2, View.ld_unit_zero (S := S512x128) hz2]
  rfl

/-- Body 0's second block with the first block's formula written out. -/
theorem out0_7_apply' (x0 x1 x2 : Vec Ideal S2000x128 .f32) (x3 : Vec Ideal S1x512 .f32) (x4 : Vec Ideal S128x512 .f32)
    (x5 : Vec Ideal S512x128 .f32) (p : Fin 2000) (c : Fin 128) :
    out0_7 (F := Ideal) x0 x1 x2 x3 x4 x5 (ix2 p c)
      = ∑ j : Fin 512,
          max ((∑ k : Fin 128, (x1 (ix2 p k) * x0 (ix2 p k)
                + ((Ideal.ofBits .f32 0x40000000#32 * x1 (ix2 p k)) * x1 (ix2 p k)) * x2 (ix2 p k)) * x4 (ix2 k j))
              + x3 (ix2 0 j)) (Ideal.ofBits .f32 0x00000000#32)
            * x5 (ix2 j c) := by
  rw [out0_7_apply]
  exact Finset.sum_congr rfl fun j _ => by rw [out0_6_apply]

/-! ## Body 1 -/

theorem out1_11_apply (x0 x1 x2 : Vec Ideal S2000x128 .f32) (x3 : Vec Ideal S1x128 .f32) (x4 : Vec Ideal S2000x512 .f32)
    (x5 : Vec Ideal S512x128 .f32) (x6 : Vec Ideal S1x128 .f32) (x7 : Vec Ideal S128x256 .f32) (x8 : Vec Ideal S1x256 .f32)
    (x9 : Vec Ideal S256x1 .f32) (x10 : Vec Ideal S1x1 .f32) (p : Fin 2000) (c : Fin 128) :
    out1_11 (F := Ideal) x0 x1 x2 x3 x4 x5 x6 x7 x8 x9 x10 (ix2 p c)
      = max ((x1 (ix2 p c) * x0 (ix2 p c)
              + ((Ideal.ofBits .f32 0x40000000#32 * x1 (ix2 p c)) * x1 (ix2 p c)) * x2 (ix2 p c))
            + x3 (ix2 0 c)) (Ideal.ofBits .f32 0x00000000#32)
        + ((∑ j : Fin 512, x4 (ix2 p j) * x5 (ix2 j c)) + x6 (ix2 0 c)) := by
  unfold out1_11
  rw [View.canon_unit_zero hz2]
  simp only [View.ld_unit_zero (S := S2000x128) hz2, View.ld_unit_zero (S := S1x128) hz2,
    View.ld_unit_zero (S := S2000x512) hz2, View.ld_unit_zero (S := S512x128) hz2]
  unfold k1_pay2
  simp only [shapeCast_self]
  rw [addf_apply, addf_apply, mm_512_128, broadcastTo_1b_ab_apply, maximumf_apply, addf_apply, broadcastTo_1b_ab_apply,
    broadcast_apply]
  rfl

theorem out1_12_apply (x0 x1 x2 : Vec Ideal S2000x128 .f32) (x3 : Vec Ideal S1x128 .f32) (x4 : Vec Ideal S2000x512 .f32)
    (x5 : Vec Ideal S512x128 .f32) (x6 : Vec Ideal S1x128 .f32) (x7 : Vec Ideal S128x256 .f32) (x8 : Vec Ideal S1x256 .f32)
    (x9 : Vec Ideal S256x1 .f32) (x10 : Vec Ideal S1x1 .f32) (p : Fin 2000) :
    out1_12 (F := Ideal) x0 x1 x2 x3 x4 x5 x6 x7 x8 x9 x10 (ix2 p (0 : Fin 1))
      = (∑ k : Fin 256,
            max ((∑ c : Fin 128, out1_11 (F := Ideal) x0 x1 x2 x3 x4 x5 x6 x7 x8 x9 x10 (ix2 p c) * x7 (ix2 c k))
                  + x8 (ix2 0 k)) (Ideal.ofBits .f32 0x00000000#32)
              * x9 (ix2 k 0))
          + x10 (ix2 0 0) := by
  unfold out1_12
  rw [View.canon_unit_zero hz2]
  simp only [View.ld_unit_zero (S := S1x256) hz2, View.ld_unit_zero (S := S256x1) hz2, View.ld_unit_zero (S := S1x1) hz2]
  unfold k1_pay1
  simp only [shapeCast_self]
  rw [addf_apply, mm_256_1, broadcastTo_1b_ab_apply]
  refine congrArg (· + x10 (ix2 0 0)) (Finset.sum_congr rfl fun k _ => ?_)
  rw [truncf_apply, truncf_apply, maximumf_apply, addf_apply, broadcastTo_1b_ab_apply, broadcast_apply]
  unfold k1_pay3
  rw [mm_128_256]
  refine congrArg (fun s => max (s + x8 (ix2 0 k)) (Ideal.ofBits .f32 0x00000000#32) * x9 (ix2 k 0)) (Finset.sum_congr rfl fun c _ => ?_)
  unfold out1_11
  rw [View.canon_unit_zero hz2, View.ld_unit_zero (S := S128x256) hz2]
  rfl

end Cert.KernelBodies

end
-- ==== Proof.RegionValues.lean ====
/-
  Each region's output arrays as whole-array functions of the arrays the region reads.

  Both regions run over 25 grid points; point t works on rows t·2000 … t·2000 + 1999 of every per-row array (all of
  its columns) and on the whole of every weight matrix and bias row. So an entry (p, k) of a per-row block is entry
  (t·2000 + p, k) of its array, an entry of a weight block is the same entry of the weight, and the output blocks tile
  their arrays. Read through that, what point t writes back is block t of one function of the input arrays:
  region 0 leaves X1 (the first layer's output, rows of width 512) and H2 = X1 · W2; region 1 leaves X (the second
  layer plus the residual projection) and A (the head on X).
-/
import proofs.«168154_j70214125355147_2_alg».proof.Proof.Gen.KernelIdeal.Frame
import proofs.«168154_j70214125355147_2_alg».proof.Proof.KernelBodies
import Idealize.ShloMosaic.Lib.ValueIdx
import Idealize.ShloMosaic.Lib.Pipeline.Value

set_option maxRecDepth 16384

open scoped BigOperators

noncomputable section

namespace Cert.KernelIdeal.RegV

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The float words of 2 and 0, as the bodies splat them. -/
abbrev twoW : EReal := Ideal.ofBits .f32 0x40000000#32
abbrev zeroW : EReal := Ideal.ofBits .f32 0x00000000#32

/-! ## Blocks and arrays -/

/-- The printed index maps of region 0, decided over its 25 grid points: a per-row window's block index is (t, 0), a weight's or a bias row's is (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of the block at grid point t is row t·2000 + p of the array. -/
def rowAt0 (t : Fin cfg0.N) (p : Fin 2000) : Fin 50000 := ⟨t.val * 2000 + p.val, by
  have h : t.val < 25 := Nat.lt_of_lt_of_eq t.isLt N_0
  have := p.isLt; omega⟩

theorem emb0_0 (t : Fin cfg0.N) (p : Fin 2000) (k : Fin 128) :
    ((cfg0.win 0).blk t).view.emb (ix2 p k) = ix2 (rowAt0 t p) k := by
  obtain ⟨e0, e1, -, -, -, -, -, -, -, -, -, -, -, -, -, -⟩ := idx_facts0 t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem iblk0_0_apply (c : Dev nD) (t : Fin cfg0.N) (p : Fin 2000) (k : Fin 128) :
    iblk0 V c 0 t (ix2 p k) = V c main_v26 (ix2 (rowAt0 t p) k) := by
  show V c main_v26 (((cfg0.win 0).blk t).view.emb (ix2 p k)) = _
  rw [emb0_0]

theorem emb0_1 (t : Fin cfg0.N) (p : Fin 2000) (k : Fin 128) :
    ((cfg0.win 1).blk t).view.emb (ix2 p k) = ix2 (rowAt0 t p) k := by
  obtain ⟨-, -, e0, e1, -, -, -, -, -, -, -, -, -, -, -, -⟩ := idx_facts0 t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem iblk0_1_apply (c : Dev nD) (t : Fin cfg0.N) (p : Fin 2000) (k : Fin 128) :
    iblk0 V c 1 t (ix2 p k) = V c main_v15 (ix2 (rowAt0 t p) k) := by
  show V c main_v15 (((cfg0.win 1).blk t).view.emb (ix2 p k)) = _
  rw [emb0_1]

theorem emb0_2 (t : Fin cfg0.N) (p : Fin 2000) (k : Fin 128) :
    ((cfg0.win 2).blk t).view.emb (ix2 p k) = ix2 (rowAt0 t p) k := by
  obtain ⟨-, -, -, -, e0, e1, -, -, -, -, -, -, -, -, -, -⟩ := idx_facts0 t
  funext a; apply Fin.ext
  match a with
  | ⟨0, _⟩ => show win0_2.index t (0 : Fin 2) * 2000 + 1 * p.val = t.val * 2000 + p.val; omega
  | ⟨1, _⟩ => show win0_2.index t (1 : Fin 2) * 128 + 1 * k.val = k.val; omega

theorem iblk0_2_apply (c : Dev nD) (t : Fin cfg0.N) (p : Fin 2000) (k : Fin 128) :
    iblk0 V c 2 t (ix2 p k) = V c main_arg0 (ix2 (rowAt0 t p) k) := by
  show V c main_arg0 (((cfg0.win 2).blk t).view.emb (ix2 p k)) = _
  rw [emb0_2]

theorem emb0_3 (t : Fin cfg0.N) (a' : Fin 1) (b' : Fin 512) :
    ((cfg0.win 3).blk t).view.emb (ix2 a' b') = ix2 a' b' := by
  obtain ⟨-, -, -, -, -, -, e0, e1, -, -, -, -, -, -, -, -⟩ := idx_facts0 t
  funext a; apply Fin.ext
  match a with
  | ⟨0, _⟩ => show win0_3.index t (0 : Fin 2) * 1 + 1 * a'.val = a'.val; omega
  | ⟨1, _⟩ => show win0_3.index t (1 : Fin 2) * 512 + 1 * b'.val = b'.val; omega

theorem iblk0_3_apply (c : Dev nD) (t : Fin cfg0.N) (a' : Fin 1) (b' : Fin 512) :
    iblk0 V c 3 t (ix2 a' b') = V c main_v27 (ix2 a' b') := by
  show V c main_v27 (((cfg0.win 3).blk t).view.emb (ix2 a' b')) = _
  rw [emb0_3]

theorem emb0_4 (t : Fin cfg0.N) (a' : Fin 128) (b' : Fin 512) :
    ((cfg0.win 4).blk t).view.emb (ix2 a' b') = ix2 a' b' := by
  obtain ⟨-, -, -, -, -, -, -, -, e0, e1, -, -, -, -, -, -⟩ := idx_facts0 t
  funext a; apply Fin.ext
  match a with
  | ⟨0, _⟩ => show win0_4.index t (0 : Fin 2) * 128 + 1 * a'.val = a'.val; omega
  | ⟨1, _⟩ => show win0_4.index t (1 : Fin 2) * 512 + 1 * b'.val = b'.val; omega

theorem iblk0_4_apply (c : Dev nD) (t : Fin cfg0.N) (a' : Fin 128) (b' : Fin 512) :
    iblk0 V c 4 t (ix2 a' b') = V c main_arg2 (ix2 a' b') := by
  show V c main_arg2 (((cfg0.win 4).blk t).view.emb (ix2 a' b')) = _
  rw [emb0_4]

theorem emb0_5 (t : Fin cfg0.N) (a' : Fin 512) (b' : Fin 128) :
    ((cfg0.win 5).blk t).view.emb (ix2 a' b') = ix2 a' b' := by
  obtain ⟨-, -, -, -, -, -, -, -, -, -, e0, e1, -, -, -, -⟩ := idx_facts0 t
  funext a; apply Fin.ext
  match a with
  | ⟨0, _⟩ => show win0_5.index t (0 : Fin 2) * 512 + 1 * a'.val = a'.val; omega
  | ⟨1, _⟩ => show win0_5.index t (1 : Fin 2) * 128 + 1 * b'.val = b'.val; omega

theorem iblk0_5_apply (c : Dev nD) (t : Fin cfg0.N) (a' : Fin 512) (b' : Fin 128) :
    iblk0 V c 5 t (ix2 a' b') = V c main_arg4 (ix2 a' b') := by
  show V c main_arg4 (((cfg0.win 5).blk t).view.emb (ix2 a' b')) = _
  rw [emb0_5]

theorem emb0_6 (t : Fin cfg0.N) (p : Fin 2000) (k : Fin 512) :
    ((cfg0.win 6).blk t).view.emb (ix2 p k) = ix2 (rowAt0 t p) k := by
  obtain ⟨-, -, -, -, -, -, -, -, -, -, -, -, e0, e1, -, -⟩ := idx_facts0 t
  funext a; apply Fin.ext
  match a with
  | ⟨0, _⟩ => show win0_6.index t (0 : Fin 2) * 2000 + 1 * p.val = t.val * 2000 + p.val; omega
  | ⟨1, _⟩ => show win0_6.index t (1 : Fin 2) * 512 + 1 * k.val = k.val; omega

theorem emb0_7 (t : Fin cfg0.N) (p : Fin 2000) (k : Fin 128) :
    ((cfg0.win 7).blk t).view.emb (ix2 p k) = ix2 (rowAt0 t p) k := by
  obtain ⟨-, -, -, -, -, -, -, -, -, -, -, -, -, -, e0, e1⟩ := idx_facts0 t
  funext a; apply Fin.ext
  match a with
  | ⟨0, _⟩ => show win0_7.index t (0 : Fin 2) * 2000 + 1 * p.val = t.val * 2000 + p.val; omega
  | ⟨1, _⟩ => show win0_7.index t (1 : Fin 2) * 128 + 1 * k.val = k.val; omega

/-- An index is in point t's block of output window 6 iff each coordinate is in the block's range. -/
theorem mem_blk0_6 (t : Fin cfg0.N) (i : S50000x512.Idx) :
    i ∈ ((cfg0.win 6).blk t).view.set ↔ ∀ a : Fin 2, win0_6.index t a * S2000x512.size a ≤ (i a).val ∧ (i a).val < win0_6.index t a * S2000x512.size a + S2000x512.size a := by
  show i ∈ ((View.whole main_v28_0).slice (win0_6.rect t)).set ↔ _
  rw [View.set_slice_whole, Rect.mem_set_unit]
  exact Iff.rfl

/-- The blocks of output window 6 tile its array: row r is in the block of point r / 2000. -/
theorem cover0_6_all (i : S50000x512.Idx) :
    ∃ t : Fin cfg0.N, (cfg0.win 6).flush t = true ∧ i ∈ ((cfg0.win 6).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  have ht : t.val = (i 0).val / 2000 := rfl
  obtain ⟨-, -, -, -, -, -, -, -, -, -, -, -, e0, e1, -, -⟩ := idx_facts0 t
  refine ⟨t, flush0_6 t, ?_⟩
  rw [mem_blk0_6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 512 ≤ (i 1).val ∧ (i 1).val < win0_6.index t (1 : Fin 2) * 512 + 512; omega

/-- An index is in point t's block of output window 7 iff each coordinate is in the block's range. -/
theorem mem_blk0_7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v28_1).slice (win0_7.rect t)).set ↔ _
  rw [View.set_slice_whole, Rect.mem_set_unit]
  exact Iff.rfl

/-- The blocks of output window 7 tile its array: row r is in the block of point r / 2000. -/
theorem cover0_7_all (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, -, -, -, -, -, -, -, -, -, -, e0, e1⟩ := idx_facts0 t
  refine ⟨t, flush0_7 t, ?_⟩
  rw [mem_blk0_7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The printed index maps of region 1, decided over its 25 grid points: a per-row window's block index is (t, 0), a weight's or a bias row's is (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- Row p of the block at grid point t is row t·2000 + p of the array. -/
def rowAt1 (t : Fin cfg1.N) (p : Fin 2000) : Fin 50000 := ⟨t.val * 2000 + p.val, by
  have h : t.val < 25 := Nat.lt_of_lt_of_eq t.isLt N_1
  have := p.isLt; omega⟩

theorem emb1_0 (t : Fin cfg1.N) (p : Fin 2000) (k : Fin 128) :
    ((cfg1.win 0).blk t).view.emb (ix2 p k) = ix2 (rowAt1 t p) k := by
  obtain ⟨e0, e1, -, -, -, -, -, -, -, -, -, -, -, -, -, -, -, -, -, -, -, -, -, -, -, -⟩ := idx_facts1 t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem iblk1_0_apply (c : Dev nD) (t : Fin cfg1.N) (p : Fin 2000) (k : Fin 128) :
    iblk1 V c 0 t (ix2 p k) = V c main_v39 (ix2 (rowAt1 t p) k) := by
  show V c main_v39 (((cfg1.win 0).blk t).view.emb (ix2 p k)) = _
  rw [emb1_0]

theorem emb1_1 (t : Fin cfg1.N) (p : Fin 2000) (k : Fin 128) :
    ((cfg1.win 1).blk t).view.emb (ix2 p k) = ix2 (rowAt1 t p) k := by
  obtain ⟨-, -, e0, e1, -, -, -, -, -, -, -, -, -, -, -, -, -, -, -, -, -, -, -, -, -, -⟩ := idx_facts1 t
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

theorem iblk1_1_apply (c : Dev nD) (t : Fin cfg1.N) (p : Fin 2000) (k : Fin 128) :
    iblk1 V c 1 t (ix2 p k) = V c main_v15 (ix2 (rowAt1 t p) k) := by
  show V c main_v15 (((cfg1.win 1).blk t).view.emb (ix2 p k)) = _
  rw [emb1_1]

theorem emb1_2 (t : Fin cfg1.N) (p : Fin 2000) (k : Fin 128) :
    ((cfg1.win 2).blk t).view.emb (ix2 p k) = ix2 (rowAt1 t p) k := by
  obtain ⟨-, -, -, -, e0, e1, -, -, -, -, -, -, -, -, -, -, -, -, -, -, -, -, -, -, -, -⟩ := idx_facts1 t
  funext a; apply Fin.ext
  match a with
  | ⟨0, _⟩ => show win1_2.index t (0 : Fin 2) * 2000 + 1 * p.val = t.val * 2000 + p.val; omega
  | ⟨1, _⟩ => show win1_2.index t (1 : Fin 2) * 128 + 1 * k.val = k.val; omega

theorem iblk1_2_apply (c : Dev nD) (t : Fin cfg1.N) (p : Fin 2000) (k : Fin 128) :
    iblk1 V c 2 t (ix2 p k) = V c main_v28_1 (ix2 (rowAt1 t p) k) := by
  show V c main_v28_1 (((cfg1.win 2).blk t).view.emb (ix2 p k)) = _
  rw [emb1_2]

theorem emb1_3 (t : Fin cfg1.N) (a' : Fin 1) (b' : Fin 128) :
    ((cfg1.win 3).blk t).view.emb (ix2 a' b') = ix2 a' b' := by
  obtain ⟨-, -, -, -, -, -, e0, e1, -, -, -, -, -, -, -, -, -, -, -, -, -, -, -, -, -, -⟩ := idx_facts1 t
  funext a; apply Fin.ext
  match a with
  | ⟨0, _⟩ => show win1_3.index t (0 : Fin 2) * 1 + 1 * a'.val = a'.val; omega
  | ⟨1, _⟩ => show win1_3.index t (1 : Fin 2) * 128 + 1 * b'.val = b'.val; omega

theorem iblk1_3_apply (c : Dev nD) (t : Fin cfg1.N) (a' : Fin 1) (b' : Fin 128) :
    iblk1 V c 3 t (ix2 a' b') = V c main_v40 (ix2 a' b') := by
  show V c main_v40 (((cfg1.win 3).blk t).view.emb (ix2 a' b')) = _
  rw [emb1_3]

theorem emb1_4 (t : Fin cfg1.N) (p : Fin 2000) (k : Fin 512) :
    ((cfg1.win 4).blk t).view.emb (ix2 p k) = ix2 (rowAt1 t p) k := by
  obtain ⟨-, -, -, -, -, -, -, -, e0, e1, -, -, -, -, -, -, -, -, -, -, -, -, -, -, -, -⟩ := idx_facts1 t
  funext a; apply Fin.ext
  match a with
  | ⟨0, _⟩ => show win1_4.index t (0 : Fin 2) * 2000 + 1 * p.val = t.val * 2000 + p.val; omega
  | ⟨1, _⟩ => show win1_4.index t (1 : Fin 2) * 512 + 1 * k.val = k.val; omega

theorem iblk1_4_apply (c : Dev nD) (t : Fin cfg1.N) (p : Fin 2000) (k : Fin 512) :
    iblk1 V c 4 t (ix2 p k) = V c main_v28_0 (ix2 (rowAt1 t p) k) := by
  show V c main_v28_0 (((cfg1.win 4).blk t).view.emb (ix2 p k)) = _
  rw [emb1_4]

theorem emb1_5 (t : Fin cfg1.N) (a' : Fin 512) (b' : Fin 128) :
    ((cfg1.win 5).blk t).view.emb (ix2 a' b') = ix2 a' b' := by
  obtain ⟨-, -, -, -, -, -, -, -, -, -, e0, e1, -, -, -, -, -, -, -, -, -, -, -, -, -, -⟩ := idx_facts1 t
  funext a; apply Fin.ext
  match a with
  | ⟨0, _⟩ => show win1_5.index t (0 : Fin 2) * 512 + 1 * a'.val = a'.val; omega
  | ⟨1, _⟩ => show win1_5.index t (1 : Fin 2) * 128 + 1 * b'.val = b'.val; omega

theorem iblk1_5_apply (c : Dev nD) (t : Fin cfg1.N) (a' : Fin 512) (b' : Fin 128) :
    iblk1 V c 5 t (ix2 a' b') = V c main_arg6 (ix2 a' b') := by
  show V c main_arg6 (((cfg1.win 5).blk t).view.emb (ix2 a' b')) = _
  rw [emb1_5]

theorem emb1_6 (t : Fin cfg1.N) (a' : Fin 1) (b' : Fin 128) :
    ((cfg1.win 6).blk t).view.emb (ix2 a' b') = ix2 a' b' := by
  obtain ⟨-, -, -, -, -, -, -, -, -, -, -, -, e0, e1, -, -, -, -, -, -, -, -, -, -, -, -⟩ := idx_facts1 t
  funext a; apply Fin.ext
  match a with
  | ⟨0, _⟩ => show win1_6.index t (0 : Fin 2) * 1 + 1 * a'.val = a'.val; omega
  | ⟨1, _⟩ => show win1_6.index t (1 : Fin 2) * 128 + 1 * b'.val = b'.val; omega

theorem iblk1_6_apply (c : Dev nD) (t : Fin cfg1.N) (a' : Fin 1) (b' : Fin 128) :
    iblk1 V c 6 t (ix2 a' b') = V c main_v41 (ix2 a' b') := by
  show V c main_v41 (((cfg1.win 6).blk t).view.emb (ix2 a' b')) = _
  rw [emb1_6]

theorem emb1_7 (t : Fin cfg1.N) (a' : Fin 128) (b' : Fin 256) :
    ((cfg1.win 7).blk t).view.emb (ix2 a' b') = ix2 a' b' := by
  obtain ⟨-, -, -, -, -, -, -, -, -, -, -, -, -, -, e0, e1, -, -, -, -, -, -, -, -, -, -⟩ := idx_facts1 t
  funext a; apply Fin.ext
  match a with
  | ⟨0, _⟩ => show win1_7.index t (0 : Fin 2) * 128 + 1 * a'.val = a'.val; omega
  | ⟨1, _⟩ => show win1_7.index t (1 : Fin 2) * 256 + 1 * b'.val = b'.val; omega

theorem iblk1_7_apply (c : Dev nD) (t : Fin cfg1.N) (a' : Fin 128) (b' : Fin 256) :
    iblk1 V c 7 t (ix2 a' b') = V c main_arg8 (ix2 a' b') := by
  show V c main_arg8 (((cfg1.win 7).blk t).view.emb (ix2 a' b')) = _
  rw [emb1_7]

theorem emb1_8 (t : Fin cfg1.N) (a' : Fin 1) (b' : Fin 256) :
    ((cfg1.win 8).blk t).view.emb (ix2 a' b') = ix2 a' b' := by
  obtain ⟨-, -, -, -, -, -, -, -, -, -, -, -, -, -, -, -, e0, e1, -, -, -, -, -, -, -, -⟩ := idx_facts1 t
  funext a; apply Fin.ext
  match a with
  | ⟨0, _⟩ => show win1_8.index t (0 : Fin 2) * 1 + 1 * a'.val = a'.val; omega
  | ⟨1, _⟩ => show win1_8.index t (1 : Fin 2) * 256 + 1 * b'.val = b'.val; omega

theorem iblk1_8_apply (c : Dev nD) (t : Fin cfg1.N) (a' : Fin 1) (b' : Fin 256) :
    iblk1 V c 8 t (ix2 a' b') = V c main_v42 (ix2 a' b') := by
  show V c main_v42 (((cfg1.win 8).blk t).view.emb (ix2 a' b')) = _
  rw [emb1_8]

theorem emb1_9 (t : Fin cfg1.N) (a' : Fin 256) (b' : Fin 1) :
    ((cfg1.win 9).blk t).view.emb (ix2 a' b') = ix2 a' b' := by
  obtain ⟨-, -, -, -, -, -, -, -, -, -, -, -, -, -, -, -, -, -, e0, e1, -, -, -, -, -, -⟩ := idx_facts1 t
  funext a; apply Fin.ext
  match a with
  | ⟨0, _⟩ => show win1_9.index t (0 : Fin 2) * 256 + 1 * a'.val = a'.val; omega
  | ⟨1, _⟩ => show win1_9.index t (1 : Fin 2) * 1 + 1 * b'.val = b'.val; omega

theorem iblk1_9_apply (c : Dev nD) (t : Fin cfg1.N) (a' : Fin 256) (b' : Fin 1) :
    iblk1 V c 9 t (ix2 a' b') = V c main_arg10 (ix2 a' b') := by
  show V c main_arg10 (((cfg1.win 9).blk t).view.emb (ix2 a' b')) = _
  rw [emb1_9]

theorem emb1_10 (t : Fin cfg1.N) (a' : Fin 1) (b' : Fin 1) :
    ((cfg1.win 10).blk t).view.emb (ix2 a' b') = ix2 a' b' := by
  obtain ⟨-, -, -, -, -, -, -, -, -, -, -, -, -, -, -, -, -, -, -, -, e0, e1, -, -, -, -⟩ := idx_facts1 t
  funext a; apply Fin.ext
  match a with
  | ⟨0, _⟩ => show win1_10.index t (0 : Fin 2) * 1 + 1 * a'.val = a'.val; omega
  | ⟨1, _⟩ => show win1_10.index t (1 : Fin 2) * 1 + 1 * b'.val = b'.val; omega

theorem iblk1_10_apply (c : Dev nD) (t : Fin cfg1.N) (a' : Fin 1) (b' : Fin 1) :
    iblk1 V c 10 t (ix2 a' b') = V c main_v43 (ix2 a' b') := by
  show V c main_v43 (((cfg1.win 10).blk t).view.emb (ix2 a' b')) = _
  rw [emb1_10]

theorem emb1_11 (t : Fin cfg1.N) (p : Fin 2000) (k : Fin 128) :
    ((cfg1.win 11).blk t).view.emb (ix2 p k) = ix2 (rowAt1 t p) k := by
  obtain ⟨-, -, -, -, -, -, -, -, -, -, -, -, -, -, -, -, -, -, -, -, -, -, e0, e1, -, -⟩ := idx_facts1 t
  funext a; apply Fin.ext
  match a with
  | ⟨0, _⟩ => show win1_11.index t (0 : Fin 2) * 2000 + 1 * p.val = t.val * 2000 + p.val; omega
  | ⟨1, _⟩ => show win1_11.index t (1 : Fin 2) * 128 + 1 * k.val = k.val; omega

theorem emb1_12 (t : Fin cfg1.N) (p : Fin 2000) (k : Fin 1) :
    ((cfg1.win 12).blk t).view.emb (ix2 p k) = ix2 (rowAt1 t p) k := by
  obtain ⟨-, -, -, -, -, -, -, -, -, -, -, -, -, -, -, -, -, -, -, -, -, -, -, -, e0, e1⟩ := idx_facts1 t
  funext a; apply Fin.ext
  match a with
  | ⟨0, _⟩ => show win1_12.index t (0 : Fin 2) * 2000 + 1 * p.val = t.val * 2000 + p.val; omega
  | ⟨1, _⟩ => show win1_12.index t (1 : Fin 2) * 1 + 1 * k.val = k.val; omega

/-- An index is in point t's block of output window 11 iff each coordinate is in the block's range. -/
theorem mem_blk1_11 (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v44_0).slice (win1_11.rect t)).set ↔ _
  rw [View.set_slice_whole, Rect.mem_set_unit]
  exact Iff.rfl

/-- The blocks of output window 11 tile its array: row r is in the block of point r / 2000. -/
theorem cover1_11_all (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨-, -, -, -, -, -, -, -, -, -, -, -, -, -, -, -, -, -, -, -, -, -, e0, e1, -, -⟩ := idx_facts1 t
  refine ⟨t, flush1_11 t, ?_⟩
  rw [mem_blk1_11]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- An index is in point t's block of output window 12 iff each coordinate is in the block's range. -/
theorem mem_blk1_12 (t : Fin cfg1.N) (i : S50000x1.Idx) :
    i ∈ ((cfg1.win 12).blk t).view.set ↔ ∀ a : Fin 2, win1_12.index t a * S2000x1.size a ≤ (i a).val ∧ (i a).val < win1_12.index t a * S2000x1.size a + S2000x1.size a := by
  show i ∈ ((View.whole main_v44_1).slice (win1_12.rect t)).set ↔ _
  rw [View.set_slice_whole, Rect.mem_set_unit]
  exact Iff.rfl

/-- The blocks of output window 12 tile its array: row r is in the block of point r / 2000. -/
theorem cover1_12_all (i : S50000x1.Idx) :
    ∃ t : Fin cfg1.N, (cfg1.win 12).flush t = true ∧ i ∈ ((cfg1.win 12).blk t).view.set := by
  have hi0 : (i 0).val < 50000 := (i 0).isLt
  have hi1 : (i 1).val < 1 := (i 1).isLt
  have hN : cfg1.N = 25 := N_1
  let t : Fin cfg1.N := ⟨(i 0).val / 2000, by rw [hN]; omega⟩
  have ht : t.val = (i 0).val / 2000 := rfl
  obtain ⟨-, -, -, -, -, -, -, -, -, -, -, -, -, -, -, -, -, -, -, -, -, -, -, -, e0, e1⟩ := idx_facts1 t
  refine ⟨t, flush1_12 t, ?_⟩
  rw [mem_blk1_12]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 1 ≤ (i 1).val ∧ (i 1).val < win1_12.index t (1 : Fin 2) * 1 + 1; omega

/-! ## The four output arrays as functions of the arrays read -/

/-- First layer, entry (r, j): the rows' factor times the aggregate plus the doubled squared factor times the
    node's own features, projected by W1, plus the bias, cut off below at zero. -/
def X1f (agg fb ne : Vec Ideal S50000x128 .f32) (b1r : Vec Ideal S1x512 .f32) (W1 : Vec Ideal S128x512 .f32)
    (r : Fin 50000) (j : Fin 512) : Elt Ideal .f32 :=
  max ((∑ k : Fin 128, (fb (ix2 r k) * agg (ix2 r k) + ((twoW * fb (ix2 r k)) * fb (ix2 r k)) * ne (ix2 r k)) * W1 (ix2 k j))
    + b1r (ix2 0 j)) zeroW

def X1arr (agg fb ne : Vec Ideal S50000x128 .f32) (b1r : Vec Ideal S1x512 .f32) (W1 : Vec Ideal S128x512 .f32) :
    Vec Ideal S50000x512 .f32 := fun i => X1f agg fb ne b1r W1 (i 0) (i 1)

/-- The second projection of the first layer's rows. -/
def H2f (X1 : Vec Ideal S50000x512 .f32) (W2 : Vec Ideal S512x128 .f32) (r : Fin 50000) (c : Fin 128) : Elt Ideal .f32 :=
  ∑ j : Fin 512, X1 (ix2 r j) * W2 (ix2 j c)

def H2arr (X1 : Vec Ideal S50000x512 .f32) (W2 : Vec Ideal S512x128 .f32) : Vec Ideal S50000x128 .f32 :=
  fun i => H2f X1 W2 (i 0) (i 1)

/-- Second layer plus the residual projection, entry (r, c). -/
def Xf (agg2 fb h2 : Vec Ideal S50000x128 .f32) (b2r : Vec Ideal S1x128 .f32) (x1 : Vec Ideal S50000x512 .f32)
    (Wres : Vec Ideal S512x128 .f32) (bresr : Vec Ideal S1x128 .f32) (r : Fin 50000) (c : Fin 128) : Elt Ideal .f32 :=
  max ((fb (ix2 r c) * agg2 (ix2 r c) + ((twoW * fb (ix2 r c)) * fb (ix2 r c)) * h2 (ix2 r c)) + b2r (ix2 0 c)) zeroW
    + ((∑ j : Fin 512, x1 (ix2 r j) * Wres (ix2 j c)) + bresr (ix2 0 c))

def Xarr (agg2 fb h2 : Vec Ideal S50000x128 .f32) (b2r : Vec Ideal S1x128 .f32) (x1 : Vec Ideal S50000x512 .f32)
    (Wres : Vec Ideal S512x128 .f32) (bresr : Vec Ideal S1x128 .f32) : Vec Ideal S50000x128 .f32 :=
  fun i => Xf agg2 fb h2 b2r x1 Wres bresr (i 0) (i 1)

/-- The head on row r of X. -/
def Af (X : Vec Ideal S50000x128 .f32) (Wfc1 : Vec Ideal S128x256 .f32) (bfc1r : Vec Ideal S1x256 .f32)
    (Wfc2 : Vec Ideal S256x1 .f32) (bfc2r : Vec Ideal S1x1 .f32) (r : Fin 50000) : Elt Ideal .f32 :=
  (∑ k : Fin 256, max ((∑ c : Fin 128, X (ix2 r c) * Wfc1 (ix2 c k)) + bfc1r (ix2 0 k)) zeroW * Wfc2 (ix2 k 0)) + bfc2r (ix2 0 0)

def Aarr (X : Vec Ideal S50000x128 .f32) (Wfc1 : Vec Ideal S128x256 .f32) (bfc1r : Vec Ideal S1x256 .f32)
    (Wfc2 : Vec Ideal S256x1 .f32) (bfc2r : Vec Ideal S1x1 .f32) : Vec Ideal S50000x1 .f32 :=
  fun i => Af X Wfc1 bfc1r Wfc2 bfc2r (i 0)

/-! ## Region 0 -/

/-- The arrays region 0 reads, as it finds them. -/
abbrev X1V (c : Dev nD) : Vec Ideal S50000x512 .f32 :=
  X1arr (V c main_v26) (V c main_v15) (V c main_arg0) (V c main_v27) (V c main_arg2)

theorem blk0_6_read (c : Dev nD) (t : Fin cfg0.N) (y : S2000x512.Idx) :
    out0_6 (F := Ideal) (iblk0 V c 0 t) (iblk0 V c 1 t) (iblk0 V c 2 t) (iblk0 V c 3 t) (iblk0 V c 4 t) (iblk0 V c 5 t) y
      = X1V V c (((cfg0.win 6).blk t).view.emb y) := by
  obtain ⟨p, q, rfl⟩ : ∃ (p : Fin 2000) (q : Fin 512), y = ix2 p q := ⟨y 0, y 1, eq_ix2 y⟩
  rw [emb0_6, Cert.KernelBodies.out0_6_apply]
  simp only [iblk0_0_apply, iblk0_1_apply, iblk0_2_apply, iblk0_3_apply, iblk0_4_apply]
  rfl

/-- What point t writes back into the first output is block t of X1. -/
theorem flushed0_6 (c : Dev nD) (t : Fin cfg0.N) :
    (dat0 V c).flushed 6 t = ((cfg0.win 6).blk t).view.read (Elt Ideal) (X1V V c) := by
  show (cfg0.win 6).cut (grid0.coords t) ((dat0 V c).after 6 t) = _
  rw [after0_6]
  funext j
  exact blk0_6_read V c t j

/-- Region 0's first output array after the run. -/
theorem final0_6 (c : Dev nD) : (dat0 V c).arrAt 6 cfg0.N = X1V V c :=
  (dat0 V c).arrAt_eq_of_cover 6 (X1V V c) (fun t _ => flushed0_6 V c t) cover0_6_all

theorem blk0_7_read (c : Dev nD) (t : Fin cfg0.N) (y : S2000x128.Idx) :
    out0_7 (F := Ideal) (iblk0 V c 0 t) (iblk0 V c 1 t) (iblk0 V c 2 t) (iblk0 V c 3 t) (iblk0 V c 4 t) (iblk0 V c 5 t) y
      = H2arr (X1V V c) (V c main_arg4) (((cfg0.win 7).blk t).view.emb y) := by
  obtain ⟨p, q, rfl⟩ : ∃ (p : Fin 2000) (q : Fin 128), y = ix2 p q := ⟨y 0, y 1, eq_ix2 y⟩
  rw [emb0_7, Cert.KernelBodies.out0_7_apply']
  simp only [iblk0_0_apply, iblk0_1_apply, iblk0_2_apply, iblk0_3_apply, iblk0_4_apply, iblk0_5_apply]
  rfl

/-- What point t writes back into the second output is block t of H2 = X1 · W2. -/
theorem flushed0_7 (c : Dev nD) (t : Fin cfg0.N) :
    (dat0 V c).flushed 7 t = ((cfg0.win 7).blk t).view.read (Elt Ideal) (H2arr (X1V V c) (V c main_arg4)) := by
  show (cfg0.win 7).cut (grid0.coords t) ((dat0 V c).after 7 t) = _
  rw [after0_7]
  funext j
  exact blk0_7_read V c t j

/-- Region 0's second output array after the run. -/
theorem final0_7 (c : Dev nD) : (dat0 V c).arrAt 7 cfg0.N = H2arr (X1V V c) (V c main_arg4) :=
  (dat0 V c).arrAt_eq_of_cover 7 _ (fun t _ => flushed0_7 V c t) cover0_7_all

/-! ## Region 1 -/

abbrev XV (c : Dev nD) : Vec Ideal S50000x128 .f32 :=
  Xarr (V c main_v39) (V c main_v15) (V c main_v28_1) (V c main_v40) (V c main_v28_0) (V c main_arg6) (V c main_v41)

theorem blk1_11_read (c : Dev nD) (t : Fin cfg1.N) (y : S2000x128.Idx) :
    out1_11 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) y
      = XV V c (((cfg1.win 11).blk t).view.emb y) := by
  obtain ⟨p, q, rfl⟩ : ∃ (p : Fin 2000) (q : Fin 128), y = ix2 p q := ⟨y 0, y 1, eq_ix2 y⟩
  rw [emb1_11, Cert.KernelBodies.out1_11_apply]
  simp only [iblk1_0_apply, iblk1_1_apply, iblk1_2_apply, iblk1_3_apply, iblk1_4_apply, iblk1_5_apply, iblk1_6_apply]
  rfl

/-- What point t writes back into region 1's first output is block t of X. -/
theorem flushed1_11 (c : Dev nD) (t : Fin cfg1.N) :
    (dat1 V c).flushed 11 t = ((cfg1.win 11).blk t).view.read (Elt Ideal) (XV V c) := by
  show (cfg1.win 11).cut (grid1.coords t) ((dat1 V c).after 11 t) = _
  rw [after1_11]
  funext j
  exact blk1_11_read V c t j

/-- Region 1's first output array after the run. -/
theorem final1_11 (c : Dev nD) : (dat1 V c).arrAt 11 cfg1.N = XV V c :=
  (dat1 V c).arrAt_eq_of_cover 11 (XV V c) (fun t _ => flushed1_11 V c t) cover1_11_all

theorem blk1_12_read (c : Dev nD) (t : Fin cfg1.N) (y : S2000x1.Idx) :
    out1_12 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) y
      = Aarr (XV V c) (V c main_arg8) (V c main_v42) (V c main_arg10) (V c main_v43) (((cfg1.win 12).blk t).view.emb y) := by
  obtain ⟨p, q, rfl⟩ : ∃ (p : Fin 2000) (q : Fin 1), y = ix2 p q := ⟨y 0, y 1, eq_ix2 y⟩
  obtain rfl : q = 0 := Subsingleton.elim _ _
  rw [emb1_12, Cert.KernelBodies.out1_12_apply]
  simp only [Cert.KernelBodies.out1_11_apply, iblk1_0_apply, iblk1_1_apply, iblk1_2_apply, iblk1_3_apply, iblk1_4_apply,
    iblk1_5_apply, iblk1_6_apply, iblk1_7_apply, iblk1_8_apply, iblk1_9_apply, iblk1_10_apply]
  rfl

/-- What point t writes back into region 1's second output is block t of A. -/
theorem flushed1_12 (c : Dev nD) (t : Fin cfg1.N) :
    (dat1 V c).flushed 12 t = ((cfg1.win 12).blk t).view.read (Elt Ideal)
      (Aarr (XV V c) (V c main_arg8) (V c main_v42) (V c main_arg10) (V c main_v43)) := by
  show (cfg1.win 12).cut (grid1.coords t) ((dat1 V c).after 12 t) = _
  rw [after1_12]
  funext j
  exact blk1_12_read V c t j

/-- Region 1's second output array after the run. -/
theorem final1_12 (c : Dev nD) :
    (dat1 V c).arrAt 12 cfg1.N = Aarr (XV V c) (V c main_arg8) (V c main_v42) (V c main_arg10) (V c main_v43) :=
  (dat1 V c).arrAt_eq_of_cover 12 _ (fun t _ => flushed1_12 V c t) cover1_12_all

end Cert.KernelIdeal.RegV

end
-- ==== Proof.GcnForms.lean ====
/-
  The node-side layers with the aggregate left abstract: the same formulas as the specification's x1K and x2K ∘ resK,
  but taking the aggregated quantity G as an argument instead of computing it from the edges. The specification's
  forms are these at G := the node-side edge sum; over abstract index types that is true by definition.
-/
import Mathlib
import proofs.«168154_j70214125355147_2_alg».proof.Proof.GcnSpec

open scoped BigOperators

namespace Cert.GcnSpec

variable {M : Type} [AddCommMonoid M] [Mul M] [Max M]
variable {ι ε α β γ : Type} [Fintype ι] [Fintype ε] [Fintype α] [Fintype β] [Fintype γ]
variable (hit : ε → ι → Prop) [∀ e r, Decidable (hit e r)] (sr : ε → ι)
variable (two zero : M) (d : ι → M)

/-- The first layer from an abstract aggregate G of the inputs. -/
def x1G (G : ι → α → M) (ne : ι → α → M) (W1 : α → β → M) (b1 : β → M) (r : ι) (j : β) : M :=
  max (∑ k, selfK two (d r) (G r k) (ne r k) * W1 k j + b1 j) zero

/-- The second layer plus the residual sum from an abstract aggregate G of the projected rows h. -/
def xG (G : ι → α → M) (h : ι → α → M) (b2 : α → M) (x1 : ι → β → M) (Wres : β → α → M) (bres : α → M)
    (r : ι) (c : α) : M :=
  max (selfK two (d r) (G r c) (h r c) + b2 c) zero + (∑ j, x1 r j * Wres j c + bres c)

theorem x1K_eq_x1G (ne : ι → α → M) (W1 : α → β → M) (b1 : β → M) (r : ι) (j : β) :
    x1K hit sr two zero d ne W1 b1 r j
      = x1G two zero d (fun r k => aggK hit sr d (fun ρ => ne ρ k) r) ne W1 b1 r j := rfl

theorem resK_x2K_eq_xG (h : ι → α → M) (b2 : α → M) (x1 : ι → β → M) (Wres : β → α → M) (bres : α → M)
    (r : ι) (c : α) :
    resK Wres bres (x2K hit sr two zero d b2 h) x1 r c
      = xG two zero d (fun r c => aggK hit sr d (fun ρ => h ρ c) r) h b2 x1 Wres bres r c := rfl

end Cert.GcnSpec
-- ==== Proof.KernelSpec.lean ====
/-
  The four region functions are the node-side forms of the specification, once the arrays they read are identified:
  the broadcast factor array holds the node's factor in every column, an aggregate array holds the node-side edge sum
  of the array it was built from, and a bias row holds the bias vector. The float words of 2 and 0 become the
  numbers.
-/
import proofs.«168154_j70214125355147_2_alg».proof.Proof.RegionValues
import proofs.«168154_j70214125355147_2_alg».proof.Proof.GcnData
import proofs.«168154_j70214125355147_2_alg».proof.Proof.GcnSpec
import proofs.«168154_j70214125355147_2_alg».proof.Proof.GcnForms
import Idealize.ShloMosaic.PureOps.Ideal.Laws

set_option maxRecDepth 16384

open scoped BigOperators

noncomputable section

namespace Cert.KernelIdeal.SpecV

open Cert.KernelIdeal Cert.KernelIdeal.RegV Idealize.ShloMosaic Idealize.ShloMosaic.ValueIdx Cert.GcnData

variable (hitp : Fin 400000 → Fin 50000 → Prop) [∀ e r, Decidable (hitp e r)] (srp : Fin 400000 → Fin 50000)
  (d : Fin 50000 → EReal)

theorem twoW_eq : twoW = (2 : EReal) := ofBits_two
theorem zeroW_eq : zeroW = (0 : EReal) := Ideal.ofBits_zero_f32

/-- The first layer's region function over an abstract factor d and an abstract aggregate G. -/
theorem X1f_abs (agg fb ne : Vec Ideal S50000x128 .f32) (b1r : Vec Ideal S1x512 .f32) (W1 : Vec Ideal S128x512 .f32)
    (b1 : Vec Ideal S512 .f32) (d : Fin 50000 → EReal) (G : Fin 50000 → Fin 128 → EReal)
    (hagg : ∀ (r : Fin 50000) (k : Fin 128), agg (ix2 r k) = G r k)
    (hfb : ∀ (r : Fin 50000) (k : Fin 128), fb (ix2 r k) = d r)
    (hb : ∀ j : Fin 512, b1r (ix2 0 j) = b1 (ix1 j)) (r : Fin 50000) (j : Fin 512) :
    X1f agg fb ne b1r W1 r j = Cert.GcnSpec.x1G 2 0 d G (mat ne) (mat W1) (vec b1) r j := by
  unfold X1f Cert.GcnSpec.x1G Cert.GcnSpec.selfK mat vec
  simp only [hagg, hfb, hb, twoW_eq, zeroW_eq]

/-- The first layer's region function is the node-side first layer. -/
theorem X1f_spec (agg fb ne : Vec Ideal S50000x128 .f32) (b1r : Vec Ideal S1x512 .f32) (W1 : Vec Ideal S128x512 .f32)
    (b1 : Vec Ideal S512 .f32)
    (hagg : ∀ (r : Fin 50000) (k : Fin 128), agg (ix2 r k) = Cert.GcnSpec.aggK hitp srp d (fun ρ => mat ne ρ k) r)
    (hfb : ∀ (r : Fin 50000) (k : Fin 128), fb (ix2 r k) = d r)
    (hb : ∀ j : Fin 512, b1r (ix2 0 j) = b1 (ix1 j)) (r : Fin 50000) (j : Fin 512) :
    X1f agg fb ne b1r W1 r j
      = Cert.GcnSpec.x1K hitp srp 2 0 d (mat ne) (mat W1) (vec b1) r j :=
  (X1f_abs agg fb ne b1r W1 b1 d
    (fun r k => Cert.GcnSpec.aggK hitp srp d (fun ρ => mat ne ρ k) r) hagg hfb hb r j).trans
    (Cert.GcnSpec.x1K_eq_x1G hitp srp 2 0 d (mat ne) (mat W1) (vec b1) r j).symm

/-- The second projection is the specification's. -/
theorem H2f_spec (X1 : Vec Ideal S50000x512 .f32) (W2 : Vec Ideal S512x128 .f32) (r : Fin 50000) (c : Fin 128) :
    H2f X1 W2 r c = Cert.GcnSpec.proj2 (mat W2) (mat X1) r c := rfl

/-- The second region function over an abstract factor d and an abstract aggregate G. -/
theorem Xf_abs (agg2 fb h2 : Vec Ideal S50000x128 .f32) (b2r : Vec Ideal S1x128 .f32) (x1 : Vec Ideal S50000x512 .f32)
    (Wres : Vec Ideal S512x128 .f32) (bresr : Vec Ideal S1x128 .f32) (b2 bres : Vec Ideal S128 .f32)
    (d : Fin 50000 → EReal) (G : Fin 50000 → Fin 128 → EReal)
    (hagg : ∀ (r : Fin 50000) (c : Fin 128), agg2 (ix2 r c) = G r c)
    (hfb : ∀ (r : Fin 50000) (c : Fin 128), fb (ix2 r c) = d r)
    (hb2 : ∀ c : Fin 128, b2r (ix2 0 c) = b2 (ix1 c)) (hbres : ∀ c : Fin 128, bresr (ix2 0 c) = bres (ix1 c))
    (r : Fin 50000) (c : Fin 128) :
    Xf agg2 fb h2 b2r x1 Wres bresr r c
      = Cert.GcnSpec.xG 2 0 d G (mat h2) (vec b2) (mat x1) (mat Wres) (vec bres) r c := by
  unfold Xf Cert.GcnSpec.xG Cert.GcnSpec.selfK mat vec
  simp only [hagg, hfb, hb2, hbres, twoW_eq, zeroW_eq]

/-- The second region function is the node-side second layer plus the residual sum. -/
theorem Xf_spec (agg2 fb h2 : Vec Ideal S50000x128 .f32) (b2r : Vec Ideal S1x128 .f32) (x1 : Vec Ideal S50000x512 .f32)
    (Wres : Vec Ideal S512x128 .f32) (bresr : Vec Ideal S1x128 .f32) (b2 bres : Vec Ideal S128 .f32)
    (hagg : ∀ (r : Fin 50000) (c : Fin 128), agg2 (ix2 r c) = Cert.GcnSpec.aggK hitp srp d (fun ρ => mat h2 ρ c) r)
    (hfb : ∀ (r : Fin 50000) (c : Fin 128), fb (ix2 r c) = d r)
    (hb2 : ∀ c : Fin 128, b2r (ix2 0 c) = b2 (ix1 c)) (hbres : ∀ c : Fin 128, bresr (ix2 0 c) = bres (ix1 c))
    (r : Fin 50000) (c : Fin 128) :
    Xf agg2 fb h2 b2r x1 Wres bresr r c
      = Cert.GcnSpec.resK (mat Wres) (vec bres) (Cert.GcnSpec.x2K hitp srp 2 0 d (vec b2) (mat h2)) (mat x1) r c :=
  (Xf_abs agg2 fb h2 b2r x1 Wres bresr b2 bres d
    (fun r c => Cert.GcnSpec.aggK hitp srp d (fun ρ => mat h2 ρ c) r) hagg hfb hb2 hbres r c).trans
    (Cert.GcnSpec.resK_x2K_eq_xG hitp srp 2 0 d (mat h2) (vec b2) (mat x1) (mat Wres) (vec bres) r c).symm

/-- The head's region function is the specification's head. -/
theorem Af_spec (X : Vec Ideal S50000x128 .f32) (Wfc1 : Vec Ideal S128x256 .f32) (bfc1r : Vec Ideal S1x256 .f32)
    (Wfc2 : Vec Ideal S256x1 .f32) (bfc2r : Vec Ideal S1x1 .f32) (bfc1 : Vec Ideal S256 .f32) (bfc2 : Vec Ideal S1 .f32)
    (hb1 : ∀ k : Fin 256, bfc1r (ix2 0 k) = bfc1 (ix1 k)) (hb2 : bfc2r (ix2 0 0) = bfc2 (ix1 0)) (r : Fin 50000) :
    Af X Wfc1 bfc1r Wfc2 bfc2r r
      = Cert.GcnSpec.head 0 (mat Wfc1) (vec bfc1) (col Wfc2) (vec bfc2 0) (mat X) r := by
  have e : ∀ k : Fin 256,
      max ((∑ c : Fin 128, X (ix2 r c) * Wfc1 (ix2 c k)) + bfc1r (ix2 0 k)) zeroW * Wfc2 (ix2 k 0)
        = max (∑ c : Fin 128, mat X r c * mat Wfc1 c k + vec bfc1 k) 0 * col Wfc2 k := by
    intro k; rw [hb1, zeroW_eq]; rfl
  unfold Af Cert.GcnSpec.head
  rw [Finset.sum_congr rfl (fun k _ => e k), hb2]
  rfl

/-! ## The two regions chained -/

/-- The factor array times an array, at an entry. -/
theorem mulf_fb (fb x : Vec Ideal S50000x128 .f32) (hfb : ∀ (r : Fin 50000) (k : Fin 128), fb (ix2 r k) = d r)
    (ρ : Fin 50000) (k : Fin 128) : (mulf (F := Ideal) (φ := .f32) fb x) (ix2 ρ k) = d ρ * mat x ρ k := by
  unfold mulf mat
  rw [Ideal.mulf_def, hfb]

/-- An edge sum of (factor array × x) rows is the node-side aggregate of x. -/
theorem agg_bridge (fb x agg : Vec Ideal S50000x128 .f32) (hfb : ∀ (r : Fin 50000) (k : Fin 128), fb (ix2 r k) = d r)
    (hagg : ∀ (r : Fin 50000) (k : Fin 128),
      agg (ix2 r k) = ∑ e : Fin 400000, if hitp e r then (mulf (F := Ideal) (φ := .f32) fb x) (ix2 (srp e) k) else 0)
    (r : Fin 50000) (k : Fin 128) :
    agg (ix2 r k) = Cert.GcnSpec.aggK hitp srp d (fun ρ => mat x ρ k) r := by
  rw [hagg]
  unfold Cert.GcnSpec.aggK
  exact Finset.sum_congr rfl (fun e _ => by rw [mulf_fb d fb x hfb])

/-- Region 0's outputs fed through the second aggregation into region 1: the first result is the node-side xK. -/
theorem x_of_regions
    (a0 : Vec Ideal S50000x128 .f32) (a2 : Vec Ideal S128x512 .f32) (a3 : Vec Ideal S512 .f32) (a4 : Vec Ideal S512x128 .f32)
    (a5 : Vec Ideal S128 .f32) (a6 : Vec Ideal S512x128 .f32) (a7 : Vec Ideal S128 .f32)
    (fb agg1 agg2 : Vec Ideal S50000x128 .f32) (b1r : Vec Ideal S1x512 .f32) (b2r bresr : Vec Ideal S1x128 .f32)
    (X1 : Vec Ideal S50000x512 .f32) (H2 : Vec Ideal S50000x128 .f32)
    (hX1 : X1 = X1arr agg1 fb a0 b1r a2) (hH2 : H2 = H2arr X1 a4)
    (hfb : ∀ (r : Fin 50000) (k : Fin 128), fb (ix2 r k) = d r)
    (hagg1 : ∀ (r : Fin 50000) (k : Fin 128),
      agg1 (ix2 r k) = ∑ e : Fin 400000, if hitp e r then (mulf (F := Ideal) (φ := .f32) fb a0) (ix2 (srp e) k) else 0)
    (hagg2 : ∀ (r : Fin 50000) (k : Fin 128),
      agg2 (ix2 r k) = ∑ e : Fin 400000, if hitp e r then (mulf (F := Ideal) (φ := .f32) fb H2) (ix2 (srp e) k) else 0)
    (hb1 : ∀ j : Fin 512, b1r (ix2 0 j) = a3 (ix1 j)) (hb2 : ∀ c : Fin 128, b2r (ix2 0 c) = a5 (ix1 c))
    (hbres : ∀ c : Fin 128, bresr (ix2 0 c) = a7 (ix1 c)) (r : Fin 50000) (c : Fin 128) :
    Xf agg2 fb H2 b2r X1 a6 bresr r c
      = Cert.GcnSpec.xK hitp srp 2 0 d (mat a0) (mat a2) (vec a3) (mat a4) (vec a5) (mat a6) (vec a7) r c := by
  have hx1 : ∀ (r : Fin 50000) (j : Fin 512),
      mat X1 r j = Cert.GcnSpec.x1K hitp srp 2 0 d (mat a0) (mat a2) (vec a3) r j := by
    intro r j
    rw [hX1]
    exact X1f_spec hitp srp d agg1 fb a0 b1r a2 a3 (agg_bridge hitp srp d fb a0 agg1 hfb hagg1) hfb hb1 r j
  have hmX1 : mat X1 = Cert.GcnSpec.x1K hitp srp 2 0 d (mat a0) (mat a2) (vec a3) :=
    funext fun r => funext fun j => hx1 r j
  have hmH2 : mat H2 = Cert.GcnSpec.proj2 (mat a4) (Cert.GcnSpec.x1K hitp srp 2 0 d (mat a0) (mat a2) (vec a3)) := by
    funext r c
    rw [hH2, ← hmX1]
    exact H2f_spec X1 a4 r c
  rw [Xf_spec hitp srp d agg2 fb H2 b2r X1 a6 bresr a5 a7 (agg_bridge hitp srp d fb H2 agg2 hfb hagg2) hfb hb2 hbres r c,
    hmH2, hmX1]
  rfl

/-- The head on the first result is the node-side AK. -/
theorem A_of_regions
    (a0 : Vec Ideal S50000x128 .f32) (a2 : Vec Ideal S128x512 .f32) (a3 : Vec Ideal S512 .f32) (a4 : Vec Ideal S512x128 .f32)
    (a5 : Vec Ideal S128 .f32) (a6 : Vec Ideal S512x128 .f32) (a7 : Vec Ideal S128 .f32)
    (a8 : Vec Ideal S128x256 .f32) (a9 : Vec Ideal S256 .f32) (a10 : Vec Ideal S256x1 .f32) (a11 : Vec Ideal S1 .f32)
    (X : Vec Ideal S50000x128 .f32) (bfc1r : Vec Ideal S1x256 .f32) (bfc2r : Vec Ideal S1x1 .f32)
    (hX : ∀ (r : Fin 50000) (c : Fin 128),
      X (ix2 r c) = Cert.GcnSpec.xK hitp srp 2 0 d (mat a0) (mat a2) (vec a3) (mat a4) (vec a5) (mat a6) (vec a7) r c)
    (hb1 : ∀ k : Fin 256, bfc1r (ix2 0 k) = a9 (ix1 k)) (hb2 : bfc2r (ix2 0 0) = a11 (ix1 0)) (r : Fin 50000) :
    Af X a8 bfc1r a10 bfc2r r
      = Cert.GcnSpec.AK hitp srp 2 0 d (mat a0) (mat a2) (vec a3) (mat a4) (vec a5) (mat a6) (vec a7)
          (mat a8) (vec a9) (col a10) (vec a11 0) r := by
  have hmX : mat X = Cert.GcnSpec.xK hitp srp 2 0 d (mat a0) (mat a2) (vec a3) (mat a4) (vec a5) (mat a6) (vec a7) :=
    funext fun r => funext fun c => hX r c
  rw [Af_spec X a8 bfc1r a10 bfc2r a9 a11 hb1 hb2 r, hmX]
  rfl

end Cert.KernelIdeal.SpecV

end
-- ==== Proof.KernelHostDefs.lean ====
/-
  The host operations of the idealized kernel program as whole-array functions of the program's arguments, one
  definition per stage, each written with the operations the program applies, in the program's order.

  The edge list's two rows are sliced out and flattened (start words, end words). The degree of a node is the count of
  ones scattered by the end words into zeros, plus two; the factor is its inverse square root where the degree is
  positive and zero elsewhere, and it is broadcast across the 128 columns. A propagation of a table x gathers, per
  edge, the row of x named by the wrapped start word (a negative word has the number of nodes added), and adds it
  into the row named by the end word of a table of zeros. A bias vector becomes a one-row table.
-/
import Idealize.ShloMosaic.PureOps.Ideal
import proofs.«168154_j70214125355147_2_alg».proof.Proof.Gen.KernelIdeal

noncomputable section

namespace Cert.KernelIdeal.HostV

open Cert.KernelIdeal Cert.KernelIdeal.Facts₀
open Idealize.ShloMosaic

/-- The start words: row 0 of the edge list, flattened. -/
def startW (a1 : IVec S2x400000 32) : IVec S400000 32 :=
  shapeCast S400000 (extractStridedSlice S1x400000 ![0, 0] a1 slices_S2x400000_S1x400000_0_0) shapeCasts_S1x400000_S400000

/-- The end words: row 1 of the edge list, flattened. -/
def endW (a1 : IVec S2x400000 32) : IVec S400000 32 :=
  shapeCast S400000 (extractStridedSlice S1x400000 ![1, 0] a1 slices_S2x400000_S1x400000_1_0) shapeCasts_S1x400000_S400000

/-- The degree: ones scattered by the end words into zeros, plus two. -/
def deg (a1 : IVec S2x400000 32) : FVec Ideal S50000 .f32 :=
  addf (Host.scatterAdd scatter_S50000_S400000x1_S400000_n_0_0_1
          (broadcastInDim S50000 ![] bcast_S_S50000 (constant S_ .f32 0x00000000#32))
          (broadcastInDim S400000x1 ![0] bcast_S400000_S400000x1_0 (endW a1))
          (broadcastInDim S400000 ![] bcast_S_S400000 (constant S_ .f32 0x3F800000#32)))
       (broadcastInDim S50000 ![] bcast_S_S50000 (constant S_ .f32 0x40000000#32))

/-- The factor: the inverse square root of the degree where the degree is positive, zero elsewhere. -/
def fac (a1 : IVec S2x400000 32) : FVec Ideal S50000 .f32 :=
  select (cmpf .ogt (deg a1) (broadcastInDim S50000 ![] bcast_S_S50000 (constant S_ .f32 0x00000000#32)))
    (Host.rsqrt (deg a1))
    (broadcastInDim S50000 ![] bcast_S_S50000 (constant S_ .f32 0x00000000#32))

/-- The factor across the 128 columns. -/
def facB (a1 : IVec S2x400000 32) : FVec Ideal S50000x128 .f32 :=
  broadcastInDim S50000x128 ![0, 1] bcast_S50000x1_S50000x128_0_1
    (broadcastInDim S50000x1 ![0] bcast_S50000_S50000x1_0 (fac a1))

/-- The start words wrapped: a negative word has the number of nodes added. -/
def wrapS (a1 : IVec S2x400000 32) : IVec S400000 32 :=
  select (cmpi .slt (startW a1) (broadcastInDim S400000 ![] bcast_S_S400000 (constantI S_ 32 0#32)))
    (addi (startW a1) (broadcastInDim S400000 ![] bcast_S_S400000 (constantI S_ 32 50000#32)))
    (startW a1)

/-- The propagation of a table: its rows gathered by the wrapped start words, added by the end words into zeros. -/
def aggOf (a1 : IVec S2x400000 32) (x : FVec Ideal S50000x128 .f32) : FVec Ideal S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 (endW a1))
    (Host.gather gather_S50000x128_S400000x1_S400000x128_1_0_n_n_0_1_1128 x
      (broadcastInDim S400000x1 ![0] bcast_S400000_S400000x1_0 (wrapS a1)))

/-- A vector as a one-row table. -/
def rowOf {n : Nat} (b : FVec Ideal ⟨1, ![n]⟩ .f32) : FVec Ideal ⟨2, ![1, n]⟩ .f32 :=
  shapeCast ⟨2, ![1, n]⟩ b (by show (1 * (n * 1)) = n * 1; omega)

end Cert.KernelIdeal.HostV

end
-- ==== Proof.KernelHost.lean ====
/-
  The host operations of the idealized kernel program read at one element.

  The broadcast factor at (node r, any column) is the guarded inverse square root of (the number of edges ending at r,
  plus two). The propagation of a table x at (node r, column k) is the sum, over the edges ending at r, of x at (the
  edge's start node, k): the start word wrapped and clamped into the node range, the end word read as it stands. A bias
  vector's one-row table at (0, j) is the vector at j.
-/
import Idealize.ShloMosaic.PureOps.Ideal
import Idealize.ShloMosaic.PureOps.Ideal.Laws
import Idealize.ShloMosaic.Lib.ValueIdx
import Idealize.ShloMosaic.Lib.Pipeline.Value
import proofs.«168154_j70214125355147_2_alg».proof.Proof.KernelHostDefs
import proofs.«168154_j70214125355147_2_alg».proof.Proof.GcnData
import proofs.«168154_j70214125355147_2_alg».proof.Proof.LibRowGatherScatter
import proofs.«168154_j70214125355147_2_alg».proof.Proof.LibSegmentSum

open scoped BigOperators

noncomputable section

namespace Cert.KernelIdeal.HostV

open Cert.KernelIdeal Cert.KernelIdeal.Facts₀
open Idealize.ShloMosaic Idealize.ShloMosaic.ValueIdx Cert.GcnData

/-! ## The stage functions read at one element -/

/-- A scalar broadcast along one axis, read anywhere: the scalar. -/
theorem bcast0_1 {α : Type} {n : Nat} (h : S_.BroadcastsInDim ⟨1, ![n]⟩ (![] : Fin 0 → Fin 1)) (x : S_.Idx → α)
    (j : (⟨1, ![n]⟩ : Shape).Idx) : broadcastInDim ⟨1, ![n]⟩ ![] h x j = x ix0 :=
  broadcastInDim_apply _ h x j ix0 (fun a => a.elim0)

/-- A scalar broadcast along two axes, read anywhere: the scalar. -/
theorem bcast0_2 {α : Type} {n k : Nat} (h : S_.BroadcastsInDim ⟨2, ![n, k]⟩ (![] : Fin 0 → Fin 2)) (x : S_.Idx → α)
    (j : (⟨2, ![n, k]⟩ : Shape).Idx) : broadcastInDim ⟨2, ![n, k]⟩ ![] h x j = x ix0 :=
  broadcastInDim_apply _ h x j ix0 (fun a => a.elim0)

/-- A vector as a one-column table, read at row e: the vector at e. -/
theorem bcast_col1 {α : Type} {n : Nat} (hn : n ≠ 1) (h : (⟨1, ![n]⟩ : Shape).BroadcastsInDim ⟨2, ![n, 1]⟩ ![0])
    (x : (⟨1, ![n]⟩ : Shape).Idx → α) (e : Fin n) :
    broadcastInDim ⟨2, ![n, 1]⟩ ![0] h x (ix2 e (0 : Fin 1)) = x (ix1 e) := by
  refine broadcastInDim_apply _ h x (ix2 e (0 : Fin 1)) (ix1 e) ?_
  intro a
  match a with
  | ⟨0, _⟩ => show e.val = if n = 1 then 0 else e.val; rw [if_neg hn]

/-- The start words read at an edge. -/
theorem startW_apply (a1 : IVec S2x400000 32) (e : Fin 400000) : startW a1 (ix1 e) = a1 (ix2 (0 : Fin 2) e) := by
  unfold startW
  refine (shapeCast_apply _ shapeCasts_S1x400000_S400000 (ix1 e) (ix2 (0 : Fin 1) e) ?_).trans ?_
  · rewrite [Shape.rowMajor_val_two, Shape.rowMajor_val_one]; show 0 * 400000 + e.val = e.val; omega
  · exact extractStridedSlice_apply ![0, 0] a1 slices_S2x400000_S1x400000_0_0 (ix2 (0 : Fin 1) e) (ix2 (0 : Fin 2) e)
      (fun a => match a with
        | ⟨0, _⟩ => by show 0 = 0 + 0; rfl
        | ⟨1, _⟩ => by show e.val = 0 + e.val; omega)

/-- The end words read at an edge. -/
theorem endW_apply (a1 : IVec S2x400000 32) (e : Fin 400000) : endW a1 (ix1 e) = a1 (ix2 (1 : Fin 2) e) := by
  unfold endW
  refine (shapeCast_apply _ shapeCasts_S1x400000_S400000 (ix1 e) (ix2 (0 : Fin 1) e) ?_).trans ?_
  · rewrite [Shape.rowMajor_val_two, Shape.rowMajor_val_one]; show 0 * 400000 + e.val = e.val; omega
  · exact extractStridedSlice_apply ![1, 0] a1 slices_S2x400000_S1x400000_1_0 (ix2 (0 : Fin 1) e) (ix2 (1 : Fin 2) e)
      (fun a => match a with
        | ⟨0, _⟩ => by show 1 = 1 + 0; rfl
        | ⟨1, _⟩ => by show e.val = 0 + e.val; omega)

/-- The wrapped start words read at an edge. -/
theorem wrapS_apply (a1 : IVec S2x400000 32) (e : Fin 400000) : wrapS a1 (ix1 e) = wrap (a1 (ix2 (0 : Fin 2) e)) := by
  unfold wrapS
  rw [select_apply]
  show Scalar.select (IntOp.cmpi .slt (startW a1 (ix1 e)) _) (IntOp.addi (startW a1 (ix1 e)) _) (startW a1 (ix1 e)) = _
  rw [bcast0_1, bcast0_1, startW_apply]
  rfl

/-- The count of ones scattered by the end words, read at a node: the number of edges ending there. -/
theorem ones_apply (a1 : IVec S2x400000 32) (r : Fin 50000) :
    Host.scatterAdd (F := Ideal) scatter_S50000_S400000x1_S400000_n_0_0_1
      (broadcastInDim S50000 ![] bcast_S_S50000 (constant S_ .f32 0x00000000#32))
      (broadcastInDim S400000x1 ![0] bcast_S400000_S400000x1_0 (endW a1))
      (broadcastInDim S400000 ![] bcast_S_S400000 (constant S_ .f32 0x3F800000#32)) (ix1 r) = GcnData.count a1 r := by
  rw [Cert.LibSegmentSum.scatterAdd_seg _ rfl rfl rfl rfl, bcast0_1, constant_apply, Ideal.ofBits_zero_f32, zero_add]
  unfold GcnData.count Cert.GcnSpec.cnt
  refine Finset.sum_congr rfl fun e _ => ?_
  rw [bcast_col1 (by norm_num), endW_apply, bcast0_1, constant_apply, ofBits_one]
  rfl

/-- The degree read at a node: the number of edges ending there, plus two. -/
theorem deg_apply (a1 : IVec S2x400000 32) (r : Fin 50000) : deg a1 (ix1 r) = GcnData.count a1 r + 2 := by
  unfold deg
  rw [addf_apply, ones_apply, bcast0_1, constant_apply, ofBits_two]

/-- The host's inverse square root of an array, read at an element. -/
theorem rsqrt_apply {s : Shape} {φ : FTy} (x : FVec Ideal s φ) (i : s.Idx) : Host.rsqrt x i = Ideal.rsqrt (x i) := rfl

/-- The guarded inverse square root, written with the program's operations on one number. -/
theorem dinvOf_eq (d : EReal) :
    Scalar.select (Ideal.cmp .ogt d (0 : EReal)) (Ideal.rsqrt d) (0 : EReal) = GcnData.dinvOf d := rfl

/-- The factor read at a node. -/
theorem fac_apply (a1 : IVec S2x400000 32) (r : Fin 50000) : fac a1 (ix1 r) = GcnData.dfac a1 r := by
  unfold fac
  rw [select_apply, cmpf_apply, rsqrt_apply, bcast0_1, constant_apply, Ideal.ofBits_zero_f32, Ideal.cmpf_def, deg_apply]
  unfold GcnData.dfac
  generalize GcnData.count a1 r + 2 = d
  exact dinvOf_eq d

/-- The broadcast factor read at (node, column). -/
theorem facB_apply (a1 : IVec S2x400000 32) (r : Fin 50000) (k : Fin 128) : facB a1 (ix2 r k) = GcnData.dfac a1 r := by
  unfold facB
  rw [Cert.LibRowGatherScatter.bcast_col_apply (by norm_num), fac_apply]

/-- The propagation read at (node, column): the sum, over the edges ending at the node, of the table at the edge's
    start node and that column. -/
theorem aggOf_apply (a1 : IVec S2x400000 32) (x : FVec Ideal S50000x128 .f32) (r : Fin 50000) (k : Fin 128) :
    aggOf a1 x (ix2 r k) = ∑ e : Fin 400000, if hit a1 e r then x (ix2 (sr a1 e) k) else 0 := by
  unfold aggOf
  rw [Cert.LibRowGatherScatter.scatterAdd_rows _ rfl rfl rfl rfl, bcast0_2, constant_apply, Ideal.ofBits_zero_f32, zero_add]
  refine Finset.sum_congr rfl fun e _ => ?_
  rw [bcast_col1 (by norm_num), endW_apply,
    Cert.LibRowGatherScatter.gather_rows _ rfl rfl rfl rfl rfl rfl rfl n_pos, bcast_col1 (by norm_num), wrapS_apply]
  rfl

/-- The one-row table read at (0, j): the vector at j. -/
theorem rowOf_apply {n : Nat} (b : FVec Ideal ⟨1, ![n]⟩ .f32) (j : Fin n) : rowOf b (ix2 (0 : Fin 1) j) = b (ix1 j) := by
  unfold rowOf
  refine shapeCast_apply b _ (ix2 (0 : Fin 1) j) (ix1 j) ?_
  rewrite [Shape.rowMajor_val_two, Shape.rowMajor_val_one]
  show j.val = 0 * n + j.val
  omega

end Cert.KernelIdeal.HostV

end
-- ==== Proof.KernelEntry.lean ====
/-
  Region 0's input arrays at the region's entry, as functions of the program's arguments.

  Before the first region the program runs three stretches of whole-array host operations from the launch memory.
  Read back through them: the array the region takes as its propagated features is the propagation of the
  factor-scaled node table (rows gathered by the wrapped start words and added by the end words into zeros); the
  factor array is the inverse-square-root degree factor across the columns; the bias row is the bias vector as a
  one-row table; and the three arrays no host operation writes hold what the launch memory held.

  The first stretch leaves the edge words, the degree, its sign test and its inverse square root; the called
  function selects between the last two (its values move between buffers of the same type, a transport that is the
  identity); the third stretch broadcasts, scales, gathers and scatters. Each stretch is read at the buffers the next
  one needs, so that no step compares more than one stretch's operations.
-/
import proofs.«168154_j70214125355147_2_alg».proof.Proof.Gen.KernelIdeal.Frame
import proofs.«168154_j70214125355147_2_alg».proof.Proof.KernelHostDefs
import Idealize.ShloMosaic.Lib.StableHlo.Run

noncomputable section

namespace Cert.KernelEntry

open Cert.KernelIdeal Cert.KernelIdeal.Gen Cert.KernelIdeal.HostV Idealize.ShloMosaic Idealize.ShloMosaic.TcCoe Idealize.SL.Sem

variable (m : (ℓ : Loc nD τ sig) → Buf (Elt Ideal) ℓ) (ρ : Dev nD → PrngReg)

/-! ## The call's buffers hold the types its values have -/

theorem ty_main_cst_3 : main_cst_3.ty = (⟨S_, .f32⟩ : BufTy) := rfl
theorem ty_main_call0_v0 : main_call0_v0.ty = (⟨S_, .f32⟩ : BufTy) := rfl
theorem ty_main_call0_v1 : main_call0_v1.ty = (⟨S50000, .f32⟩ : BufTy) := rfl
theorem ty_main_v11 : main_v11.ty = (⟨S50000, .i1⟩ : BufTy) := rfl
theorem ty_main_v12 : main_v12.ty = (⟨S50000, .f32⟩ : BufTy) := rfl
theorem ty_main_v13 : main_v13.ty = (⟨S50000, .f32⟩ : BufTy) := rfl

/-! ## After the first stretch: the edge words, the degree, its sign test and inverse square root -/

theorem W1_main_v1 (c : Dev nD) : W1 m ρ c (Proc.devRef .tc main_v1) = startW (m ((c : Thread nD τ).loc main_arg1)) := by
  show StableHlo.after hostOps0 (W0 m ρ c) (Proc.devRef .tc main_v1) = _
  dsimp only [hostOps0]
  after_results_simp
  rfl

theorem W1_main_v3 (c : Dev nD) : W1 m ρ c (Proc.devRef .tc main_v3) = endW (m ((c : Thread nD τ).loc main_arg1)) := by
  show StableHlo.after hostOps0 (W0 m ρ c) (Proc.devRef .tc main_v3) = _
  dsimp only [hostOps0]
  after_results_simp
  rfl

theorem W1_main_v9 (c : Dev nD) : W1 m ρ c (Proc.devRef .tc main_v9) = deg (m ((c : Thread nD τ).loc main_arg1)) := by
  show StableHlo.after hostOps0 (W0 m ρ c) (Proc.devRef .tc main_v9) = _
  dsimp only [hostOps0]
  after_results_simp
  unfold deg endW
  rfl

theorem W1_main_v11 (c : Dev nD) :
    W1 m ρ c (Proc.devRef .tc main_v11)
      = cmpf .ogt (deg (m ((c : Thread nD τ).loc main_arg1))) (broadcastInDim S50000 ![] bcast_S_S50000 (constant (F := Ideal) S_ .f32 0x00000000#32)) := by
  show StableHlo.after hostOps0 (W0 m ρ c) (Proc.devRef .tc main_v11) = _
  dsimp only [hostOps0]
  after_results_simp
  unfold deg endW
  rfl

theorem W1_main_v12 (c : Dev nD) : W1 m ρ c (Proc.devRef .tc main_v12) = Host.rsqrt (deg (m ((c : Thread nD τ).loc main_arg1))) := by
  show StableHlo.after hostOps0 (W0 m ρ c) (Proc.devRef .tc main_v12) = _
  dsimp only [hostOps0]
  after_results_simp
  unfold deg endW
  rfl

theorem W1_main_cst_3 (c : Dev nD) : W1 m ρ c (Proc.devRef .tc main_cst_3) = constant (F := Ideal) S_ .f32 0x00000000#32 := by
  show StableHlo.after hostOps0 (W0 m ρ c) (Proc.devRef .tc main_cst_3) = _
  dsimp only [hostOps0]
  after_results_simp

/-! ## After the called function: the factor -/

theorem W2_main_v13 (c : Dev nD) : W2 m ρ c (Proc.devRef .tc main_v13) = fac (m ((c : Thread nD τ).loc main_arg1)) := by
  have e11 := W1_main_v11 m ρ c
  have e12 := W1_main_v12 m ρ c
  have e3 := W1_main_cst_3 m ρ c
  show StableHlo.after hostOps0_1 (W1 m ρ c) (Proc.devRef .tc main_v13) = _
  generalize W1 m ρ c = Wv at e11 e12 e3 ⊢
  dsimp only [hostOps0_1]
  after_results_simp
  rw [e11, e12, e3]
  dsimp only [StableHlo.TRef.toBuf, StableHlo.TRef.ofBuf, StableHlo.TRef.of, ty_main_cst_3, ty_main_call0_v0, ty_main_call0_v1,
    ty_main_v11, ty_main_v12, ty_main_v13]
  simp only [cast_eq, id_eq]
  rfl

theorem W2_main_v1 (c : Dev nD) : W2 m ρ c (Proc.devRef .tc main_v1) = startW (m ((c : Thread nD τ).loc main_arg1)) := by
  have e := W1_main_v1 m ρ c
  show StableHlo.after hostOps0_1 (W1 m ρ c) (Proc.devRef .tc main_v1) = _
  generalize W1 m ρ c = Wv at e ⊢
  dsimp only [hostOps0_1]
  after_results_simp
  exact e

theorem W2_main_v3 (c : Dev nD) : W2 m ρ c (Proc.devRef .tc main_v3) = endW (m ((c : Thread nD τ).loc main_arg1)) := by
  have e := W1_main_v3 m ρ c
  show StableHlo.after hostOps0_1 (W1 m ρ c) (Proc.devRef .tc main_v3) = _
  generalize W1 m ρ c = Wv at e ⊢
  dsimp only [hostOps0_1]
  after_results_simp
  exact e

theorem W2_main_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  dsimp only [hostOps0, hostOps0_1]
  after_results_simp

/-! ## After the third stretch: region 0's input arrays at its entry -/

theorem V3_main_v15 (c : Dev nD) : V3 m ρ c main_v15 = facB (m ((c : Thread nD τ).loc main_arg1)) := by
  have e13 := W2_main_v13 m ρ c
  show StableHlo.after hostOps0_2 (W2 m ρ c) (Proc.devRef .tc main_v15) = _
  generalize W2 m ρ c = Wv at e13 ⊢
  dsimp only [hostOps0_2]
  after_results_simp
  rw [e13]
  rfl

theorem V3_main_v26 (c : Dev nD) :
    V3 m ρ c main_v26 = aggOf (m ((c : Thread nD τ).loc main_arg1)) (mulf (facB (m ((c : Thread nD τ).loc main_arg1))) (m ((c : Thread nD τ).loc main_arg0))) := by
  have e13 := W2_main_v13 m ρ c
  have e1 := W2_main_v1 m ρ c
  have e3 := W2_main_v3 m ρ c
  have e0 := W2_main_arg0 m ρ c
  show StableHlo.after hostOps0_2 (W2 m ρ c) (Proc.devRef .tc main_v26) = _
  generalize W2 m ρ c = Wv at e13 e1 e3 e0 ⊢
  dsimp only [hostOps0_2]
  after_results_simp
  rw [e13, e1, e3, e0]
  rfl

theorem V3_main_v27 (c : Dev nD) : V3 m ρ c main_v27 = rowOf (m ((c : Thread nD τ).loc main_arg3)) := by
  show StableHlo.after hostOps0_2 (StableHlo.after hostOps0_1 (StableHlo.after hostOps0 (W0 m ρ c))) (Proc.devRef .tc main_v27) = _
  dsimp only [hostOps0, hostOps0_1, hostOps0_2]
  after_results_simp
  rfl

theorem V3_main_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp

theorem V3_main_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp

theorem V3_main_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp

end Cert.KernelEntry

end
-- ==== Proof.KernelEntry1.lean ====
/-
  The arrays the second region of the idealized kernel program is entered with, as functions of the program's
  arguments and of the two arrays the first region leaves.

  Between the regions the program multiplies the first region's second output by the broadcast factor, propagates the
  product along the edges, and turns four bias vectors into one-row tables. The edge words and the factor were
  computed before the first region, which leaves them as they were: every buffer that is not one of its arrays is
  untouched, and an array it only reads is left at its entry contents.
-/
import proofs.«168154_j70214125355147_2_alg».proof.Proof.Gen.KernelIdeal.Frame
import proofs.«168154_j70214125355147_2_alg».proof.Proof.KernelHostDefs

set_option maxRecDepth 16384

noncomputable section

namespace Cert.KernelIdeal.Entry1

open Cert.KernelIdeal Cert.KernelIdeal.Gen Cert.KernelIdeal.HostV
open Idealize.ShloMosaic Idealize.ShloMosaic.TcCoe Idealize.SL.Sem

variable (m : (ℓ : Loc nD τ sig) → Buf (Elt Ideal) ℓ) (ρ : Dev nD → PrngReg)

/-! ## Before the first region, stretch by stretch -/

/-- After the first stretch: the start and end words, the degree, its test and its inverse square root, the zero. -/
theorem W1_v1 (c : Dev nD) : (W1 m ρ c (Proc.devRef .tc main_v1) : IVec S400000 32) = startW (m ((c : Thread nD τ).loc main_arg1)) := by
  show StableHlo.after hostOps0 (W0 m ρ c) (Proc.devRef .tc main_v1) = _
  after_results
  rfl
theorem W1_v3 (c : Dev nD) : (W1 m ρ c (Proc.devRef .tc main_v3) : IVec S400000 32) = endW (m ((c : Thread nD τ).loc main_arg1)) := by
  show StableHlo.after hostOps0 (W0 m ρ c) (Proc.devRef .tc main_v3) = _
  after_results
  rfl
theorem W1_v9 (c : Dev nD) : (W1 m ρ c (Proc.devRef .tc main_v9) : FVec Ideal S50000 .f32) = deg (m ((c : Thread nD τ).loc main_arg1)) := by
  show StableHlo.after hostOps0 (W0 m ρ c) (Proc.devRef .tc main_v9) = _
  after_results
  rfl
theorem W1_v11 (c : Dev nD) : (W1 m ρ c (Proc.devRef .tc main_v11) : IVec S50000 1)
    = cmpf .ogt (deg (m ((c : Thread nD τ).loc main_arg1))) (broadcastInDim S50000 ![] Facts₀.bcast_S_S50000 (constant (F := Ideal) S_ .f32 0x00000000#32)) := by
  show StableHlo.after hostOps0 (W0 m ρ c) (Proc.devRef .tc main_v11) = _
  after_results
  rfl
theorem W1_v12 (c : Dev nD) : (W1 m ρ c (Proc.devRef .tc main_v12) : FVec Ideal S50000 .f32) = Host.rsqrt (deg (m ((c : Thread nD τ).loc main_arg1))) := by
  show StableHlo.after hostOps0 (W0 m ρ c) (Proc.devRef .tc main_v12) = _
  after_results
  rfl
theorem W1_cst_3 (c : Dev nD) : (W1 m ρ c (Proc.devRef .tc main_cst_3) : FVec Ideal S_ .f32) = constant (F := Ideal) S_ .f32 0x00000000#32 := by
  show StableHlo.after hostOps0 (W0 m ρ c) (Proc.devRef .tc main_cst_3) = _
  after_results

attribute [local irreducible] select cmpf Host.rsqrt broadcastInDim constant deg in
/-- After the guarded selection: the factor. The typed references' transports are identities at these references. -/
theorem W2_v13 (c : Dev nD) : (W2 m ρ c (Proc.devRef .tc main_v13) : FVec Ideal S50000 .f32) = fac (m ((c : Thread nD τ).loc main_arg1)) := by
  have h11 := W1_v11 m ρ c
  have h12 := W1_v12 m ρ c
  have h3 := W1_cst_3 m ρ c
  show StableHlo.after hostOps0_1 (W1 m ρ c) (Proc.devRef .tc main_v13) = _
  generalize W1 m ρ c = V1 at h11 h12 h3 ⊢
  after_results
  rw [h11, h12, h3]
  unfold fac
  rfl

/-- At the first region's entry: the factor across the columns. -/
theorem W3_v15 (c : Dev nD) : (W3 m ρ c (Proc.devRef .tc main_v15) : FVec Ideal S50000x128 .f32) = facB (m ((c : Thread nD τ).loc main_arg1)) := by
  have h13 := W2_v13 m ρ c
  show StableHlo.after hostOps0_2 (W2 m ρ c) (Proc.devRef .tc main_v15) = _
  generalize W2 m ρ c = V2 at h13 ⊢
  after_results
  rw [h13]
  unfold facB
  rfl

/-! ## At the first region's exit -/

/-- The start and end words: the region does not touch them. -/
theorem W4_v1 (c : Dev nD) : (W4 m ρ c (Proc.devRef .tc main_v1) : IVec S400000 32) = startW (m ((c : Thread nD τ).loc main_arg1)) := by
  refine (W4_of_ne m ρ c main_v1 (by decide)).trans ?_
  show StableHlo.after hostOps0_2 (StableHlo.after hostOps0_1 (StableHlo.after hostOps0 (W0 m ρ c))) (Proc.devRef .tc main_v1) = _
  after_results
  rfl
theorem W4_v3 (c : Dev nD) : (W4 m ρ c (Proc.devRef .tc main_v3) : IVec S400000 32) = endW (m ((c : Thread nD τ).loc main_arg1)) := by
  refine (W4_of_ne m ρ c main_v3 (by decide)).trans ?_
  show StableHlo.after hostOps0_2 (StableHlo.after hostOps0_1 (StableHlo.after hostOps0 (W0 m ρ c))) (Proc.devRef .tc main_v3) = _
  after_results
  rfl

/-- The broadcast factor: the region only reads it. -/
theorem W4_v15 (c : Dev nD) : (W4 m ρ c (Proc.devRef .tc main_v15) : FVec Ideal S50000x128 .f32) = facB (m ((c : Thread nD τ).loc main_arg1)) :=
  ((W4_arr m ρ c 1).trans (((dat0 (V3 m ρ) c).arrAt_in 1 rfl _).trans (A_eq0 (V3 m ρ) c 1))).trans (W3_v15 m ρ c)

/-- The first region's two outputs after all its write-backs: the first layer's table, 512 wide, and its second
    projection, 128 wide. -/
def X1 (c : Dev nD) : FVec Ideal S50000x512 .f32 := (dat0 (V3 m ρ) c).arrAt 6 cfg0.N
def H2 (c : Dev nD) : FVec Ideal S50000x128 .f32 := (dat0 (V3 m ρ) c).arrAt 7 cfg0.N

/-- The region's two outputs: what its write-backs leave. -/
theorem W4_v28_0 (c : Dev nD) : (W4 m ρ c (Proc.devRef .tc main_v28_0) : FVec Ideal S50000x512 .f32) = X1 m ρ c := W4_arr m ρ c 6
theorem W4_v28_1 (c : Dev nD) : (W4 m ρ c (Proc.devRef .tc main_v28_1) : FVec Ideal S50000x128 .f32) = H2 m ρ c := W4_arr m ρ c 7

/-- The arguments the second stretch and the second region read: as launched. -/
theorem W4_arg5 (c : Dev nD) : W4 m ρ c (Proc.devRef .tc main_arg5) = m ((c : Thread nD τ).loc main_arg5) := by
  refine (W4_of_ne m ρ c main_arg5 (by decide)).trans ?_
  show StableHlo.after hostOps0_2 (StableHlo.after hostOps0_1 (StableHlo.after hostOps0 (W0 m ρ c))) (Proc.devRef .tc main_arg5) = _
  after_results
theorem W4_arg6 (c : Dev nD) : W4 m ρ c (Proc.devRef .tc main_arg6) = m ((c : Thread nD τ).loc main_arg6) := by
  refine (W4_of_ne m ρ c main_arg6 (by decide)).trans ?_
  show StableHlo.after hostOps0_2 (StableHlo.after hostOps0_1 (StableHlo.after hostOps0 (W0 m ρ c))) (Proc.devRef .tc main_arg6) = _
  after_results
theorem W4_arg7 (c : Dev nD) : W4 m ρ c (Proc.devRef .tc main_arg7) = m ((c : Thread nD τ).loc main_arg7) := by
  refine (W4_of_ne m ρ c main_arg7 (by decide)).trans ?_
  show StableHlo.after hostOps0_2 (StableHlo.after hostOps0_1 (StableHlo.after hostOps0 (W0 m ρ c))) (Proc.devRef .tc main_arg7) = _
  after_results
theorem W4_arg8 (c : Dev nD) : W4 m ρ c (Proc.devRef .tc main_arg8) = m ((c : Thread nD τ).loc main_arg8) := by
  refine (W4_of_ne m ρ c main_arg8 (by decide)).trans ?_
  show StableHlo.after hostOps0_2 (StableHlo.after hostOps0_1 (StableHlo.after hostOps0 (W0 m ρ c))) (Proc.devRef .tc main_arg8) = _
  after_results
theorem W4_arg9 (c : Dev nD) : W4 m ρ c (Proc.devRef .tc main_arg9) = m ((c : Thread nD τ).loc main_arg9) := by
  refine (W4_of_ne m ρ c main_arg9 (by decide)).trans ?_
  show StableHlo.after hostOps0_2 (StableHlo.after hostOps0_1 (StableHlo.after hostOps0 (W0 m ρ c))) (Proc.devRef .tc main_arg9) = _
  after_results
theorem W4_arg10 (c : Dev nD) : W4 m ρ c (Proc.devRef .tc main_arg10) = m ((c : Thread nD τ).loc main_arg10) := by
  refine (W4_of_ne m ρ c main_arg10 (by decide)).trans ?_
  show StableHlo.after hostOps0_2 (StableHlo.after hostOps0_1 (StableHlo.after hostOps0 (W0 m ρ c))) (Proc.devRef .tc main_arg10) = _
  after_results
theorem W4_arg11 (c : Dev nD) : W4 m ρ c (Proc.devRef .tc main_arg11) = m ((c : Thread nD τ).loc main_arg11) := by
  refine (W4_of_ne m ρ c main_arg11 (by decide)).trans ?_
  show StableHlo.after hostOps0_2 (StableHlo.after hostOps0_1 (StableHlo.after hostOps0 (W0 m ρ c))) (Proc.devRef .tc main_arg11) = _
  after_results

/-! ## At the second region's entry -/

set_option maxHeartbeats 1000000 in
/-- The propagated product of the factor and the first region's second output. -/
theorem W5_v39 (c : Dev nD) : (W5 m ρ c (Proc.devRef .tc main_v39) : FVec Ideal S50000x128 .f32)
    = aggOf (m ((c : Thread nD τ).loc main_arg1)) (mulf (facB (m ((c : Thread nD τ).loc main_arg1))) (H2 m ρ c)) := by
  have h1 := W4_v1 m ρ c
  have h3 := W4_v3 m ρ c
  have h15 := W4_v15 m ρ c
  have h28 := W4_v28_1 m ρ c
  show StableHlo.after hostOps1 (W4 m ρ c) (Proc.devRef .tc main_v39) = _
  generalize W4 m ρ c = Wv at h1 h3 h15 h28 ⊢
  after_results
  rw [h1, h3, h15, h28]
  unfold aggOf wrapS
  rfl

/-- The factor and the first region's outputs: the second stretch does not write them. -/
theorem W5_v15 (c : Dev nD) : (W5 m ρ c (Proc.devRef .tc main_v15) : FVec Ideal S50000x128 .f32) = facB (m ((c : Thread nD τ).loc main_arg1)) := by
  show StableHlo.after hostOps1 (W4 m ρ c) (Proc.devRef .tc main_v15) = _
  after_results
  exact W4_v15 m ρ c
theorem W5_v28_0 (c : Dev nD) : (W5 m ρ c (Proc.devRef .tc main_v28_0) : FVec Ideal S50000x512 .f32) = (X1 m ρ c) := by
  show StableHlo.after hostOps1 (W4 m ρ c) (Proc.devRef .tc main_v28_0) = _
  after_results
  exact W4_v28_0 m ρ c
theorem W5_v28_1 (c : Dev nD) : (W5 m ρ c (Proc.devRef .tc main_v28_1) : FVec Ideal S50000x128 .f32) = (H2 m ρ c) := by
  show StableHlo.after hostOps1 (W4 m ρ c) (Proc.devRef .tc main_v28_1) = _
  after_results
  exact W4_v28_1 m ρ c

/-- The four bias vectors as one-row tables. -/
theorem W5_v40 (c : Dev nD) : (W5 m ρ c (Proc.devRef .tc main_v40) : FVec Ideal ⟨2, ![1, 128]⟩ .f32)
    = rowOf (n := 128) (m ((c : Thread nD τ).loc main_arg5)) := by
  show StableHlo.after hostOps1 (W4 m ρ c) (Proc.devRef .tc main_v40) = _
  after_results
  rw [W4_arg5]
  rfl
theorem W5_v41 (c : Dev nD) : (W5 m ρ c (Proc.devRef .tc main_v41) : FVec Ideal ⟨2, ![1, 128]⟩ .f32)
    = rowOf (n := 128) (m ((c : Thread nD τ).loc main_arg7)) := by
  show StableHlo.after hostOps1 (W4 m ρ c) (Proc.devRef .tc main_v41) = _
  after_results
  rw [W4_arg7]
  rfl
theorem W5_v42 (c : Dev nD) : (W5 m ρ c (Proc.devRef .tc main_v42) : FVec Ideal ⟨2, ![1, 256]⟩ .f32)
    = rowOf (n := 256) (m ((c : Thread nD τ).loc main_arg9)) := by
  show StableHlo.after hostOps1 (W4 m ρ c) (Proc.devRef .tc main_v42) = _
  after_results
  rw [W4_arg9]
  rfl
theorem W5_v43 (c : Dev nD) : (W5 m ρ c (Proc.devRef .tc main_v43) : FVec Ideal ⟨2, ![1, 1]⟩ .f32)
    = rowOf (n := 1) (m ((c : Thread nD τ).loc main_arg11)) := by
  show StableHlo.after hostOps1 (W4 m ρ c) (Proc.devRef .tc main_v43) = _
  after_results
  rw [W4_arg11]
  rfl

/-- The three weight matrices the second region reads: as launched. -/
theorem W5_arg6 (c : Dev nD) : W5 m ρ c (Proc.devRef .tc main_arg6) = m ((c : Thread nD τ).loc main_arg6) := by
  show StableHlo.after hostOps1 (W4 m ρ c) (Proc.devRef .tc main_arg6) = _
  after_results
  exact W4_arg6 m ρ c
theorem W5_arg8 (c : Dev nD) : W5 m ρ c (Proc.devRef .tc main_arg8) = m ((c : Thread nD τ).loc main_arg8) := by
  show StableHlo.after hostOps1 (W4 m ρ c) (Proc.devRef .tc main_arg8) = _
  after_results
  exact W4_arg8 m ρ c
theorem W5_arg10 (c : Dev nD) : W5 m ρ c (Proc.devRef .tc main_arg10) = m ((c : Thread nD τ).loc main_arg10) := by
  show StableHlo.after hostOps1 (W4 m ρ c) (Proc.devRef .tc main_arg10) = _
  after_results
  exact W4_arg10 m ρ c

/-! ## The same, read at the second region's references -/

theorem V5_v39 (c : Dev nD) : (V5 m ρ c main_v39 : FVec Ideal S50000x128 .f32) = aggOf (m ((c : Thread nD τ).loc main_arg1)) (mulf (facB (m ((c : Thread nD τ).loc main_arg1))) (H2 m ρ c)) := W5_v39 m ρ c
theorem V5_v15 (c : Dev nD) : (V5 m ρ c main_v15 : FVec Ideal S50000x128 .f32) = facB (m ((c : Thread nD τ).loc main_arg1)) := W5_v15 m ρ c
theorem V5_v28_1 (c : Dev nD) : (V5 m ρ c main_v28_1 : FVec Ideal S50000x128 .f32) = (H2 m ρ c) := W5_v28_1 m ρ c
theorem V5_v28_0 (c : Dev nD) : (V5 m ρ c main_v28_0 : FVec Ideal S50000x512 .f32) = (X1 m ρ c) := W5_v28_0 m ρ c
theorem V5_v40 (c : Dev nD) : (V5 m ρ c main_v40 : FVec Ideal ⟨2, ![1, 128]⟩ .f32) = rowOf (n := 128) (m ((c : Thread nD τ).loc main_arg5)) := W5_v40 m ρ c
theorem V5_v41 (c : Dev nD) : (V5 m ρ c main_v41 : FVec Ideal ⟨2, ![1, 128]⟩ .f32) = rowOf (n := 128) (m ((c : Thread nD τ).loc main_arg7)) := W5_v41 m ρ c
theorem V5_v42 (c : Dev nD) : (V5 m ρ c main_v42 : FVec Ideal ⟨2, ![1, 256]⟩ .f32) = rowOf (n := 256) (m ((c : Thread nD τ).loc main_arg9)) := W5_v42 m ρ c
theorem V5_v43 (c : Dev nD) : (V5 m ρ c main_v43 : FVec Ideal ⟨2, ![1, 1]⟩ .f32) = rowOf (n := 1) (m ((c : Thread nD τ).loc main_arg11)) := W5_v43 m ρ c
theorem V5_arg6 (c : Dev nD) : V5 m ρ c main_arg6 = m ((c : Thread nD τ).loc main_arg6) := W5_arg6 m ρ c
theorem V5_arg8 (c : Dev nD) : V5 m ρ c main_arg8 = m ((c : Thread nD τ).loc main_arg8) := W5_arg8 m ρ c
theorem V5_arg10 (c : Dev nD) : V5 m ρ c main_arg10 = m ((c : Thread nD τ).loc main_arg10) := W5_arg10 m ρ c

end Cert.KernelIdeal.Entry1

end
-- ==== Proof.Bridge.lean ====
/-
  The idealized kernel program's two results as the node-side forms of the specification at the graph, the factor and
  the weights read off the arguments. Region 0's outputs are the first layer X1 and its projection H2 of the argument
  arrays (its inputs are the aggregate of factor × node features, the broadcast factor, the features, the bias row and
  the weights); region 1's inputs are the aggregate of factor × H2, the factor, H2, X1 and the remaining weights and
  bias rows; chained, the results are xK and AK.
-/
import proofs.«168154_j70214125355147_2_alg».proof.Proof.KernelRun
import proofs.«168154_j70214125355147_2_alg».proof.Proof.RegionValues
import proofs.«168154_j70214125355147_2_alg».proof.Proof.KernelSpec
import proofs.«168154_j70214125355147_2_alg».proof.Proof.KernelHost
import proofs.«168154_j70214125355147_2_alg».proof.Proof.KernelEntry
import proofs.«168154_j70214125355147_2_alg».proof.Proof.KernelEntry1

set_option maxRecDepth 16384

open scoped BigOperators

noncomputable section

namespace Cert.Bridge

open Cert.KernelIdeal Cert.KernelIdeal.Gen Cert.KernelIdeal.HostV Cert.KernelIdeal.RegV Cert.KernelIdeal.SpecV
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The argument arrays on core c. -/
abbrev A0 : Vec Ideal S50000x128 .f32 := m ((c : Thread nD τ).loc main_arg0)
abbrev A1 : IVec S2x400000 32 := m ((c : Thread nD τ).loc main_arg1)
abbrev A2 : Vec Ideal S128x512 .f32 := m ((c : Thread nD τ).loc main_arg2)
abbrev A3 : Vec Ideal S512 .f32 := m ((c : Thread nD τ).loc main_arg3)
abbrev A4 : Vec Ideal S512x128 .f32 := m ((c : Thread nD τ).loc main_arg4)
abbrev A5 : Vec Ideal S128 .f32 := m ((c : Thread nD τ).loc main_arg5)
abbrev A6 : Vec Ideal S512x128 .f32 := m ((c : Thread nD τ).loc main_arg6)
abbrev A7 : Vec Ideal S128 .f32 := m ((c : Thread nD τ).loc main_arg7)
abbrev A8 : Vec Ideal S128x256 .f32 := m ((c : Thread nD τ).loc main_arg8)
abbrev A9 : Vec Ideal S256 .f32 := m ((c : Thread nD τ).loc main_arg9)
abbrev A10 : Vec Ideal S256x1 .f32 := m ((c : Thread nD τ).loc main_arg10)
abbrev A11 : Vec Ideal S1 .f32 := m ((c : Thread nD τ).loc main_arg11)

/-- Region 0's first output array. -/
abbrev X1out : Vec Ideal S50000x512 .f32 := (dat0 (V3 m ρ) c).arrAt 6 cfg0.N
/-- Region 0's second output array. -/
abbrev H2out : Vec Ideal S50000x128 .f32 := (dat0 (V3 m ρ) c).arrAt 7 cfg0.N

/-- Region 0's first output is the first-layer function of the argument arrays. -/
theorem X1out_eq :
    X1out m ρ c = X1arr (aggOf (A1 m c) (mulf (F := Ideal) (φ := .f32) (facB (A1 m c)) (A0 m c))) (facB (A1 m c)) (A0 m c)
      (rowOf (A3 m c)) (A2 m c) := by
  show (dat0 (V3 m ρ) c).arrAt 6 cfg0.N = _
  rw [final0_6 (V3 m ρ) c]
  show X1arr (V3 m ρ c main_v26) (V3 m ρ c main_v15) (V3 m ρ c main_arg0) (V3 m ρ c main_v27) (V3 m ρ c main_arg2) = _
  rw [Cert.KernelEntry.V3_main_v26 m ρ c, Cert.KernelEntry.V3_main_v15 m ρ c, Cert.KernelEntry.V3_main_arg0 m ρ c,
    Cert.KernelEntry.V3_main_v27 m ρ c, Cert.KernelEntry.V3_main_arg2 m ρ c]

/-- Region 0's second output is the projection of the first. -/
theorem H2out_eq : H2out m ρ c = H2arr (X1out m ρ c) (A4 m c) := by
  show (dat0 (V3 m ρ) c).arrAt 7 cfg0.N = H2arr ((dat0 (V3 m ρ) c).arrAt 6 cfg0.N) _
  rw [final0_7 (V3 m ρ) c, final0_6 (V3 m ρ) c]
  show H2arr _ (V3 m ρ c main_arg4) = _
  rw [Cert.KernelEntry.V3_main_arg4 m ρ c]

open Cert.GcnData in
/-- The first result buffer is region 1's first output array, which is the X function of what region 1 reads. -/
theorem W6_x : W6 m ρ c (Proc.devRef .tc main_v44_0) = XV (V5 m ρ) c :=
  (W6_arr m ρ c 11).trans (final1_11 (V5 m ρ) c)

open Cert.GcnData in
/-- The first result, entry (r, cc), is the node-side xK of the argument arrays. -/
theorem kernel_x (r : Fin 50000) (cc : Fin 128) :
    W6 m ρ c (Proc.devRef .tc main_v44_0) (ix2 r cc)
      = Cert.GcnSpec.xK (hit (A1 m c)) (sr (A1 m c)) 2 0 (dfac (A1 m c)) (mat (A0 m c)) (mat (A2 m c)) (vec (A3 m c))
          (mat (A4 m c)) (vec (A5 m c)) (mat (A6 m c)) (vec (A7 m c)) r cc := by
  rw [W6_x m ρ c]
  show Xf (V5 m ρ c main_v39) (V5 m ρ c main_v15) (V5 m ρ c main_v28_1) (V5 m ρ c main_v40) (V5 m ρ c main_v28_0)
    (V5 m ρ c main_arg6) (V5 m ρ c main_v41) r cc = _
  rw [Cert.KernelIdeal.Entry1.V5_v39 m ρ c, Cert.KernelIdeal.Entry1.V5_v15 m ρ c, Cert.KernelIdeal.Entry1.V5_v28_1 m ρ c,
    Cert.KernelIdeal.Entry1.V5_v40 m ρ c, Cert.KernelIdeal.Entry1.V5_v28_0 m ρ c, Cert.KernelIdeal.Entry1.V5_arg6 m ρ c,
    Cert.KernelIdeal.Entry1.V5_v41 m ρ c]
  exact x_of_regions (hit (A1 m c)) (sr (A1 m c)) (dfac (A1 m c)) (A0 m c) (A2 m c) (A3 m c) (A4 m c) (A5 m c) (A6 m c) (A7 m c)
    (facB (A1 m c)) (aggOf (A1 m c) (mulf (F := Ideal) (φ := .f32) (facB (A1 m c)) (A0 m c)))
    (aggOf (A1 m c) (mulf (F := Ideal) (φ := .f32) (facB (A1 m c)) (Cert.KernelIdeal.Entry1.H2 m ρ c)))
    (rowOf (A3 m c)) (rowOf (A5 m c)) (rowOf (A7 m c)) (Cert.KernelIdeal.Entry1.X1 m ρ c) (Cert.KernelIdeal.Entry1.H2 m ρ c)
    (X1out_eq m ρ c) (H2out_eq m ρ c) (facB_apply (A1 m c)) (aggOf_apply (A1 m c) _) (aggOf_apply (A1 m c) _)
    (rowOf_apply (A3 m c)) (rowOf_apply (A5 m c)) (rowOf_apply (A7 m c)) r cc

open Cert.GcnData in
/-- The second result, entry (r, 0), is the node-side AK of the argument arrays. -/
theorem kernel_A (r : Fin 50000) :
    W6 m ρ c (Proc.devRef .tc main_v44_1) (ix2 r (0 : Fin 1))
      = Cert.GcnSpec.AK (hit (A1 m c)) (sr (A1 m c)) 2 0 (dfac (A1 m c)) (mat (A0 m c)) (mat (A2 m c)) (vec (A3 m c))
          (mat (A4 m c)) (vec (A5 m c)) (mat (A6 m c)) (vec (A7 m c)) (mat (A8 m c)) (vec (A9 m c)) (col (A10 m c))
          (vec (A11 m c) 0) r := by
  have hW : W6 m ρ c (Proc.devRef .tc main_v44_1)
      = Aarr (XV (V5 m ρ) c) (V5 m ρ c main_arg8) (V5 m ρ c main_v42) (V5 m ρ c main_arg10) (V5 m ρ c main_v43) :=
    (W6_arr m ρ c 12).trans (final1_12 (V5 m ρ) c)
  rw [hW]
  show Af (XV (V5 m ρ) c) (V5 m ρ c main_arg8) (V5 m ρ c main_v42) (V5 m ρ c main_arg10) (V5 m ρ c main_v43) r = _
  rw [Cert.KernelIdeal.Entry1.V5_arg8 m ρ c, Cert.KernelIdeal.Entry1.V5_v42 m ρ c, Cert.KernelIdeal.Entry1.V5_arg10 m ρ c,
    Cert.KernelIdeal.Entry1.V5_v43 m ρ c]
  exact A_of_regions (hit (A1 m c)) (sr (A1 m c)) (dfac (A1 m c)) (A0 m c) (A2 m c) (A3 m c) (A4 m c) (A5 m c) (A6 m c) (A7 m c)
    (A8 m c) (A9 m c) (A10 m c) (A11 m c) (XV (V5 m ρ) c) (rowOf (A9 m c)) (rowOf (A11 m c))
    (fun r cc => (congrFun (W6_x m ρ c).symm (ix2 r cc)).trans (kernel_x m ρ c r cc))
    (rowOf_apply (A9 m c)) (rowOf_apply (A11 m c) 0) r

end Cert.Bridge

end
-- ==== Proof.GcnAlgebra.lean ====
/-
  The node-side and the edge-side arrangements of the two-layer graph convolution agree on real data.

  Over the real numbers the two arrangements are equal by distributivity and commutativity of finite sums.  Over the
  extended reals distributivity fails at the infinities, so the statement is made for data that are coercions of real
  numbers: every extended-real form at coerced data is the coercion of the same form over the reals, and the identity is
  proved there.
-/
import Mathlib
import proofs.«168154_j70214125355147_2_alg».proof.Proof.GcnSpec

open scoped BigOperators

namespace Cert.GcnAlgebra

open Cert.GcnSpec

/-! ### The coercion from the reals to the extended reals respects the operations used -/

/-- The coercion of a finite sum of reals is the sum of the coercions. -/
theorem coe_sum {κ : Type} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  EReal.coe_strictMono.monotone.map_max

/-- The real number two coerces to the extended real two. -/
theorem coe_two : ((2 : ℝ) : EReal) = 2 := rfl

section Cast

variable {ι ε α β : Type} [Fintype ι] [Fintype ε] [Fintype α] [Fintype β]
variable (hit : ε → ι → Prop) [∀ e r, Decidable (hit e r)] (sr dn : ε → ι)

/-- Node-side aggregation at coerced data is the coercion of the real aggregation. -/
theorem aggK_cast {d f : ι → EReal} {d' f' : ι → ℝ} (hd : ∀ r, d r = (d' r : EReal))
    (hf : ∀ r, f r = (f' r : EReal)) (r : ι) :
    aggK hit sr d f r = ((aggK hit sr d' f' r : ℝ) : EReal) := by
  unfold aggK
  rw [coe_sum]
  refine Finset.sum_congr rfl fun e _ => ?_
  split_ifs
  · rw [hd, hf, EReal.coe_mul]
  · rfl

/-- The node-side combination at coerced data is the coercion of the real combination. -/
theorem selfK_cast {dr a f : EReal} {dr' a' f' : ℝ} (h1 : dr = (dr' : EReal)) (h2 : a = (a' : EReal))
    (h3 : f = (f' : EReal)) : selfK 2 dr a f = ((selfK 2 dr' a' f' : ℝ) : EReal) := by
  unfold selfK
  rw [h1, h2, h3, EReal.coe_add, EReal.coe_mul, EReal.coe_mul, EReal.coe_mul, EReal.coe_mul, coe_two]

/-- Edge-side aggregation at coerced data is the coercion of the real aggregation. -/
theorem aggR_cast {d g : ι → EReal} {d' g' : ι → ℝ} (hd : ∀ r, d r = (d' r : EReal))
    (hg : ∀ r, g r = (g' r : EReal)) (r : ι) :
    aggR hit sr dn d g r = ((aggR hit sr dn d' g' r : ℝ) : EReal) := by
  unfold aggR
  rw [EReal.coe_add, EReal.coe_add, coe_sum, EReal.coe_mul, EReal.coe_mul, hg r, hd r]
  congr 2
  refine Finset.sum_congr rfl fun e _ => ?_
  split_ifs
  · rw [hg, hd, hd, EReal.coe_mul, EReal.coe_mul]
  · rfl

variable {d : ι → EReal} {d' : ι → ℝ} (hd : ∀ r, d r = (d' r : EReal))
variable {ne : ι → α → EReal} {ne' : ι → α → ℝ} (hne : ∀ r k, ne r k = (ne' r k : EReal))
variable {W1 : α → β → EReal} {W1' : α → β → ℝ} (hW1 : ∀ k j, W1 k j = (W1' k j : EReal))
variable {b1 : β → EReal} {b1' : β → ℝ} (hb1 : ∀ j, b1 j = (b1' j : EReal))
variable {W2 : β → α → EReal} {W2' : β → α → ℝ} (hW2 : ∀ j c, W2 j c = (W2' j c : EReal))
variable {b2 : α → EReal} {b2' : α → ℝ} (hb2 : ∀ c, b2 c = (b2' c : EReal))

include hd hne hW1 hb1 in
/-- The node-side first layer at coerced data is the coercion of the real first layer. -/
theorem x1K_cast (r : ι) (j : β) :
    x1K hit sr 2 0 d ne W1 b1 r j = ((x1K hit sr 2 0 d' ne' W1' b1' r j : ℝ) : EReal) := by
  unfold x1K
  rw [coe_max, EReal.coe_add, coe_sum, hb1 j, EReal.coe_zero]
  congr 2
  refine Finset.sum_congr rfl fun k _ => ?_
  rw [EReal.coe_mul, hW1 k j,
    selfK_cast (hd r) (aggK_cast hit sr hd (fun ρ => hne ρ k) r) (hne r k)]

include hd hne hW1 hb1 in
/-- The edge-side first layer at coerced data is the coercion of the real first layer. -/
theorem x1R_cast (r : ι) (j : β) :
    x1R hit sr dn 0 d ne W1 b1 r j = ((x1R hit sr dn 0 d' ne' W1' b1' r j : ℝ) : EReal) := by
  unfold x1R
  rw [coe_max, EReal.coe_add, hb1 j, EReal.coe_zero]
  congr 2
  refine aggR_cast hit sr dn hd (fun ρ => ?_) r
  rw [coe_sum]
  refine Finset.sum_congr rfl fun k _ => ?_
  rw [hne ρ k, hW1 k j, EReal.coe_mul]

include hW2 in
/-- The second projection at coerced data is the coercion of the real projection. -/
theorem proj2_cast {x1 : ι → β → EReal} {x1' : ι → β → ℝ} (hx : ∀ r j, x1 r j = (x1' r j : EReal))
    (r : ι) (c : α) : proj2 W2 x1 r c = ((proj2 W2' x1' r c : ℝ) : EReal) := by
  unfold proj2
  rw [coe_sum]
  refine Finset.sum_congr rfl fun j _ => ?_
  rw [hx r j, hW2 j c, EReal.coe_mul]

include hd hb2 in
/-- The node-side second layer at coerced data is the coercion of the real second layer. -/
theorem x2K_cast {h : ι → α → EReal} {h' : ι → α → ℝ} (hh : ∀ r c, h r c = (h' r c : EReal))
    (r : ι) (c : α) :
    x2K hit sr 2 0 d b2 h r c = ((x2K hit sr 2 0 d' b2' h' r c : ℝ) : EReal) := by
  unfold x2K
  rw [coe_max, EReal.coe_add, hb2 c, EReal.coe_zero,
    selfK_cast (hd r) (aggK_cast hit sr hd (fun ρ => hh ρ c) r) (hh r c)]

include hd hb2 in
/-- The edge-side second layer at coerced data is the coercion of the real second layer. -/
theorem x2R_cast {h : ι → α → EReal} {h' : ι → α → ℝ} (hh : ∀ r c, h r c = (h' r c : EReal))
    (r : ι) (c : α) :
    x2R hit sr dn 0 d b2 h r c = ((x2R hit sr dn 0 d' b2' h' r c : ℝ) : EReal) := by
  unfold x2R
  rw [coe_max, EReal.coe_add, hb2 c, EReal.coe_zero,
    aggR_cast hit sr dn hd (fun ρ => hh ρ c) r]

end Cast

/-! ### The identities over the reals -/

section Real

variable {ι ε α β : Type} [Fintype ι] [Fintype ε] [Fintype α] [Fintype β]
variable (hit : ε → ι → Prop) [∀ e r, Decidable (hit e r)] (sr dn : ε → ι)
variable (hdn : ∀ e r, hit e r → dn e = r)

/-- Moving a weighted sum over k inside a conditional sum over the edges:
    ∑ₖ (δ · ∑ₑ [p e] a e · n e k) · w k = ∑ₑ [p e] (∑ₖ n e k · w k) · (a e · δ). -/
theorem edge_sum_swap {κ : Type} [Fintype κ] (p : ε → Prop) [DecidablePred p] (δ : ℝ) (a : ε → ℝ)
    (n : ε → κ → ℝ) (w : κ → ℝ) :
    ∑ k, (δ * ∑ e, if p e then a e * n e k else 0) * w k
      = ∑ e, if p e then (∑ k, n e k * w k) * (a e * δ) else 0 := by
  calc ∑ k, (δ * ∑ e, if p e then a e * n e k else 0) * w k
      = ∑ k, ∑ e, if p e then δ * (a e * n e k) * w k else 0 := by
        refine Finset.sum_congr rfl fun k _ => ?_
        rw [Finset.mul_sum, Finset.sum_mul]
        refine Finset.sum_congr rfl fun e _ => ?_
        split_ifs <;> simp
    _ = ∑ e, ∑ k, if p e then δ * (a e * n e k) * w k else 0 := Finset.sum_comm
    _ = ∑ e, if p e then (∑ k, n e k * w k) * (a e * δ) else 0 := by
        refine Finset.sum_congr rfl fun e _ => ?_
        split_ifs
        · rw [Finset.sum_mul]
          refine Finset.sum_congr rfl fun k _ => ?_
          ring
        · simp

include hdn in
/-- Under the condition that edge e ends at r, the end of e reads back as r. -/
theorem edge_sum_dn (r : ι) (d : ι → ℝ) (g : ι → ℝ) :
    (∑ e, if hit e r then g (sr e) * (d (sr e) * d (dn e)) else 0)
      = ∑ e, if hit e r then g (sr e) * (d (sr e) * d r) else 0 := by
  refine Finset.sum_congr rfl fun e _ => ?_
  split_ifs with h
  · rw [hdn e r h]
  · rfl

include hdn in
/-- First layer over the reals: aggregating and then projecting equals projecting and then aggregating. -/
theorem x1K_eq_x1R_real (d : ι → ℝ) (ne : ι → α → ℝ) (W1 : α → β → ℝ) (b1 : β → ℝ) (r : ι) (j : β) :
    x1K hit sr 2 0 d ne W1 b1 r j = x1R hit sr dn 0 d ne W1 b1 r j := by
  unfold x1K x1R selfK aggK aggR
  beta_reduce
  congr 2
  rw [edge_sum_dn hit sr dn hdn r d (fun ρ => ∑ k, ne ρ k * W1 k j)]
  rw [← edge_sum_swap (fun e => hit e r) (d r) (fun e => d (sr e)) (fun e k => ne (sr e) k) (fun k => W1 k j)]
  rw [Finset.sum_mul, ← Finset.sum_add_distrib, ← Finset.sum_add_distrib]
  refine Finset.sum_congr rfl fun k _ => ?_
  ring

include hdn in
/-- Second layer over the reals: the factor of r comes out of the edge sum and the two self loops give the diagonal
    term. -/
theorem x2K_eq_x2R_real (d : ι → ℝ) (b2 : α → ℝ) (h : ι → α → ℝ) (r : ι) (c : α) :
    x2K hit sr 2 0 d b2 h r c = x2R hit sr dn 0 d b2 h r c := by
  unfold x2K x2R selfK aggK aggR
  congr 2
  rw [edge_sum_dn hit sr dn hdn r d (fun ρ => h ρ c), Finset.mul_sum]
  have : ∀ e, d r * (if hit e r then d (sr e) * h (sr e) c else 0)
      = if hit e r then h (sr e) c * (d (sr e) * d r) else 0 := by
    intro e
    split_ifs
    · ring
    · simp
  simp only [this]
  ring

end Real

/-! ### The identities over the extended reals at real data -/

section Extended

variable {ι ε α β γ : Type} [Fintype ι] [Fintype ε] [Fintype α] [Fintype β] [Fintype γ]
variable (hit : ε → ι → Prop) [∀ e r, Decidable (hit e r)] (sr dn : ε → ι)

/-- First layer over the extended reals: when the factors, the inputs, the weights and the bias are real numbers, the
    node-side and the edge-side first layers agree. -/
theorem x1K_eq_x1R (hdn : ∀ e r, hit e r → dn e = r) (d : ι → EReal) (ne : ι → α → EReal) (W1 : α → β → EReal)
    (b1 : β → EReal) (hd : ∀ r, ∃ x : ℝ, d r = (x : EReal)) (hne : ∀ r k, ∃ x : ℝ, ne r k = (x : EReal))
    (hW1 : ∀ k j, ∃ x : ℝ, W1 k j = (x : EReal)) (hb1 : ∀ j, ∃ x : ℝ, b1 j = (x : EReal)) (r : ι) (j : β) :
    x1K hit sr 2 0 d ne W1 b1 r j = x1R hit sr dn 0 d ne W1 b1 r j := by
  choose d' hd using hd
  choose ne' hne using hne
  choose W1' hW1 using hW1
  choose b1' hb1 using hb1
  rw [x1K_cast hit sr hd hne hW1 hb1, x1R_cast hit sr dn hd hne hW1 hb1, x1K_eq_x1R_real hit sr dn hdn]

/-- The edge-side first layer at real data is real-valued (it is a maximum of a real number and zero). -/
theorem x1R_isReal (d : ι → EReal) (ne : ι → α → EReal) (W1 : α → β → EReal)
    (b1 : β → EReal) (hd : ∀ r, ∃ x : ℝ, d r = (x : EReal)) (hne : ∀ r k, ∃ x : ℝ, ne r k = (x : EReal))
    (hW1 : ∀ k j, ∃ x : ℝ, W1 k j = (x : EReal)) (hb1 : ∀ j, ∃ x : ℝ, b1 j = (x : EReal)) (r : ι) (j : β) :
    ∃ x : ℝ, x1R hit sr dn 0 d ne W1 b1 r j = (x : EReal) := by
  choose d' hd using hd
  choose ne' hne using hne
  choose W1' hW1 using hW1
  choose b1' hb1 using hb1
  exact ⟨_, x1R_cast hit sr dn hd hne hW1 hb1 r j⟩

/-- The second projection of a real-valued first-layer output through real weights is real-valued. -/
theorem proj2_isReal (W2 : β → α → EReal) (x1 : ι → β → EReal) (hW2 : ∀ j c, ∃ x : ℝ, W2 j c = (x : EReal))
    (hx : ∀ r j, ∃ x : ℝ, x1 r j = (x : EReal)) (r : ι) (c : α) :
    ∃ x : ℝ, proj2 W2 x1 r c = (x : EReal) := by
  choose W2' hW2 using hW2
  choose x1' hx using hx
  exact ⟨_, proj2_cast hW2 hx r c⟩

/-- Second layer over the extended reals: for real factors, a real bias and real-valued projected rows h, the
    node-side and the edge-side second layers agree. -/
theorem x2K_eq_x2R (hdn : ∀ e r, hit e r → dn e = r) (d : ι → EReal) (b2 : α → EReal) (h : ι → α → EReal)
    (hd : ∀ r, ∃ x : ℝ, d r = (x : EReal)) (hb2 : ∀ c, ∃ x : ℝ, b2 c = (x : EReal))
    (hh : ∀ r c, ∃ x : ℝ, h r c = (x : EReal)) (r : ι) (c : α) :
    x2K hit sr 2 0 d b2 h r c = x2R hit sr dn 0 d b2 h r c := by
  choose d' hd using hd
  choose b2' hb2 using hb2
  choose h' hh using hh
  rw [x2K_cast hit sr hd hb2 hh, x2R_cast hit sr dn hd hb2 hh, x2K_eq_x2R_real hit sr dn hdn]

/-- The two residual sums differ only in the bracketing of a sum of three terms. -/
theorem resK_eq_resR {M : Type} [AddCommMonoid M] [Mul M] (Wres : β → α → M) (bres : α → M) (x2 : ι → α → M)
    (x1 : ι → β → M) (r : ι) (c : α) : resK Wres bres x2 x1 r c = resR Wres bres x2 x1 r c := by
  unfold resK resR
  rw [add_assoc]

/-- The first result: at real data the node-side and the edge-side arrangements of the two layers with the residual
    sum agree. -/
theorem xK_eq_xR (hit : ε → ι → Prop) [∀ e r, Decidable (hit e r)] (sr dn : ε → ι)
    (hdn : ∀ e r, hit e r → dn e = r)
    (d : ι → EReal) (ne : ι → α → EReal) (W1 : α → β → EReal) (b1 : β → EReal) (W2 : β → α → EReal)
    (b2 : α → EReal) (Wres : β → α → EReal) (bres : α → EReal)
    (hd : ∀ r, ∃ x : ℝ, d r = (x : EReal)) (hne : ∀ r k, ∃ x : ℝ, ne r k = (x : EReal))
    (hW1 : ∀ k j, ∃ x : ℝ, W1 k j = (x : EReal)) (hb1 : ∀ j, ∃ x : ℝ, b1 j = (x : EReal))
    (hW2 : ∀ j c, ∃ x : ℝ, W2 j c = (x : EReal)) (hb2 : ∀ c, ∃ x : ℝ, b2 c = (x : EReal))
    (hWres : ∀ j c, ∃ x : ℝ, Wres j c = (x : EReal)) (hbres : ∀ c, ∃ x : ℝ, bres c = (x : EReal))
    (r : ι) (c : α) :
    GcnSpec.xK hit sr 2 0 d ne W1 b1 W2 b2 Wres bres r c = GcnSpec.xR hit sr dn 0 d ne W1 b1 W2 b2 Wres bres r c := by
  have h1 : x1K hit sr 2 0 d ne W1 b1 = x1R hit sr dn 0 d ne W1 b1 :=
    funext fun r => funext fun j => x1K_eq_x1R hit sr dn hdn d ne W1 b1 hd hne hW1 hb1 r j
  have h2 : x2K hit sr 2 0 d b2 (proj2 W2 (x1R hit sr dn 0 d ne W1 b1))
      = x2R hit sr dn 0 d b2 (proj2 W2 (x1R hit sr dn 0 d ne W1 b1)) :=
    funext fun r => funext fun c =>
      x2K_eq_x2R hit sr dn hdn d b2 _ hd hb2
        (proj2_isReal W2 _ hW2 (x1R_isReal hit sr dn d ne W1 b1 hd hne hW1 hb1)) r c
  unfold xK xR
  rw [h1, h2, resK_eq_resR]

/-- The second result: the head applied to the two first results, which agree at real data. -/
theorem AK_eq_AR (hit : ε → ι → Prop) [∀ e r, Decidable (hit e r)] (sr dn : ε → ι)
    (hdn : ∀ e r, hit e r → dn e = r)
    (d : ι → EReal) (ne : ι → α → EReal) (W1 : α → β → EReal) (b1 : β → EReal) (W2 : β → α → EReal)
    (b2 : α → EReal) (Wres : β → α → EReal) (bres : α → EReal)
    (Wfc1 : α → γ → EReal) (bfc1 : γ → EReal) (Wfc2 : γ → EReal) (bfc2 : EReal)
    (hd : ∀ r, ∃ x : ℝ, d r = (x : EReal)) (hne : ∀ r k, ∃ x : ℝ, ne r k = (x : EReal))
    (hW1 : ∀ k j, ∃ x : ℝ, W1 k j = (x : EReal)) (hb1 : ∀ j, ∃ x : ℝ, b1 j = (x : EReal))
    (hW2 : ∀ j c, ∃ x : ℝ, W2 j c = (x : EReal)) (hb2 : ∀ c, ∃ x : ℝ, b2 c = (x : EReal))
    (hWres : ∀ j c, ∃ x : ℝ, Wres j c = (x : EReal)) (hbres : ∀ c, ∃ x : ℝ, bres c = (x : EReal))
    (r : ι) :
    GcnSpec.AK hit sr 2 0 d ne W1 b1 W2 b2 Wres bres Wfc1 bfc1 Wfc2 bfc2 r
      = GcnSpec.AR hit sr dn 0 d ne W1 b1 W2 b2 Wres bres Wfc1 bfc1 Wfc2 bfc2 r := by
  have hx : xK hit sr 2 0 d ne W1 b1 W2 b2 Wres bres = xR hit sr dn 0 d ne W1 b1 W2 b2 Wres bres :=
    funext fun r => funext fun c =>
      xK_eq_xR hit sr dn hdn d ne W1 b1 W2 b2 Wres bres hd hne hW1 hb1 hW2 hb2 hWres hbres r c
  unfold AK AR
  rw [hx]

end Extended

end Cert.GcnAlgebra
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.PreReal.lean ====
/-
  From the precondition to "every entry of every float argument is a real number".

  The precondition is the conjunction, over the eleven float arguments (every argument but the integer edge list,
  argument 1), of all(|x| < +inf), joined left to right by `and` on one-bit words. A conjunction that is 1 has both
  sides 1, so each all(...) is 1; an all(|x| < +inf) that is 1 holds at every index; and on the extended reals
  |x| < +inf excludes both infinities, so the entry is the coercion of a real. The algebra that joins the two
  programs distributes products over sums, which holds on reals and fails at infinities: this is where that
  hypothesis comes from.
-/
import proofs.«168154_j70214125355147_2_alg».proof.Defs
import proofs.«168154_j70214125355147_2_alg».proof.Proof.Gen.Pre_finite_inputs
import proofs.«168154_j70214125355147_2_alg».proof.Proof.LibFiniteAll

noncomputable section

namespace Cert.PreReal

open Idealize.ShloMosaic Idealize.SL.Sem

/-- Every entry of each of the eleven float arguments is a real number (arguments 0, 2, 3, …, 11 in order). -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal))
    ∧ (∀ i, ∃ x : ℝ, m ((c.tc : Thread Cert.KernelIdeal.nD Cert.KernelIdeal.τ).loc Cert.KernelIdeal.main_arg6) i = (x : EReal))
    ∧ (∀ i, ∃ x : ℝ, m ((c.tc : Thread Cert.KernelIdeal.nD Cert.KernelIdeal.τ).loc Cert.KernelIdeal.main_arg7) i = (x : EReal))
    ∧ (∀ i, ∃ x : ℝ, m ((c.tc : Thread Cert.KernelIdeal.nD Cert.KernelIdeal.τ).loc Cert.KernelIdeal.main_arg8) i = (x : EReal))
    ∧ (∀ i, ∃ x : ℝ, m ((c.tc : Thread Cert.KernelIdeal.nD Cert.KernelIdeal.τ).loc Cert.KernelIdeal.main_arg9) i = (x : EReal))
    ∧ (∀ i, ∃ x : ℝ, m ((c.tc : Thread Cert.KernelIdeal.nD Cert.KernelIdeal.τ).loc Cert.KernelIdeal.main_arg10) i = (x : EReal))
    ∧ (∀ i, ∃ x : ℝ, m ((c.tc : Thread Cert.KernelIdeal.nD Cert.KernelIdeal.τ).loc Cert.KernelIdeal.main_arg11) i = (x : EReal)) := by
  -- the predicate's one word, as the nested conjunction of the eleven reductions
  have h0 := congrFun (h c) ValueIdx.ix0
  dsimp only [Cert.Pre_finite_inputs.fn, Cert.Pre_finite_inputs.fn_part1, Cert.Pre_finite_inputs.fn_part2,
    Cert.Pre_finite_inputs.fn_part3] at h0
  -- split it, last conjunct first
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  -- each reduction that is 1 gives a real at every index
  exact ⟨fun i => Cert.LibFiniteAll.real_of_all _ _ _ _ e0 i,
    fun i => Cert.LibFiniteAll.real_of_all _ _ _ _ e2 i,
    fun i => Cert.LibFiniteAll.real_of_all _ _ _ _ e3 i,
    fun i => Cert.LibFiniteAll.real_of_all _ _ _ _ e4 i,
    fun i => Cert.LibFiniteAll.real_of_all _ _ _ _ e5 i,
    fun i => Cert.LibFiniteAll.real_of_all _ _ _ _ e6 i,
    fun i => Cert.LibFiniteAll.real_of_all _ _ _ _ e7 i,
    fun i => Cert.LibFiniteAll.real_of_all _ _ _ _ e8 i,
    fun i => Cert.LibFiniteAll.real_of_all _ _ _ _ e9 i,
    fun i => Cert.LibFiniteAll.real_of_all _ _ _ _ e10 i,
    fun i => Cert.LibFiniteAll.real_of_all _ _ _ _ e11 i⟩

end Cert.PreReal

end
-- ==== Proof.lean ====
/-
  The certificate's five claims.

  Both programs compute a two-layer graph convolution over 50000 nodes and 400000 edges, a residual projection and a
  two-layer head, and return the pair (x, A). Every node carries two self loops, so its degree is the number of edges
  ending at it plus two, and its normalisation factor d = degree^(-1/2) is a positive real.
  The reference lists the self loops among the edges, multiplies by the weight matrix first and weighs every listed
  edge by d(start) · d(end). The kernel aggregates first, at the input width, takes d(end) out of the edge sum, adds
  the self loops as the diagonal term 2 · d · d · value, and multiplies by the weight matrix inside its first region;
  its second region adds the second layer's bias, the residual projection and the head. The two arrangements agree
  by distributivity and by exchanging two finite sums — laws of the real numbers that fail at infinities — so the
  precondition (every float input finite) is used: with it every quantity in sight is a real number.
  The three frames are the generated ones (the reference's is its run with the results dropped); the idealization
  ledger is empty; the value claim pairs the kernel's run, whose results are read off its last region's arrays, with
  the reference's run, index by index.
-/
import proofs.«168154_j70214125355147_2_alg».proof.Defs
import proofs.«168154_j70214125355147_2_alg».proof.Proof.Gen.Kernel
import proofs.«168154_j70214125355147_2_alg».proof.Proof.Gen.Kernel.Skeleton
import proofs.«168154_j70214125355147_2_alg».proof.Proof.Gen.Kernel.Launch
import proofs.«168154_j70214125355147_2_alg».proof.Proof.Gen.Kernel.Points
import proofs.«168154_j70214125355147_2_alg».proof.Proof.Gen.Kernel.Frame
import proofs.«168154_j70214125355147_2_alg».proof.Proof.Gen.KernelIdeal
import proofs.«168154_j70214125355147_2_alg».proof.Proof.Gen.KernelIdeal.Skeleton
import proofs.«168154_j70214125355147_2_alg».proof.Proof.Gen.KernelIdeal.Launch
import proofs.«168154_j70214125355147_2_alg».proof.Proof.Gen.KernelIdeal.Points
import proofs.«168154_j70214125355147_2_alg».proof.Proof.Gen.KernelIdeal.Frame
import proofs.«168154_j70214125355147_2_alg».proof.Proof.Gen.ReferenceIdeal
import proofs.«168154_j70214125355147_2_alg».proof.Proof.Gen.Pre_finite_inputs
import proofs.«168154_j70214125355147_2_alg».proof.Proof.RefRunP
import proofs.«168154_j70214125355147_2_alg».proof.Proof.RefReadP
import proofs.«168154_j70214125355147_2_alg».proof.Proof.RefValue
import proofs.«168154_j70214125355147_2_alg».proof.Proof.Bridge
import proofs.«168154_j70214125355147_2_alg».proof.Proof.GcnAlgebra
import proofs.«168154_j70214125355147_2_alg».proof.Proof.PreReal
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.GcnData

/-- The two idealized programs, run from memories that agree on the arguments, end with equal results: the kernel's
    are the node-side forms xK and AK of the argument arrays, the reference's the edge-side forms xR and AR, and on
    real data the two sides are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W6 m ρ c (Proc.devRef .tc Cert.KernelIdeal.main_v44_0),
    fun c => Cert.KernelIdeal.Gen.W6 m ρ c (Proc.devRef .tc Cert.KernelIdeal.main_v44_1),
    Cert.KernelIdeal.RunV.run_vals m ρ, ?_⟩
  refine (θ_run Cert.ReferenceIdeal.defs _ _).mono (fun s h c => ⟨(h c).1.trans ?_, (h c).2.1.trans ?_, (h c).2.2⟩)
    (Cert.ReferenceIdeal.ValueP.run (F := Ideal) m' ρ')
  · obtain ⟨e0, e1, e2, e3, e4, e5, e6, e7, -⟩ := hagree c
    obtain ⟨r0, r2, r3, r4, r5, r6, r7, -⟩ := Cert.PreReal.args_real m hpre c
    rw [Cert.ReferenceIdeal.ReadP.val_main_v70_eq, e0, e1, e2, e3, e4, e5, e6, e7]
    funext i
    obtain ⟨r, cc, rfl⟩ : ∃ (r : Fin 50000) (cc : Fin 128), i = ix2 r cc := ⟨i 0, i 1, eq_ix2 i⟩
    rw [Cert.RefValue.ref_x]
    refine Eq.trans ?_ (Cert.Bridge.kernel_x m ρ c r cc).symm
    exact (Cert.GcnAlgebra.xK_eq_xR _ _ _ (dn_of_hit _) _ _ _ _ _ _ _ _ (dfac_real _)
      (fun r k => r0 (ix2 r k)) (fun k j => r2 (ix2 k j)) (fun j => r3 (ix1 j)) (fun j c => r4 (ix2 j c))
      (fun c => r5 (ix1 c)) (fun j c => r6 (ix2 j c)) (fun c => r7 (ix1 c)) r cc).symm
  · obtain ⟨e0, e1, e2, e3, e4, e5, e6, e7, e8, e9, e10, e11⟩ := hagree c
    obtain ⟨r0, r2, r3, r4, r5, r6, r7, -⟩ := Cert.PreReal.args_real m hpre c
    rw [Cert.ReferenceIdeal.ReadP.val_main_v79_eq, e0, e1, e2, e3, e4, e5, e6, e7, e8, e9, e10, e11]
    funext i
    obtain ⟨r, q, rfl⟩ : ∃ (r : Fin 50000) (q : Fin 1), i = ix2 r q := ⟨i 0, i 1, eq_ix2 i⟩
    obtain rfl : q = 0 := Subsingleton.elim _ _
    rw [Cert.RefValue.ref_A]
    refine Eq.trans ?_ (Cert.Bridge.kernel_A m ρ c r).symm
    exact (Cert.GcnAlgebra.AK_eq_AR _ _ _ (dn_of_hit _) _ _ _ _ _ _ _ _ _ _ _ _ (dfac_real _)
      (fun r k => r0 (ix2 r k)) (fun k j => r2 (ix2 k j)) (fun j => r3 (ix1 j)) (fun j c => r4 (ix2 j c))
      (fun c => r5 (ix1 c)) (fun j c => r6 (ix2 j c)) (fun c => r7 (ix1 c)) r).symm

/-- The certificate: the generated facts; the two kernels' generated frames; the reference's frame, which is its run
    with the results dropped; the empty ledger; the value claim. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.ValueP.run (F := Ideal) m ρ),
  trivial,
  algebraic⟩

end Cert.Proof

end
